-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_1)) (v1 : (c : Dev Cert.KernelIdeal.nD) → Buf (Elt Ideal) ((c.tc : Thread Cert.KernelIdeal.nD Cert.KernelIdeal.τ).loc Cert.KernelIdeal.main_v0_0)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_1) = v0 c
          ∧ r.2.mem ((c.tc : Thread Cert.KernelIdeal.nD Cert.KernelIdeal.τ).loc Cert.KernelIdeal.main_v0_0) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_arg1) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x32 : Shape := ⟨2, ![128, 32]⟩
abbrev S32x16 : Shape := ⟨2, ![32, 16]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x32 : S_.BroadcastsInDim S128x32 (![] : Fin 0 → Fin S128x32.rank)
  reducesTo_S128x32_S_d0_1 : S128x32.ReducesTo [0, 1] S_
  bcast_S_S32x16 : S_.BroadcastsInDim S32x16 (![] : Fin 0 → Fin S32x16.rank)
  reducesTo_S32x16_S_d0_1 : S32x16.ReducesTo [0, 1] S_

variable [Facts]

def fn_part1 {F : FTy → Type} [FloatOps F] (main_v13 : IVec S_ 1) (main_v16 : IVec S32x16 1) : IVec S_ 1 :=
  let main_c_5 : IVec S_ 1 := constantI S_ 1 1#1
  let main_v17 : IVec S_ 1 := (fun x v => Host.reduce IntOp.andi x v reducesTo_S32x16_S_d0_1 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x32 .f32) (main_arg3 : FVec F S32x16 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x32 .f32 := Host.absf main_arg2
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_c_3 : IVec S_ 1 := constantI S_ 1 1#1
  let main_v12 : IVec S_ 1 := (fun x v => Host.reduce IntOp.andi x v reducesTo_S128x32_S_d0_1 h_S_) main_v11 main_c_3
  let main_v13 : IVec S_ 1 := andi main_v8 main_v12
  let main_v14 : FVec F S32x16 .f32 := Host.absf main_arg3
  let main_cst_4 : FVec F S_ .f32 := constant S_ .f32 0x7F800000#32
  let main_v15 : FVec F S32x16 .f32 := broadcastInDim S32x16 ![] bcast_S_S32x16 main_cst_4
  let main_v16 : IVec S32x16 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x32 : Shape := ⟨2, ![128, 32]⟩
abbrev S32x16 : Shape := ⟨2, ![32, 16]⟩
abbrev S10000x32 : Shape := ⟨2, ![10000, 32]⟩
abbrev S10000x16 : Shape := ⟨2, ![10000, 16]⟩
abbrev S400x10000 : Shape := ⟨2, ![400, 10000]⟩
abbrev S400x32 : Shape := ⟨2, ![400, 32]⟩
abbrev S400x16 : Shape := ⟨2, ![400, 16]⟩
abbrev S200x10000 : Shape := ⟨2, ![200, 10000]⟩
abbrev S400 : Shape := ⟨1, ![400]⟩
abbrev S400x1 : Shape := ⟨2, ![400, 1]⟩

abbrev nBuf : Space → Nat
  | .hbm => 7
  | .vmem => 13
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x32, .f32⟩
  | .hbm, ⟨3, _⟩ => ⟨S32x16, .f32⟩
  | .hbm, ⟨4, _⟩ => ⟨S10000x32, .f32⟩
  | .hbm, ⟨5, _⟩ => ⟨S10000x16, .f32⟩
  | .hbm, ⟨6, _⟩ => ⟨S10000x10000, .f32⟩
  | .local _ .vmem, ⟨0, _⟩ => ⟨S10000x128, .f32⟩
  | .local _ .vmem, ⟨1, _⟩ => ⟨S400x10000, .f32⟩
  | .local _ .vmem, ⟨2, _⟩ => ⟨S400x10000, .f32⟩
  | .local _ .vmem, ⟨3, _⟩ => ⟨S128x32, .f32⟩
  | .local _ .vmem, ⟨4, _⟩ => ⟨S32x16, .f32⟩
  | .local _ .vmem, ⟨5, _⟩ => ⟨S400x32, .f32⟩
  | .local _ .vmem, ⟨6, _⟩ => ⟨S400x32, .f32⟩
  | .local _ .vmem, ⟨7, _⟩ => ⟨S400x16, .f32⟩
  | .local _ .vmem, ⟨8, _⟩ => ⟨S400x16, .f32⟩
  | .local _ .vmem, ⟨9, _⟩ => ⟨S200x10000, .f32⟩
  | .local _ .vmem, ⟨10, _⟩ => ⟨S200x10000, .f32⟩
  | .local _ .vmem, ⟨11, _⟩ => ⟨S10000x32, .bf16⟩
  | .local _ .vmem, ⟨12, _⟩ => ⟨S10000x16, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg0 : BitVec 32 := BitVec.ofNat 32 (i 0).val
  let c0_i32_2 : BitVec 32 := 0#32
  let v5 : BitVec 1 := Scalar.cmpi .eq arg0 c0_i32_2
  let v6 : BitVec 32 := Scalar.extui v5
  let c0_i32_3 : BitVec 32 := 0#32
  let v7 : BitVec 1 := Scalar.cmpi .ne v6 c0_i32_3
  v7

def k0_off1 (i : grid0.Coords) : Fin 2 → Nat :=
  let arg1 : BitVec 32 := BitVec.ofNat 32 (i 1).val
  let c400_i32 : BitVec 32 := 400#32
  let v23 : BitVec 32 := Scalar.muli arg1 c400_i32
  let v24 : Index := Scalar.indexCast v23
  let c0_18 : Index := 0#32
  ![v24.toNat, 0]
def k0_cond3 (i : grid0.Coords) : BitVec 1 :=
  let arg0 : BitVec 32 := BitVec.ofNat 32 (i 0).val
  let c1_i32 : BitVec 32 := 1#32
  let v8 : BitVec 1 := Scalar.cmpi .eq arg0 c1_i32
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c24_i32 : BitVec 32 := 24#32
  let v1 : BitVec 32 := Scalar.select v0 arg1 c24_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let v1 : BitVec 32 := Scalar.addi v0 arg0
  let c0_i32 : BitVec 32 := 0#32
  let c0_i32_0 : BitVec 32 := 0#32
  ![v1.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S400x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S128x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S32x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S400x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S400x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S200x10000 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  inb_S10000x128_S10000x128_0_0 : ∀ a, (![0, 0] : Fin 2 → Nat) a + S10000x128.size a ≤ S10000x128.size a
  h_S10000x128 : 0 < S10000x128.numel
  inb_S128x32_S128x32_0_0 : ∀ a, (![0, 0] : Fin 2 → Nat) a + S128x32.size a ≤ S128x32.size a
  h_S128x32 : 0 < S128x32.numel
  bitsLt_bf16_f32 : FTy.bits .bf16 < FTy.bits .f32
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  packedbf16_S10000x32_S10000x32_0_0 : (Rect.unit (s := S10000x32) ![0, 0] S10000x32.size inb_S10000x32_S10000x32_0_0).PackedRows (EltTy.packing .bf16)
  inb_S400x10000_S200x10000_0_0 : ∀ a, (![0, 0] : Fin 2 → Nat) a + S200x10000.size a ≤ S400x10000.size a
  h_S200x10000 : 0 < S200x10000.numel
  inb_S200x10000_S200x10000_0_0 : ∀ a, (![0, 0] : Fin 2 → Nat) a + S200x10000.size a ≤ S200x10000.size a
  inb_S400x10000_S400x10000_0_0 : ∀ a, (![0, 0] : Fin 2 → Nat) a + S400x10000.size a ≤ S400x10000.size a
  h_S400x10000 : 0 < S400x10000.numel
  inb_S400x32_S400x32_0_0 : ∀ a, (![0, 0] : Fin 2 → Nat) a + S400x32.size a ≤ S400x32.size a
  h_S400x32 : 0 < S400x32.numel
  inb_S32x16_S32x16_0_0 : ∀ a, (![0, 0] : Fin 2 → Nat) a + S32x16.size a ≤ S32x16.size a
  h_S32x16 : 0 < S32x16.numel
  h_S400x16 : 0 < S400x16.numel
  shapeCasts_S400x16_S400x16 : S400x16.ShapeCasts S400x16
  inb_S400x10000_S200x10000_200_0 : ∀ a, (![200, 0] : Fin 2 → Nat) a + S200x10000.size a ≤ S400x10000.size a
  inb_S10000x16_S10000x16_0_0 : ∀ a, (![0, 0] : Fin 2 → Nat) a + S10000x16.size a ≤ S10000x16.size a
  h_S10000x16 : 0 < S10000x16.numel
  reduces_S400x16_S400 : S400x16.Reduces [1] S400
  shapeCasts_S400_S400x1 : S400.ShapeCasts S400x1
  broadcasts_S400x1_S400x16 : S400x1.Broadcasts S400x16
  inb_S400x16_S400x16_0_0 : ∀ a, (![0, 0] : Fin 2 → Nat) a + S400x16.size a ≤ S400x16.size a
  dot_S10000x128_S128x32_S10000x32_1_0_0_1_n_n_wf : DotDims.WF S10000x128 S128x32 S10000x32 [1] [0] [0] [1] [] []
  dot_S400x10000_S10000x32_S400x32_1_0_0_1_n_n_wf : DotDims.WF S400x10000 S10000x32 S400x32 [1] [0] [0] [1] [] []
  dot_S400x32_S32x16_S400x16_1_0_0_1_n_n_wf : DotDims.WF S400x32 S32x16 S400x16 [1] [0] [0] [1] [] []
  dot_S400x10000_S10000x16_S400x16_1_0_0_1_n_n_wf : DotDims.WF S400x10000 S10000x16 S400x16 [1] [0] [0] [1] [] []
  hrank0 : 0 < grid0.rank
  k0_off1_inb : ∀ i : grid0.Coords, ∀ (k0_h2 : k0_cond2 i = 1#1), ∀ a, (k0_off1 i) a + S400x16.size a ≤ S10000x16.size a
  k0_off1_packedbf16 : ∀ i : grid0.Coords, ∀ (k0_h2 : k0_cond2 i = 1#1), (Rect.unit (s := S10000x16) (k0_off1 i) S400x16.size (k0_off1_inb i k0_h2)).PackedRows (EltTy.packing .bf16)
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x10000.size a ≤ S10000x10000.size a
  hwx0_1 : ∀ i : grid0.Coords, EltTy.bits .f32 = 32 ∨ (Rect.block (s := S10000x10000) S400x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x32.size a ≤ S128x32.size a
  hwx0_2 : ∀ i : grid0.Coords, EltTy.bits .f32 = 32 ∨ (Rect.block (s := S128x32) S128x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x16.size a ≤ S32x16.size a
  hwx0_3 : ∀ i : grid0.Coords, EltTy.bits .f32 = 32 ∨ (Rect.block (s := S32x16) S32x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x32.size a ≤ S10000x32.size a
  hwx0_4 : ∀ i : grid0.Coords, EltTy.bits .f32 = 32 ∨ (Rect.block (s := S10000x32) S400x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x16.size a ≤ S10000x16.size a
  hwx0_5 : ∀ i : grid0.Coords, EltTy.bits .f32 = 32 ∨ (Rect.block (s := S10000x16) S400x16.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S200x10000.size a ≤ S10000x10000.size a
  hwx0_6 : ∀ i : grid0.Coords, EltTy.bits .f32 = 32 ∨ (Rect.block (s := S10000x10000) S200x10000.size (cc0_transform_6 i) (hinb0_6 i)).WholeWords (EltTy.packing .f32)

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S400x10000_S10000x32_S400x32_1_0_0_1_n_n : DotDims S400x10000 S10000x32 S400x32 where
  lhsContracting := [1]
  rhsContracting := [0]
  lhsNonContracting := [0]
  rhsNonContracting := [1]
  lhsBatch := []
  rhsBatch := []
  wf := dot_S400x10000_S10000x32_S400x32_1_0_0_1_n_n_wf
def dot_S400x32_S32x16_S400x16_1_0_0_1_n_n : DotDims S400x32 S32x16 S400x16 where
  lhsContracting := [1]
  rhsContracting := [0]
  lhsNonContracting := [0]
  rhsNonContracting := [1]
  lhsBatch := []
  rhsBatch := []
  wf := dot_S400x32_S32x16_S400x16_1_0_0_1_n_n_wf
def dot_S400x10000_S10000x16_S400x16_1_0_0_1_n_n : DotDims S400x10000 S10000x16 S400x16 where
  lhsContracting := [1]
  rhsContracting := [0]
  lhsNonContracting := [0]
  rhsNonContracting := [1]
  lhsBatch := []
  rhsBatch := []
  wf := dot_S400x10000_S10000x16_S400x16_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S400x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S400x32.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S400x16.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_2) S200x10000.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun i => !(k0_cond2 i == 1#1) | 5 => fun i => !(k0_cond3 i == 1#1) | 6 => fun i => !(k0_cond2 i == 1#1) && !(k0_cond3 i == 1#1) | ⟨_ + 7, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x32 : Shape := ⟨2, ![128, 32]⟩
abbrev S32x16 : Shape := ⟨2, ![32, 16]⟩
abbrev S10000x32 : Shape := ⟨2, ![10000, 32]⟩
abbrev S_ : Shape := ⟨0, ![]⟩
abbrev S10000x16 : Shape := ⟨2, ![10000, 16]⟩
abbrev S10000 : Shape := ⟨1, ![10000]⟩
abbrev S10000x1 : Shape := ⟨2, ![10000, 1]⟩

abbrev nBuf : Space → Nat
  | .hbm => 29
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x32, .f32⟩
  | .hbm, ⟨3, _⟩ => ⟨S32x16, .f32⟩
  | .hbm, ⟨4, _⟩ => ⟨S10000x32, .f32⟩
  | .hbm, ⟨5, _⟩ => ⟨S10000x32, .f32⟩
  | .hbm, ⟨6, _⟩ => ⟨S_, .f32⟩
  | .hbm, ⟨7, _⟩ => ⟨S10000x32, .f32⟩
  | .hbm, ⟨8, _⟩ => ⟨S10000x32, .f32⟩
  | .hbm, ⟨9, _⟩ => ⟨S10000x16, .f32⟩
  | .hbm, ⟨10, _⟩ => ⟨S10000x16, .f32⟩
  | .hbm, ⟨11, _⟩ => ⟨S_, .f32⟩
  | .hbm, ⟨12, _⟩ => ⟨S10000x16, .f32⟩
  | .hbm, ⟨13, _⟩ => ⟨S10000x16, .f32⟩
  | .hbm, ⟨14, _⟩ => ⟨S_, .f32⟩
  | .hbm, ⟨15, _⟩ => ⟨S10000, .f32⟩
  | .hbm, ⟨16, _⟩ => ⟨S_, .f32⟩
  | .hbm, ⟨17, _⟩ => ⟨S10000, .f32⟩
  | .hbm, ⟨18, _⟩ => ⟨S10000, .f32⟩
  | .hbm, ⟨19, _⟩ => ⟨S10000x1, .f32⟩
  | .hbm, ⟨20, _⟩ => ⟨S10000x16, .f32⟩
  | .hbm, ⟨21, _⟩ => ⟨S10000x16, .f32⟩
  | .hbm, ⟨22, _⟩ => ⟨S10000x16, .f32⟩
  | .hbm, ⟨23, _⟩ => ⟨S_, .f32⟩
  | .hbm, ⟨24, _⟩ => ⟨S10000, .f32⟩
  | .hbm, ⟨25, _⟩ => ⟨S10000x1, .f32⟩
  | .hbm, ⟨26, _⟩ => ⟨S10000x1, .f32⟩
  | .hbm, ⟨27, _⟩ => ⟨S10000x16, .f32⟩
  | .hbm, ⟨28, _⟩ => ⟨S10000x16, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_call0_cst : Ref sig .tc := ⟨.hbm, 14, rfl⟩
abbrev main_call0_v0 : Ref sig .tc := ⟨.hbm, 15, rfl⟩
abbrev main_call0_cst_0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_cst_1 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_v8 : Ref sig .tc := ⟨.hbm, 28, rfl⟩

abbrev nD : Nat := 1
abbrev τ : Topo := Topo.v7x

variable {F : FTy → Type} [FloatOps F]

class Facts₀ : Prop where
  bcast_S_S10000x32 : S_.BroadcastsInDim S10000x32 (![] : Fin 0 → Fin S10000x32.rank)
  bcast_S_S10000x16 : S_.BroadcastsInDim S10000x16 (![] : Fin 0 → Fin S10000x16.rank)
  reducesTo_S10000x16_S10000_d1 : S10000x16.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x16_0_1 : S10000x1.BroadcastsInDim S10000x16 (![0, 1] : Fin 2 → Fin S10000x16.rank)
  dot_S10000x128_S128x32_S10000x32_1_0_0_1_n_n_wf : DotDims.WF S10000x128 S128x32 S10000x32 [1] [0] [0] [1] [] []
  dot_S10000x10000_S10000x32_S10000x32_1_0_0_1_n_n_wf : DotDims.WF S10000x10000 S10000x32 S10000x32 [1] [0] [0] [1] [] []
  dot_S10000x32_S32x16_S10000x16_1_0_0_1_n_n_wf : DotDims.WF S10000x32 S32x16 S10000x16 [1] [0] [0] [1] [] []
  dot_S10000x10000_S10000x16_S10000x16_1_0_0_1_n_n_wf : DotDims.WF S10000x10000 S10000x16 S10000x16 [1] [0] [0] [1] [] []

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S10000x10000_S10000x32_S10000x32_1_0_0_1_n_n : DotDims S10000x10000 S10000x32 S10000x32 where
  lhsContracting := [1]
  rhsContracting := [0]
  lhsNonContracting := [0]
  rhsNonContracting := [1]
  lhsBatch := []
  rhsBatch := []
  wf := dot_S10000x10000_S10000x32_S10000x32_1_0_0_1_n_n_wf
def dot_S10000x32_S32x16_S10000x16_1_0_0_1_n_n : DotDims S10000x32 S32x16 S10000x16 where
  lhsContracting := [1]
  rhsContracting := [0]
  lhsNonContracting := [0]
  rhsNonContracting := [1]
  lhsBatch := []
  rhsBatch := []
  wf := dot_S10000x32_S32x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf

class Facts : Prop extends Facts₀ where

variable [Facts]
-- ==== Proof.BodyK.lean ====
/-
  The kernel body at a grid point, in each of the three cases its branches on the grid coordinates make.

  The grid is 2 × 25: a first pass (coordinate 0 is 0) over the 25 blocks of 400 rows of the adjacency, then a second
  pass over the same blocks. At the very first point the body also forms x · W1 and keeps it in its first scratch array.
  In the first pass it copies the upper half of the adjacency block out, stores the block of the first layer, and writes
  that block times W2 into rows 400·i … 400·i + 399 of its second scratch array; in the second pass it copies the lower
  half out and stores the block of the result. So there are three cases: the first point (A), the rest of the first
  pass (B), the second pass (C). In each, the body runs on any whole staging buffers holding the input blocks, and
  each buffer it stores into ends with the listed stores written over what it held; a buffer the case does not
  store into is handed back as found.
-/
import proofs.«132780_g18872086298805_cont_8to1_696_32_alg».proof.Proof.Gen.Kernel.Frame
import proofs.«132780_g18872086298805_cont_8to1_696_32_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions, from the grid coordinates -/

/-- The very first point: both coordinates zero. -/
abbrev condFirst (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- The first pass. -/
abbrev condPass0 (i : grid0.Coords) : Prop := k0_cond2 i = 1#1
/-- The second pass. -/
abbrev condPass1 (i : grid0.Coords) : Prop := k0_cond3 i = 1#1

theorem hcondFirst : ∀ t : Fin cfg0.N, condFirst (grid0.coords t) ↔ t.val = 0 :=
  (by decide +kernel : ∀ t : Fin grid0.N, condFirst (grid0.coords t) ↔ t.val = 0)
theorem hcondPass0 : ∀ t : Fin cfg0.N, condPass0 (grid0.coords t) ↔ t.val < 25 :=
  (by decide +kernel : ∀ t : Fin grid0.N, condPass0 (grid0.coords t) ↔ t.val < 25)
theorem hcondPass1 : ∀ t : Fin cfg0.N, condPass1 (grid0.coords t) ↔ 25 ≤ t.val :=
  (by decide +kernel : ∀ t : Fin grid0.N, condPass1 (grid0.coords t) ↔ 25 ≤ t.val)

/-! ## Case A: the first point -/

set_option maxHeartbeats 1000000 in
/-- The first point. Found by the run: the stores into the first-layer buffer, the copy buffer, and the two scratch arrays. -/
noncomputable def runA (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x32 .f32) (harg4 : arg4.IsWhole) (arg5 : Memref sig .tc .vmem S32x16 .f32) (harg5 : arg5.IsWhole) (arg6 : Memref sig .tc .vmem S400x32 .f32) (harg6 : arg6.IsWhole) (arg7 : Memref sig .tc .vmem S400x16 .f32) (harg7 : arg7.IsWhole) (arg8 : Memref sig .tc .vmem S200x10000 .f32) (harg8 : arg8.IsWhole) (arg9 : Memref sig .tc .vmem S10000x32 .bf16) (harg9 : arg9.IsWhole) (arg10 : Memref sig .tc .vmem S10000x16 .bf16) (harg10 : arg10.IsWhole) (hc0 : condFirst i) (hc1 : condPass0 i) (hc2 : ¬condPass1 i)
    (x0 : Vec F S10000x128 .f32) (x1 : Vec F S400x10000 .f32) (x2 : Vec F S128x32 .f32) (x3 : Vec F S32x16 .f32) (y7 : Vec F S400x16 .f32) (xs1 : Vec F S10000x16 .bf16) :
    { L : List (View.Piece (Elt F) S400x32 .f32) × List (View.Piece (Elt F) S200x10000 .f32) × List (View.Piece (Elt F) S10000x32 .bf16) × List (View.Piece (Elt F) S10000x16 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare y7 ∗ (∃ d, owns (c : Thread nD τ) arg8 fullShare d) ∗ (∃ d, owns (c : Thread nD τ) arg9 fullShare d) ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L.1) ∗ owns (c : Thread nD τ) arg7 fullShare y7 ∗ (∃ f, arg8.view.loc (c : Thread nD τ) ↦[arg8.view.set]{fullShare} arg8.view.writes (Elt F) f L.2.1) ∗ (∃ f, arg9.view.loc (c : Thread nD τ) ↦[arg9.view.set]{fullShare} arg9.view.writes (Elt F) f L.2.2.1) ∗ (arg10.view.loc (c : Thread nD τ) ↦[arg10.view.set]{fullShare} arg10.view.writes (Elt F) (harg10.unread xs1) L.2.2.2)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10) K } := by
  refine ⟨(?_, ?_, ?_, ?_), fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%d6, %f6, -, H6⟩, ⟨%ds0, %fs0, -, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg7.eq_unread hf5; obtain rfl := harg10.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    isplitl [H6]; · iexists _; iexact H6
    isplitl [HS0]; · iexists _; iexact HS0
    iexact HS1

/-! ## Case B: the rest of the first pass -/

set_option maxHeartbeats 1000000 in
/-- A later point of the first pass: the product kept in the first scratch array is read, not formed. Found by the run: the
    stores into the first-layer buffer, the copy buffer and the second scratch array. -/
noncomputable def runB (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x32 .f32) (harg4 : arg4.IsWhole) (arg5 : Memref sig .tc .vmem S32x16 .f32) (harg5 : arg5.IsWhole) (arg6 : Memref sig .tc .vmem S400x32 .f32) (harg6 : arg6.IsWhole) (arg7 : Memref sig .tc .vmem S400x16 .f32) (harg7 : arg7.IsWhole) (arg8 : Memref sig .tc .vmem S200x10000 .f32) (harg8 : arg8.IsWhole) (arg9 : Memref sig .tc .vmem S10000x32 .bf16) (harg9 : arg9.IsWhole) (arg10 : Memref sig .tc .vmem S10000x16 .bf16) (harg10 : arg10.IsWhole) (hc0 : ¬condFirst i) (hc1 : condPass0 i) (hc2 : ¬condPass1 i)
    (x0 : Vec F S10000x128 .f32) (x1 : Vec F S400x10000 .f32) (x2 : Vec F S128x32 .f32) (x3 : Vec F S32x16 .f32) (y7 : Vec F S400x16 .f32) (xs0 : Vec F S10000x32 .bf16) (xs1 : Vec F S10000x16 .bf16) :
    { L : List (View.Piece (Elt F) S400x32 .f32) × List (View.Piece (Elt F) S200x10000 .f32) × List (View.Piece (Elt F) S10000x16 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare y7 ∗ (∃ d, owns (c : Thread nD τ) arg8 fullShare d) ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L.1) ∗ owns (c : Thread nD τ) arg7 fullShare y7 ∗ (∃ f, arg8.view.loc (c : Thread nD τ) ↦[arg8.view.set]{fullShare} arg8.view.writes (Elt F) f L.2.1) ∗ owns (c : Thread nD τ) arg9 fullShare xs0 ∗ (arg10.view.loc (c : Thread nD τ) ↦[arg10.view.set]{fullShare} arg10.view.writes (Elt F) (harg10.unread xs1) L.2.2)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10) K } := by
  refine ⟨(?_, ?_, ?_), fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg7.eq_unread hf5; obtain rfl := harg9.eq_unread hfs0; obtain rfl := harg10.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    isplitl [H6]; · iexists _; iexact H6
    isplitl [HS0]
    · iexists _; isplitr; · ipureintro; exact harg9.read_unread _
      iexact HS0
    iexact HS1

/-! ## Case C: the second pass -/

set_option maxHeartbeats 1000000 in
/-- A point of the second pass: both scratch arrays are read, the first-layer buffer is not touched. Found by the run: the
    stores into the result buffer and the copy buffer. -/
noncomputable def runC (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x32 .f32) (harg4 : arg4.IsWhole) (arg5 : Memref sig .tc .vmem S32x16 .f32) (harg5 : arg5.IsWhole) (arg6 : Memref sig .tc .vmem S400x32 .f32) (harg6 : arg6.IsWhole) (arg7 : Memref sig .tc .vmem S400x16 .f32) (harg7 : arg7.IsWhole) (arg8 : Memref sig .tc .vmem S200x10000 .f32) (harg8 : arg8.IsWhole) (arg9 : Memref sig .tc .vmem S10000x32 .bf16) (harg9 : arg9.IsWhole) (arg10 : Memref sig .tc .vmem S10000x16 .bf16) (harg10 : arg10.IsWhole) (hc0 : ¬condFirst i) (hc1 : ¬condPass0 i) (hc2 : condPass1 i)
    (x0 : Vec F S10000x128 .f32) (x1 : Vec F S400x10000 .f32) (x2 : Vec F S128x32 .f32) (x3 : Vec F S32x16 .f32) (y6 : Vec F S400x32 .f32) (xs0 : Vec F S10000x32 .bf16) (xs1 : Vec F S10000x16 .bf16) :
    { L : List (View.Piece (Elt F) S400x16 .f32) × List (View.Piece (Elt F) S200x10000 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y6 ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y6 ∗ (∃ f, arg7.view.loc (c : Thread nD τ) ↦[arg7.view.set]{fullShare} arg7.view.writes (Elt F) f L.1) ∗ (∃ f, arg8.view.loc (c : Thread nD τ) ↦[arg8.view.set]{fullShare} arg8.view.writes (Elt F) f L.2) ∗ owns (c : Thread nD τ) arg9 fullShare xs0 ∗ owns (c : Thread nD τ) arg10 fullShare xs1) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10) K } := by
  refine ⟨(?_, ?_), fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg6.eq_unread hf4; obtain rfl := harg9.eq_unread hfs0; obtain rfl := harg10.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [HS0]
    · iexists _; isplitr; · ipureintro; exact harg9.read_unread _
      iexact HS0
    iexists _; isplitr; · ipureintro; exact harg10.read_unread _
    iexact HS1

end Cert.Kernel.Body

end
-- ==== Proof.ValsK.lean ====
/-
  What each case of the kernel body leaves, buffer by buffer, as values.

  Every store of the body but one overwrites its whole buffer, so what the buffer then reads is the stored value, whatever
  it held: the block of the first layer, the block of the result, the kept product x · W1, and the copied half of the
  adjacency block (its upper 200 rows in the first pass, its lower 200 in the second). The one partial store writes
  rows 400·i … 400·i + 399 of the second scratch array, i the second grid coordinate: afterwards a row in that range
  reads the stored block at the row less 400·i, and every other row reads what it read before.
-/
import proofs.«132780_g18872086298805_cont_8to1_696_32_alg».proof.Proof.Gen.Kernel.Frame
import proofs.«132780_g18872086298805_cont_8to1_696_32_alg».proof.Proof.Gen.Kernel.Skeleton
import proofs.«132780_g18872086298805_cont_8to1_696_32_alg».proof.Proof.BodyK
import Idealize.ShloMosaic.Lib.WritesUnit
import Idealize.ShloMosaic.Lib.Pipeline.Value
import Idealize.ShloMosaic.Lib.Pipeline.FrameBody
import Idealize.ShloMosaic.Lib.Ring
import Idealize.ShloMosaic.Lib.Tactic

set_option maxRecDepth 16384

noncomputable section

namespace Cert.Kernel.Vals

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.Body

theorem hz : (![0, 0] : Fin 2 → Nat) = fun _ => 0 := funext fun a => by fin_cases a <;> rfl

/-- One store through the whole-shape rectangle leaves its payload, whatever the buffer held. -/
theorem read_writes_whole {sig' : RefSig} {κ' : Kind} {sp' : Space} {S : Shape} {e : EltTy} {Val : EltTy → Type} [∀ e, Nonempty (Val e)]
    (v : View sig' κ' sp' S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w :=
  (View.read_writes_eq_canon v f _ (fun y => ⟨_, List.mem_singleton_self _, View.mem_set_unit_zero h inb y⟩)).trans
    (View.canon_unit_zero h inb w)

/-- The upper 200 rows of a 400-row block. -/
abbrev topHalf (x1 : Vec F S400x10000 .f32) : Vec F S200x10000 .f32 :=
  View.ld x1 (Rect.unit (s := S400x10000) ![0, 0] S200x10000.size inb_S400x10000_S200x10000_0_0)
/-- Its lower 200 rows. -/
abbrev botHalf (x1 : Vec F S400x10000 .f32) : Vec F S200x10000 .f32 :=
  View.ld x1 (Rect.unit (s := S400x10000) ![200, 0] S200x10000.size inb_S400x10000_S200x10000_200_0)

/-- The row offset the partial store computes is 400 times the second grid coordinate. -/
theorem off1_eq (i : grid0.Coords) : k0_off1 i = ![400 * (i 1).val, 0] := by
  have h : ∀ j : Fin 25, (Scalar.indexCast (Scalar.muli (BitVec.ofNat 32 j.val) 400#32)).toNat = 400 * j.val := by decide
  unfold k0_off1
  exact congrArg (fun n => (![n, 0] : Fin 2 → Nat)) (h (i 1))

/-- The second scratch array after the partial store: rows 400·i … 400·i + 399 from the stored block, the rest kept. -/
def putRows (i : grid0.Coords) (d : Vec F S10000x16 .bf16) (blk : Vec F S400x16 .bf16) : Vec F S10000x16 .bf16 :=
  fun y => if h : 400 * (i 1).val ≤ (y 0).val ∧ (y 0).val < 400 * (i 1).val + 400 then
      blk (fun a => match a with
        | ⟨0, _⟩ => ⟨(y 0).val - 400 * (i 1).val, by show _ < 400; omega⟩
        | ⟨1, _⟩ => ⟨(y 1).val, (y 1).isLt⟩)
    else d y

/-! ## Reading each written buffer back -/

/-- The first point leaves the first-layer block formed from the product it has just stored. -/
theorem A_layer1 (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x32 .f32) (harg4 : arg4.IsWhole) (arg5 : Memref sig .tc .vmem S32x16 .f32) (harg5 : arg5.IsWhole) (arg6 : Memref sig .tc .vmem S400x32 .f32) (harg6 : arg6.IsWhole) (arg7 : Memref sig .tc .vmem S400x16 .f32) (harg7 : arg7.IsWhole) (arg8 : Memref sig .tc .vmem S200x10000 .f32) (harg8 : arg8.IsWhole) (arg9 : Memref sig .tc .vmem S10000x32 .bf16) (harg9 : arg9.IsWhole) (arg10 : Memref sig .tc .vmem S10000x16 .bf16) (harg10 : arg10.IsWhole) (hc0 : condFirst i) (hc1 : condPass0 i) (hc2 : ¬condPass1 i)
    (x0 : Vec F S10000x128 .f32) (x1 : Vec F S400x10000 .f32) (x2 : Vec F S128x32 .f32) (x3 : Vec F S32x16 .f32) (y7 : Vec F S400x16 .f32) (xs1 : Vec F S10000x16 .bf16) (f : arg6.view.ty.Contents (Elt F)) :
    arg6.view.read (Elt F) (arg6.view.writes (Elt F) f (runA c i arg2 harg2 arg3 harg3 arg4 harg4 arg5 harg5 arg6 harg6 arg7 harg7 arg8 harg8 arg9 harg9 arg10 harg10 hc0 hc1 hc2 x0 x1 x2 x3 y7 xs1).1.1) = k0_pay2 x1 (k0_pay1 x0 x2) := by
  unfold runA; dsimp only
  sl_unfold_words
  refine (read_writes_whole _ f hz _ _).trans ?_
  simp only [View.readAt_eq_ld, harg2.read_unread, harg3.read_unread, harg4.read_unread, harg5.read_unread, harg9.read_unread, harg10.read_unread,
    View.ld_unit_zero (S := S400x10000) hz, View.ld_unit_zero (S := S10000x32) hz, View.ld_unit_zero (S := S10000x128) hz, View.ld_unit_zero (S := S128x32) hz,
    View.ld_unit_zero (S := S32x16) hz, View.ld_unit_zero (S := S10000x16) hz, View.readCov_unit_zero (S := S10000x32) _ hz]

/-- The first point copies the upper half of the adjacency block. -/
theorem A_copy (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x32 .f32) (harg4 : arg4.IsWhole) (arg5 : Memref sig .tc .vmem S32x16 .f32) (harg5 : arg5.IsWhole) (arg6 : Memref sig .tc .vmem S400x32 .f32) (harg6 : arg6.IsWhole) (arg7 : Memref sig .tc .vmem S400x16 .f32) (harg7 : arg7.IsWhole) (arg8 : Memref sig .tc .vmem S200x10000 .f32) (harg8 : arg8.IsWhole) (arg9 : Memref sig .tc .vmem S10000x32 .bf16) (harg9 : arg9.IsWhole) (arg10 : Memref sig .tc .vmem S10000x16 .bf16) (harg10 : arg10.IsWhole) (hc0 : condFirst i) (hc1 : condPass0 i) (hc2 : ¬condPass1 i)
    (x0 : Vec F S10000x128 .f32) (x1 : Vec F S400x10000 .f32) (x2 : Vec F S128x32 .f32) (x3 : Vec F S32x16 .f32) (y7 : Vec F S400x16 .f32) (xs1 : Vec F S10000x16 .bf16) (f : arg8.view.ty.Contents (Elt F)) :
    arg8.view.read (Elt F) (arg8.view.writes (Elt F) f (runA c i arg2 harg2 arg3 harg3 arg4 harg4 arg5 harg5 arg6 harg6 arg7 harg7 arg8 harg8 arg9 harg9 arg10 harg10 hc0 hc1 hc2 x0 x1 x2 x3 y7 xs1).1.2.1) = topHalf x1 := by
  unfold runA; dsimp only
  sl_unfold_words
  refine (read_writes_whole _ f hz _ _).trans ?_
  simp only [View.readAt_eq_ld, harg2.read_unread, harg3.read_unread, harg4.read_unread, harg5.read_unread, harg9.read_unread, harg10.read_unread,
    View.ld_unit_zero (S := S400x10000) hz, View.ld_unit_zero (S := S10000x32) hz, View.ld_unit_zero (S := S10000x128) hz, View.ld_unit_zero (S := S128x32) hz,
    View.ld_unit_zero (S := S32x16) hz, View.ld_unit_zero (S := S10000x16) hz, View.readCov_unit_zero (S := S10000x32) _ hz]

/-- The first point leaves x · W1 in the first scratch array. -/
theorem A_prod (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x32 .f32) (harg4 : arg4.IsWhole) (arg5 : Memref sig .tc .vmem S32x16 .f32) (harg5 : arg5.IsWhole) (arg6 : Memref sig .tc .vmem S400x32 .f32) (harg6 : arg6.IsWhole) (arg7 : Memref sig .tc .vmem S400x16 .f32) (harg7 : arg7.IsWhole) (arg8 : Memref sig .tc .vmem S200x10000 .f32) (harg8 : arg8.IsWhole) (arg9 : Memref sig .tc .vmem S10000x32 .bf16) (harg9 : arg9.IsWhole) (arg10 : Memref sig .tc .vmem S10000x16 .bf16) (harg10 : arg10.IsWhole) (hc0 : condFirst i) (hc1 : condPass0 i) (hc2 : ¬condPass1 i)
    (x0 : Vec F S10000x128 .f32) (x1 : Vec F S400x10000 .f32) (x2 : Vec F S128x32 .f32) (x3 : Vec F S32x16 .f32) (y7 : Vec F S400x16 .f32) (xs1 : Vec F S10000x16 .bf16) (f : arg9.view.ty.Contents (Elt F)) :
    arg9.view.read (Elt F) (arg9.view.writes (Elt F) f (runA c i arg2 harg2 arg3 harg3 arg4 harg4 arg5 harg5 arg6 harg6 arg7 harg7 arg8 harg8 arg9 harg9 arg10 harg10 hc0 hc1 hc2 x0 x1 x2 x3 y7 xs1).1.2.2.1) = k0_pay1 x0 x2 := by
  unfold runA; dsimp only
  sl_unfold_words
  refine (read_writes_whole _ f hz _ _).trans ?_
  simp only [View.readAt_eq_ld, harg2.read_unread, harg3.read_unread, harg4.read_unread, harg5.read_unread, harg9.read_unread, harg10.read_unread,
    View.ld_unit_zero (S := S400x10000) hz, View.ld_unit_zero (S := S10000x32) hz, View.ld_unit_zero (S := S10000x128) hz, View.ld_unit_zero (S := S128x32) hz,
    View.ld_unit_zero (S := S32x16) hz, View.ld_unit_zero (S := S10000x16) hz, View.readCov_unit_zero (S := S10000x32) _ hz]

/-- The first point writes its block of the second layer's input into the second scratch array. -/
theorem A_rows (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x32 .f32) (harg4 : arg4.IsWhole) (arg5 : Memref sig .tc .vmem S32x16 .f32) (harg5 : arg5.IsWhole) (arg6 : Memref sig .tc .vmem S400x32 .f32) (harg6 : arg6.IsWhole) (arg7 : Memref sig .tc .vmem S400x16 .f32) (harg7 : arg7.IsWhole) (arg8 : Memref sig .tc .vmem S200x10000 .f32) (harg8 : arg8.IsWhole) (arg9 : Memref sig .tc .vmem S10000x32 .bf16) (harg9 : arg9.IsWhole) (arg10 : Memref sig .tc .vmem S10000x16 .bf16) (harg10 : arg10.IsWhole) (hc0 : condFirst i) (hc1 : condPass0 i) (hc2 : ¬condPass1 i)
    (x0 : Vec F S10000x128 .f32) (x1 : Vec F S400x10000 .f32) (x2 : Vec F S128x32 .f32) (x3 : Vec F S32x16 .f32) (y7 : Vec F S400x16 .f32) (xs1 : Vec F S10000x16 .bf16) :
    arg10.view.read (Elt F) (arg10.view.writes (Elt F) (harg10.unread xs1) (runA c i arg2 harg2 arg3 harg3 arg4 harg4 arg5 harg5 arg6 harg6 arg7 harg7 arg8 harg8 arg9 harg9 arg10 harg10 hc0 hc1 hc2 x0 x1 x2 x3 y7 xs1).1.2.2.2) = putRows i xs1 (k0_pay3 x1 (k0_pay1 x0 x2) x3) := by
  unfold runA; dsimp only
  sl_unfold_words
  funext y
  refine (View.read_writes_cons_rows (size := ![400, 16]) (W := 400) (o := 400 * (i 1).val) arg10.view (harg10.unread xs1) _ _ [] y (off1_eq i) rfl rfl).trans ?_
  unfold putRows
  by_cases h : 400 * (i 1).val ≤ (y 0).val ∧ (y 0).val < 400 * (i 1).val + 400
  · rw [dif_pos h, dif_pos h]
    simp only [View.readAt_eq_ld, harg2.read_unread, harg3.read_unread, harg4.read_unread, harg5.read_unread, harg9.read_unread, harg10.read_unread,
    View.ld_unit_zero (S := S400x10000) hz, View.ld_unit_zero (S := S10000x32) hz, View.ld_unit_zero (S := S10000x128) hz, View.ld_unit_zero (S := S128x32) hz,
    View.ld_unit_zero (S := S32x16) hz, View.ld_unit_zero (S := S10000x16) hz, View.readCov_unit_zero (S := S10000x32) _ hz]
    exact congrArg _ (funext fun a => Fin.ext (by match a with | ⟨0, _⟩ => rfl | ⟨1, _⟩ => rfl))
  · rw [dif_neg h, dif_neg h, View.writes_nil, harg10.read_unread]

/-- A later point of the first pass leaves the first-layer block formed from the kept product. -/
theorem B_layer1 (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x32 .f32) (harg4 : arg4.IsWhole) (arg5 : Memref sig .tc .vmem S32x16 .f32) (harg5 : arg5.IsWhole) (arg6 : Memref sig .tc .vmem S400x32 .f32) (harg6 : arg6.IsWhole) (arg7 : Memref sig .tc .vmem S400x16 .f32) (harg7 : arg7.IsWhole) (arg8 : Memref sig .tc .vmem S200x10000 .f32) (harg8 : arg8.IsWhole) (arg9 : Memref sig .tc .vmem S10000x32 .bf16) (harg9 : arg9.IsWhole) (arg10 : Memref sig .tc .vmem S10000x16 .bf16) (harg10 : arg10.IsWhole) (hc0 : ¬condFirst i) (hc1 : condPass0 i) (hc2 : ¬condPass1 i)
    (x0 : Vec F S10000x128 .f32) (x1 : Vec F S400x10000 .f32) (x2 : Vec F S128x32 .f32) (x3 : Vec F S32x16 .f32) (y7 : Vec F S400x16 .f32) (xs0 : Vec F S10000x32 .bf16) (xs1 : Vec F S10000x16 .bf16) (f : arg6.view.ty.Contents (Elt F)) :
    arg6.view.read (Elt F) (arg6.view.writes (Elt F) f (runB c i arg2 harg2 arg3 harg3 arg4 harg4 arg5 harg5 arg6 harg6 arg7 harg7 arg8 harg8 arg9 harg9 arg10 harg10 hc0 hc1 hc2 x0 x1 x2 x3 y7 xs0 xs1).1.1) = k0_pay2 x1 xs0 := by
  unfold runB; dsimp only
  refine (read_writes_whole _ f hz _ _).trans ?_
  simp only [View.readAt_eq_ld, harg2.read_unread, harg3.read_unread, harg4.read_unread, harg5.read_unread, harg9.read_unread, harg10.read_unread,
    View.ld_unit_zero (S := S400x10000) hz, View.ld_unit_zero (S := S10000x32) hz, View.ld_unit_zero (S := S10000x128) hz, View.ld_unit_zero (S := S128x32) hz,
    View.ld_unit_zero (S := S32x16) hz, View.ld_unit_zero (S := S10000x16) hz]

/-- It copies the upper half of the adjacency block. -/
theorem B_copy (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x32 .f32) (harg4 : arg4.IsWhole) (arg5 : Memref sig .tc .vmem S32x16 .f32) (harg5 : arg5.IsWhole) (arg6 : Memref sig .tc .vmem S400x32 .f32) (harg6 : arg6.IsWhole) (arg7 : Memref sig .tc .vmem S400x16 .f32) (harg7 : arg7.IsWhole) (arg8 : Memref sig .tc .vmem S200x10000 .f32) (harg8 : arg8.IsWhole) (arg9 : Memref sig .tc .vmem S10000x32 .bf16) (harg9 : arg9.IsWhole) (arg10 : Memref sig .tc .vmem S10000x16 .bf16) (harg10 : arg10.IsWhole) (hc0 : ¬condFirst i) (hc1 : condPass0 i) (hc2 : ¬condPass1 i)
    (x0 : Vec F S10000x128 .f32) (x1 : Vec F S400x10000 .f32) (x2 : Vec F S128x32 .f32) (x3 : Vec F S32x16 .f32) (y7 : Vec F S400x16 .f32) (xs0 : Vec F S10000x32 .bf16) (xs1 : Vec F S10000x16 .bf16) (f : arg8.view.ty.Contents (Elt F)) :
    arg8.view.read (Elt F) (arg8.view.writes (Elt F) f (runB c i arg2 harg2 arg3 harg3 arg4 harg4 arg5 harg5 arg6 harg6 arg7 harg7 arg8 harg8 arg9 harg9 arg10 harg10 hc0 hc1 hc2 x0 x1 x2 x3 y7 xs0 xs1).1.2.1) = topHalf x1 := by
  unfold runB; dsimp only
  refine (read_writes_whole _ f hz _ _).trans ?_
  simp only [View.readAt_eq_ld, harg2.read_unread, harg3.read_unread, harg4.read_unread, harg5.read_unread, harg9.read_unread, harg10.read_unread,
    View.ld_unit_zero (S := S400x10000) hz, View.ld_unit_zero (S := S10000x32) hz, View.ld_unit_zero (S := S10000x128) hz, View.ld_unit_zero (S := S128x32) hz,
    View.ld_unit_zero (S := S32x16) hz, View.ld_unit_zero (S := S10000x16) hz]

/-- It writes its block of the second layer's input into the second scratch array. -/
theorem B_rows (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x32 .f32) (harg4 : arg4.IsWhole) (arg5 : Memref sig .tc .vmem S32x16 .f32) (harg5 : arg5.IsWhole) (arg6 : Memref sig .tc .vmem S400x32 .f32) (harg6 : arg6.IsWhole) (arg7 : Memref sig .tc .vmem S400x16 .f32) (harg7 : arg7.IsWhole) (arg8 : Memref sig .tc .vmem S200x10000 .f32) (harg8 : arg8.IsWhole) (arg9 : Memref sig .tc .vmem S10000x32 .bf16) (harg9 : arg9.IsWhole) (arg10 : Memref sig .tc .vmem S10000x16 .bf16) (harg10 : arg10.IsWhole) (hc0 : ¬condFirst i) (hc1 : condPass0 i) (hc2 : ¬condPass1 i)
    (x0 : Vec F S10000x128 .f32) (x1 : Vec F S400x10000 .f32) (x2 : Vec F S128x32 .f32) (x3 : Vec F S32x16 .f32) (y7 : Vec F S400x16 .f32) (xs0 : Vec F S10000x32 .bf16) (xs1 : Vec F S10000x16 .bf16) :
    arg10.view.read (Elt F) (arg10.view.writes (Elt F) (harg10.unread xs1) (runB c i arg2 harg2 arg3 harg3 arg4 harg4 arg5 harg5 arg6 harg6 arg7 harg7 arg8 harg8 arg9 harg9 arg10 harg10 hc0 hc1 hc2 x0 x1 x2 x3 y7 xs0 xs1).1.2.2) = putRows i xs1 (k0_pay3 x1 xs0 x3) := by
  unfold runB; dsimp only
  funext y
  refine (View.read_writes_cons_rows (size := ![400, 16]) (W := 400) (o := 400 * (i 1).val) arg10.view (harg10.unread xs1) _ _ [] y (off1_eq i) rfl rfl).trans ?_
  unfold putRows
  by_cases h : 400 * (i 1).val ≤ (y 0).val ∧ (y 0).val < 400 * (i 1).val + 400
  · rw [dif_pos h, dif_pos h]
    simp only [View.readAt_eq_ld, harg2.read_unread, harg3.read_unread, harg4.read_unread, harg5.read_unread, harg9.read_unread, harg10.read_unread,
    View.ld_unit_zero (S := S400x10000) hz, View.ld_unit_zero (S := S10000x32) hz, View.ld_unit_zero (S := S10000x128) hz, View.ld_unit_zero (S := S128x32) hz,
    View.ld_unit_zero (S := S32x16) hz, View.ld_unit_zero (S := S10000x16) hz]
    exact congrArg _ (funext fun a => Fin.ext (by match a with | ⟨0, _⟩ => rfl | ⟨1, _⟩ => rfl))
  · rw [dif_neg h, dif_neg h, View.writes_nil, harg10.read_unread]

/-- A point of the second pass leaves the block of the result formed from the kept second-layer input. -/
theorem C_result (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x32 .f32) (harg4 : arg4.IsWhole) (arg5 : Memref sig .tc .vmem S32x16 .f32) (harg5 : arg5.IsWhole) (arg6 : Memref sig .tc .vmem S400x32 .f32) (harg6 : arg6.IsWhole) (arg7 : Memref sig .tc .vmem S400x16 .f32) (harg7 : arg7.IsWhole) (arg8 : Memref sig .tc .vmem S200x10000 .f32) (harg8 : arg8.IsWhole) (arg9 : Memref sig .tc .vmem S10000x32 .bf16) (harg9 : arg9.IsWhole) (arg10 : Memref sig .tc .vmem S10000x16 .bf16) (harg10 : arg10.IsWhole) (hc0 : ¬condFirst i) (hc1 : ¬condPass0 i) (hc2 : condPass1 i)
    (x0 : Vec F S10000x128 .f32) (x1 : Vec F S400x10000 .f32) (x2 : Vec F S128x32 .f32) (x3 : Vec F S32x16 .f32) (y6 : Vec F S400x32 .f32) (xs0 : Vec F S10000x32 .bf16) (xs1 : Vec F S10000x16 .bf16) (f : arg7.view.ty.Contents (Elt F)) :
    arg7.view.read (Elt F) (arg7.view.writes (Elt F) f (runC c i arg2 harg2 arg3 harg3 arg4 harg4 arg5 harg5 arg6 harg6 arg7 harg7 arg8 harg8 arg9 harg9 arg10 harg10 hc0 hc1 hc2 x0 x1 x2 x3 y6 xs0 xs1).1.1) = k0_pay4 x1 xs1 := by
  unfold runC; dsimp only
  refine (read_writes_whole _ f hz _ _).trans ?_
  simp only [View.readAt_eq_ld, harg2.read_unread, harg3.read_unread, harg4.read_unread, harg5.read_unread, harg9.read_unread, harg10.read_unread,
    View.ld_unit_zero (S := S400x10000) hz, View.ld_unit_zero (S := S10000x32) hz, View.ld_unit_zero (S := S10000x128) hz, View.ld_unit_zero (S := S128x32) hz,
    View.ld_unit_zero (S := S32x16) hz, View.ld_unit_zero (S := S10000x16) hz]

/-- It copies the lower half of the adjacency block. -/
theorem C_copy (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x32 .f32) (harg4 : arg4.IsWhole) (arg5 : Memref sig .tc .vmem S32x16 .f32) (harg5 : arg5.IsWhole) (arg6 : Memref sig .tc .vmem S400x32 .f32) (harg6 : arg6.IsWhole) (arg7 : Memref sig .tc .vmem S400x16 .f32) (harg7 : arg7.IsWhole) (arg8 : Memref sig .tc .vmem S200x10000 .f32) (harg8 : arg8.IsWhole) (arg9 : Memref sig .tc .vmem S10000x32 .bf16) (harg9 : arg9.IsWhole) (arg10 : Memref sig .tc .vmem S10000x16 .bf16) (harg10 : arg10.IsWhole) (hc0 : ¬condFirst i) (hc1 : ¬condPass0 i) (hc2 : condPass1 i)
    (x0 : Vec F S10000x128 .f32) (x1 : Vec F S400x10000 .f32) (x2 : Vec F S128x32 .f32) (x3 : Vec F S32x16 .f32) (y6 : Vec F S400x32 .f32) (xs0 : Vec F S10000x32 .bf16) (xs1 : Vec F S10000x16 .bf16) (f : arg8.view.ty.Contents (Elt F)) :
    arg8.view.read (Elt F) (arg8.view.writes (Elt F) f (runC c i arg2 harg2 arg3 harg3 arg4 harg4 arg5 harg5 arg6 harg6 arg7 harg7 arg8 harg8 arg9 harg9 arg10 harg10 hc0 hc1 hc2 x0 x1 x2 x3 y6 xs0 xs1).1.2) = botHalf x1 := by
  unfold runC; dsimp only
  refine (read_writes_whole _ f hz _ _).trans ?_
  simp only [View.readAt_eq_ld, harg2.read_unread, harg3.read_unread, harg4.read_unread, harg5.read_unread, harg9.read_unread, harg10.read_unread,
    View.ld_unit_zero (S := S400x10000) hz, View.ld_unit_zero (S := S10000x32) hz, View.ld_unit_zero (S := S10000x128) hz, View.ld_unit_zero (S := S128x32) hz,
    View.ld_unit_zero (S := S32x16) hz, View.ld_unit_zero (S := S10000x16) hz]

end Cert.Kernel.Vals

end
-- ==== Proof.DataK.lean ====
/-
  The proof data of the pipelined kernel and its body obligation.

  What every staging buffer holds after the body at each of the 50 grid points, as functions of the argument arrays'
  blocks:
    · the inputs' buffers hold their blocks;
    · the first-layer buffer holds, through the first pass, the block of that point, max (A_t · P) 0 with P = x · W1
      the kept product; the second pass stores nothing into it, so it still holds the block of the 25th point, which is
      what the last point writes back (to the same 25th block of the array);
    · the result buffer holds, at a point of the second pass, that point's block of the result; the first pass leaves it as found;
    · the copy buffer holds the upper (first pass) or lower (second pass) half of the adjacency block.
  Between points the body keeps P in its first scratch array, and in its second the rows of (the first layer · W2)
  written so far: after point n of the first pass, rows below 400·(n + 1); from then on every row.
-/
import proofs.«132780_g18872086298805_cont_8to1_696_32_alg».proof.Proof.Gen.Kernel.Frame
import proofs.«132780_g18872086298805_cont_8to1_696_32_alg».proof.Proof.Gen.Kernel.Skeleton
import proofs.«132780_g18872086298805_cont_8to1_696_32_alg».proof.Proof.ValsK
import Idealize.ShloMosaic.Lib.Pipeline.TableIdle
import Idealize.ShloMosaic.Lib.Pipeline.FrameBody
import Idealize.ShloMosaic.Lib.Ring
import Idealize.ShloMosaic.Lib.Tactic

set_option maxRecDepth 16384

noncomputable section

namespace Cert.Kernel.Data

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.Body Cert.Kernel.Vals

variable (m : (ℓ : Loc nD τ sig) → Buf (Elt F) ℓ) (ρ : Dev nD → PrngReg)

/-! ## The staging memrefs at a point, as the pipeline passes them, and the scratch arrays -/

abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S400x10000 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x32 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S32x16 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S400x32 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S400x16 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S200x10000 .f32 := win0_6.stage (cfg0.slots t 6)
abbrev hs6 (t : Fin cfg0.N) : (ms6 t).IsWhole := hstage0_6 ((cfg0.slots t 6).cast nbuf0_6)
abbrev scM0 : Memref sig .tc .vmem S10000x32 .bf16 := Memref.whole cc0_scratch0
abbrev scM1 : Memref sig .tc .vmem S10000x16 .bf16 := Memref.whole cc0_scratch1

/-- The region's own invariant: the two scratch arrays at some contents, the generator register at some state. -/
theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-! ## The grid: 50 points, the first pass the points below 25 -/

theorem hN : cfg0.N = 50 := N_0
abbrev t0 : Fin cfg0.N := ⟨0, lt_of_lt_of_eq (by decide) N_0.symm⟩
abbrev t24 : Fin cfg0.N := ⟨24, lt_of_lt_of_eq (by decide) N_0.symm⟩

theorem idle4 : ∀ t : Fin cfg0.N, cfg0.idle 4 (grid0.coords t) = decide (25 ≤ t.val) :=
  (by decide +kernel : ∀ t : Fin grid0.N, cfg0.idle 4 (grid0.coords t) = decide (25 ≤ t.val))
theorem idle5 : ∀ t : Fin cfg0.N, cfg0.idle 5 (grid0.coords t) = decide (t.val < 25) :=
  (by decide +kernel : ∀ t : Fin grid0.N, cfg0.idle 5 (grid0.coords t) = decide (t.val < 25))
theorem idle6 : ∀ t : Fin cfg0.N, cfg0.idle 6 (grid0.coords t) = false :=
  (by decide +kernel : ∀ t : Fin grid0.N, cfg0.idle 6 (grid0.coords t) = false)
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- The first-layer window is written back after each point of the first pass but the last of them, and after the last point of all. -/
theorem flush4 : ∀ t : Fin cfg0.N, (cfg0.win 4).flush t = decide (t.val < 24 ∨ t.val = 49) :=
  (by decide +kernel : ∀ t : Fin grid0.N, win0_4.flush t = decide (t.val < 24 ∨ t.val = 49))
/-- The result window is written back after each point of the second pass. -/
theorem flush5 : ∀ t : Fin cfg0.N, (cfg0.win 5).flush t = decide (25 ≤ t.val) :=
  (by decide +kernel : ∀ t : Fin grid0.N, win0_5.flush t = decide (25 ≤ t.val))
/-- The second grid coordinate counts the blocks within a pass. -/
theorem coord1 : ∀ t : Fin cfg0.N, ((grid0.coords t) 1).val = t.val % 25 :=
  (by decide +kernel : ∀ t : Fin grid0.N, ((grid0.coords t) 1).val = t.val % 25)

/-! ## What the buffers hold -/

/-- The kept product x · W1, formed at the first point. -/
def prod (c : Dev nD) : Vec F S10000x32 .bf16 := k0_pay1 (iblk m c 0 t0) (iblk m c 2 t0)
/-- The first layer's block of point t. -/
def layer1 (c : Dev nD) (t : Fin cfg0.N) : Vec F S400x32 .f32 := k0_pay2 (iblk m c 1 t) (prod m c)
/-- That block times W2. -/
def rowsBlk (c : Dev nD) (t : Fin cfg0.N) : Vec F S400x16 .bf16 := k0_pay3 (iblk m c 1 t) (prod m c) (iblk m c 3 t)
/-- The point of the first pass whose block holds row y 0. -/
def rowPt (y : S10000x16.Idx) : Fin cfg0.N :=
  ⟨(y 0).val / 400, by have h : (y 0).val < 10000 := (y 0).isLt; have : cfg0.N = 50 := N_0; omega⟩
/-- The index of row y 0 within that block. -/
def rowIn (y : S10000x16.Idx) : S400x16.Idx := fun a => match a with
  | ⟨0, _⟩ => ⟨(y 0).val % 400, Nat.mod_lt _ (by decide)⟩
  | ⟨1, _⟩ => ⟨(y 1).val, (y 1).isLt⟩
/-- The second layer's input, every row: row r is row r mod 400 of the block of point r / 400. -/
def layer2in (c : Dev nD) : Vec F S10000x16 .bf16 := fun y => rowsBlk m c (rowPt y) (rowIn y)
/-- The result's block of point t. -/
def resultBlk (c : Dev nD) (t : Fin cfg0.N) : Vec F S400x16 .f32 := k0_pay4 (iblk m c 1 t) (layer2in m c)
/-- The copied half of the adjacency block at point t. -/
def copyBlk (c : Dev nD) (t : Fin cfg0.N) : Vec F S200x10000 .f32 :=
  if t.val < 25 then topHalf (iblk m c 1 t) else botHalf (iblk m c 1 t)
/-- The last point whose first-layer block the buffer can hold: t itself in the first pass, the 25th point afterwards. -/
def clamp (t : Fin cfg0.N) : Fin cfg0.N := if t.val < 25 then t else t24

/-- The invariant between points: before the first, the region's own; after point n, the kept product in the first
    scratch array and, in the second, contents agreeing with the second layer's input on the rows below 400·(n + 1). -/
def PhiS (c : Dev nD) : ℕ → sProp 𝕄
  | 0 => Pipeline.ΦA spec0 c
  | n + 1 => iprop(iprop(owns (c : Thread nD τ) scM0 fullShare (prod m c)
      ∗ (∃ d, ⌜∀ y : S10000x16.Idx, (y 0).val < 400 * (n + 1) → d y = layer2in m c y⌝ ∗ owns (c : Thread nD τ) scM1 fullShare d)) ∗ (∃ r, prngReg c r))

/-- The proof data of the one pipeline on core c. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => layer1 m c (clamp t)
    | ⟨5, _⟩ => resultBlk m c t
    | ⟨6, _⟩ => copyBlk m c t
  Φ t := PhiS m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = layer1 m c (clamp t) := by dsimp only [dats]
theorem after5 (c : Dev nD) (t : Fin cfg0.N) : (dats m 0 c).after 5 t = resultBlk m c t := by dsimp only [dats]
theorem after6 (c : Dev nD) (t : Fin cfg0.N) : (dats m 0 c).after 6 t = copyBlk m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

end Cert.Kernel.Data

end
-- ==== Proof.OblK.lean ====
/-
  The body obligation of the pipelined kernel, its run, and the frame.

  At each grid point the body is in one of its three cases, and the case's run, read back buffer by buffer, is what the
  proof data says the point leaves. Two things carry across points. The second scratch array fills by 400 rows per
  point of the first pass: if its rows below 400·t hold the second layer's input, then after the store of point t
  its rows below 400·(t + 1) do, the new rows being row r mod 400 of the block of point r / 400 = t. And the first-layer
  buffer, which no point of the second pass stores into and none but the last writes back, holds throughout the
  second pass the block the 25th point left; that block is what the last point writes back.
-/
import proofs.«132780_g18872086298805_cont_8to1_696_32_alg».proof.Proof.Gen.Kernel.Frame
import proofs.«132780_g18872086298805_cont_8to1_696_32_alg».proof.Proof.Gen.Kernel.Skeleton
import proofs.«132780_g18872086298805_cont_8to1_696_32_alg».proof.Proof.DataK
import Idealize.ShloMosaic.Lib.Pipeline.FrameBody
import Idealize.ShloMosaic.Lib.Ring
import Idealize.ShloMosaic.Lib.Tactic

set_option maxRecDepth 16384

noncomputable section

namespace Cert.Kernel.Obl

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.Body Cert.Kernel.Vals Cert.Kernel.Data

variable (m : (ℓ : Loc nD τ sig) → Buf (Elt F) ℓ) (ρ : Dev nD → PrngReg)

/-! ## The first-layer buffer through the second pass -/

theorem clamp_early (t : Fin cfg0.N) (h : t.val < 25) : clamp t = t := by unfold clamp; rw [if_pos h]

theorem clamp_late (t : Fin cfg0.N) (h : 24 ≤ t.val) : clamp t = t24 := by
  unfold clamp; split
  · exact Fin.ext (by dsimp only; omega)
  · rfl

/-- Where the first-layer buffer is fresh (nothing to keep): through the first pass and after the last point. -/
theorem fresh4 : ∀ n, n ≤ cfg0.N → cfg0.fresh 4 n = decide (n < 25 ∨ n = 50) :=
  Pipeline.Cfg.fresh_tab cfg0 4 (fun n => decide (n < 25 ∨ n = 50)) (by decide)
    (by decide +kernel : ∀ t : Fin grid0.N, decide (t.val + 1 < 25 ∨ t.val + 1 = 50) = (win0_4.flush t || (cfg0.idle 4 (grid0.coords t) && decide (t.val < 25 ∨ t.val = 50))))

/-- Through the second pass the first-layer buffer holds the block of the 25th point. -/
theorem before4_late (c : Dev nD) (t : Fin cfg0.N) (h : 25 ≤ t.val) (d) : (dats m 0 c).before 4 t d = layer1 m c t24 := by
  have hN : cfg0.N = 50 := N_0
  have hlt : t.val < 50 := lt_of_lt_of_eq t.isLt hN
  rw [(dats m 0 c).before_out_traj 4 rfl (fun _ a => by fin_cases a <;> rfl) (fun u hu hi _ => by
      rw [idle4] at hi
      have h25 : 25 ≤ u.val := of_decide_eq_true hi
      rw [after4, after4, clamp_late u (by omega), clamp_late _ (by dsimp only; omega)]) t.val t rfl d,
    fresh4 t.val (le_of_lt t.isLt), if_neg (by rw [decide_eq_true_eq]; omega), after4, clamp_late _ (by dsimp only; omega)]

/-! ## The second scratch array fills by 400 rows a point -/

theorem rows_step (c : Dev nD) (t : Fin cfg0.N) (h25 : t.val < 25) (d : Vec F S10000x16 .bf16)
    (hd : ∀ y : S10000x16.Idx, (y 0).val < 400 * t.val → d y = layer2in m c y) :
    ∀ y : S10000x16.Idx, (y 0).val < 400 * (t.val + 1) →
      putRows (grid0.coords t) d (k0_pay3 (iblk m c 1 t) (prod m c) (iblk m c 3 t)) y = layer2in m c y := by
  intro y hy
  have hc : ((grid0.coords t) 1).val = t.val := by rw [coord1]; exact Nat.mod_eq_of_lt h25
  unfold putRows
  by_cases h : 400 * ((grid0.coords t) 1).val ≤ (y 0).val ∧ (y 0).val < 400 * ((grid0.coords t) 1).val + 400
  · rw [dif_pos h]
    rw [hc] at h
    have hp : rowPt y = t := Fin.ext (by show (y 0).val / 400 = t.val; omega)
    unfold layer2in
    rw [hp]
    unfold rowsBlk
    exact congrArg _ (funext fun a => Fin.ext (by
      match a with
      | ⟨0, _⟩ => show (y 0).val - 400 * ((grid0.coords t) 1).val = (y 0).val % 400; rw [hc]; omega
      | ⟨1, _⟩ => rfl))
  · rw [dif_neg h]
    rw [hc] at h
    exact hd y (by omega)

/-! ## The invariant, unfolded at a later point -/

theorem PhiS_pos (c : Dev nD) (n : ℕ) (hz : n ≠ 0) :
    PhiS m c n = iprop(iprop(owns (c : Thread nD τ) scM0 fullShare (prod m c)
      ∗ (∃ d, ⌜∀ y : S10000x16.Idx, (y 0).val < 400 * n → d y = layer2in m c y⌝ ∗ owns (c : Thread nD τ) scM1 fullShare d)) ∗ (∃ r, prngReg c r)) := by
  cases n with
  | zero => exact absurd rfl hz
  | succ n => rfl

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t)

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) from rfl]
  rw [show (dats m 0 c).Φ t.castSucc = PhiS m c t.val from by dsimp only [dats]; simp only [Fin.coe_castSucc]]
  rw [show (dats m 0 c).leavesExact 0 t = owns (c : Thread nD τ) (ms0 t) fullShare (iblk m c 0 t) from by
    unfold Dat.leavesExact; rw [live0 t, after0]]
  rw [show (dats m 0 c).leavesExact 1 t = owns (c : Thread nD τ) (ms1 t) fullShare (iblk m c 1 t) from by
    unfold Dat.leavesExact; rw [live1 t, after1]]
  rw [show (dats m 0 c).leavesExact 2 t = owns (c : Thread nD τ) (ms2 t) fullShare (iblk m c 2 t) from by
    unfold Dat.leavesExact; rw [live2 t, after2]]
  rw [show (dats m 0 c).leavesExact 3 t = owns (c : Thread nD τ) (ms3 t) fullShare (iblk m c 3 t) from by
    unfold Dat.leavesExact; rw [live3 t, after3]]
  rw [show (dats m 0 c).leavesExact 6 t = owns (c : Thread nD τ) (ms6 t) fullShare (copyBlk m c t) from by
    unfold Dat.leavesExact; rw [idle6 t, after6]]
  have hN : t.val < 50 := lt_of_lt_of_eq t.isLt (show cfg0.N = 50 from N_0)
  by_cases h25 : t.val < 25
  · -- the first pass
    have hc1 : condPass0 (grid0.coords t) := (hcondPass0 t).mpr h25
    have hc2 : ¬condPass1 (grid0.coords t) := fun h => absurd ((hcondPass1 t).mp h) (by omega)
    rw [show (dats m 0 c).leavesExact 4 t = owns (c : Thread nD τ) (ms4 t) fullShare (layer1 m c t) from by
      unfold Dat.leavesExact; rw [idle4 t, decide_eq_false (by omega), after4, clamp_early t h25]]
    rw [(dats m 0 c).leavesExact_idle 5 t (by rw [idle5, decide_eq_true h25]) (by rw [flush5, decide_eq_false (by omega)])]
    rw [show copyBlk m c t = topHalf (iblk m c 1 t) from by unfold copyBlk; rw [if_pos h25]]
    rw [PhiS_pos m c (t.val + 1) (Nat.succ_ne_zero _)]
    by_cases hz : t.val = 0
    · -- the first point
      have hc0 : condFirst (grid0.coords t) := (hcondFirst t).mpr hz
      have hpr : k0_pay1 (iblk m c 0 t) (iblk m c 2 t) = prod m c := by
        obtain rfl : t = t0 := Fin.ext hz
        rfl
      rw [show PhiS m c t.val = Pipeline.ΦA spec0 c from by rw [hz]; rfl, PhiA_eq]
      iintro ⟨⟨⟨⟨%e0, HS0⟩, ⟨%e1, HS1⟩⟩, Hg⟩, Ho, ⟨%d0, H0⟩, ⟨%d1, H1⟩, ⟨%d2, H2⟩, ⟨%d3, H3⟩, ⟨%d4, H4⟩, ⟨%d5, H5⟩, ⟨%d6, H6⟩⟩
      iapply ((runA c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) hc0 hc1 hc2 (iblk m c 0 t) (iblk m c 1 t) (iblk m c 2 t) (iblk m c 3 t) ((dats m 0 c).before 5 t d5) e1).2 Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexists _; iexact H6
      isplitl [HS0]; · iexists _; iexact HS0
      isplitl [HS1]; · iexact HS1
      iintro ⟨H0, H1, H2, H3, ⟨%f4, H4⟩, H5, ⟨%f6, H6⟩, ⟨%fs0, HS0⟩, HS1⟩
      isplitl [HS0 HS1 Hg]
      · isplitl [HS0 HS1]
        · isplitl [HS0]
          · unfold owns; iexists _; isplitr
            swap; · iexact HS0
            ipureintro
            exact (A_prod c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) hc0 hc1 hc2 (iblk m c 0 t) (iblk m c 1 t) (iblk m c 2 t) (iblk m c 3 t) ((dats m 0 c).before 5 t d5) e1 fs0).trans hpr
          · iexists _; isplitr
            swap
            · unfold owns; iexists _; isplitr
              swap; · iexact HS1
              ipureintro; rfl
            · ipureintro
              intro y hy
              refine (congrFun (A_rows c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) hc0 hc1 hc2 (iblk m c 0 t) (iblk m c 1 t) (iblk m c 2 t) (iblk m c 3 t) ((dats m 0 c).before 5 t d5) e1) y).trans ?_
              rw [hpr]
              exact rows_step m c t h25 e1 (fun y hy0 => absurd hy0 (by rw [hz]; omega)) y hy
        · iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro
        refine (A_layer1 c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) hc0 hc1 hc2 (iblk m c 0 t) (iblk m c 1 t) (iblk m c 2 t) (iblk m c 3 t) ((dats m 0 c).before 5 t d5) e1 f4).trans ?_
        rw [hpr]; rfl
      isplitl [H5]; · iexists _; iexact H5
      unfold owns; iexists _; isplitr
      swap; · iexact H6
      ipureintro
      exact A_copy c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) hc0 hc1 hc2 (iblk m c 0 t) (iblk m c 1 t) (iblk m c 2 t) (iblk m c 3 t) ((dats m 0 c).before 5 t d5) e1 f6
    · -- a later point of the first pass
      have hc0 : ¬condFirst (grid0.coords t) := fun h => hz ((hcondFirst t).mp h)
      rw [PhiS_pos m c t.val hz]
      iintro ⟨⟨⟨HS0, ⟨%e1, %he1, HS1⟩⟩, Hg⟩, Ho, ⟨%d0, H0⟩, ⟨%d1, H1⟩, ⟨%d2, H2⟩, ⟨%d3, H3⟩, ⟨%d4, H4⟩, ⟨%d5, H5⟩, ⟨%d6, H6⟩⟩
      iapply ((runB c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) hc0 hc1 hc2 (iblk m c 0 t) (iblk m c 1 t) (iblk m c 2 t) (iblk m c 3 t) ((dats m 0 c).before 5 t d5) (prod m c) e1).2 Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexists _; iexact H6
      isplitl [HS0]; · iexact HS0
      isplitl [HS1]; · iexact HS1
      iintro ⟨H0, H1, H2, H3, ⟨%f4, H4⟩, H5, ⟨%f6, H6⟩, HS0, HS1⟩
      isplitl [HS0 HS1 Hg]
      · isplitl [HS0 HS1]
        · isplitl [HS0]
          · iexact HS0
          · iexists _; isplitr
            swap
            · unfold owns; iexists _; isplitr
              swap; · iexact HS1
              ipureintro; rfl
            · ipureintro
              intro y hy
              refine (congrFun (B_rows c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) hc0 hc1 hc2 (iblk m c 0 t) (iblk m c 1 t) (iblk m c 2 t) (iblk m c 3 t) ((dats m 0 c).before 5 t d5) (prod m c) e1) y).trans ?_
              exact rows_step m c t h25 e1 he1 y hy
        · iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro
        exact B_layer1 c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) hc0 hc1 hc2 (iblk m c 0 t) (iblk m c 1 t) (iblk m c 2 t) (iblk m c 3 t) ((dats m 0 c).before 5 t d5) (prod m c) e1 f4
      isplitl [H5]; · iexists _; iexact H5
      unfold owns; iexists _; isplitr
      swap; · iexact H6
      ipureintro
      exact B_copy c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) hc0 hc1 hc2 (iblk m c 0 t) (iblk m c 1 t) (iblk m c 2 t) (iblk m c 3 t) ((dats m 0 c).before 5 t d5) (prod m c) e1 f6
  · -- the second pass
    have h25' : 25 ≤ t.val := by omega
    have hz : t.val ≠ 0 := by omega
    have hc0 : ¬condFirst (grid0.coords t) := fun h => hz ((hcondFirst t).mp h)
    have hc1 : ¬condPass0 (grid0.coords t) := fun h => h25 ((hcondPass0 t).mp h)
    have hc2 : condPass1 (grid0.coords t) := (hcondPass1 t).mpr h25'
    simp only [before4_late m c t h25']
    rw [show (dats m 0 c).leavesExact 5 t = owns (c : Thread nD τ) (ms5 t) fullShare (resultBlk m c t) from by
      unfold Dat.leavesExact; rw [idle5 t, decide_eq_false (by omega), after5]]
    rw [show copyBlk m c t = botHalf (iblk m c 1 t) from by unfold copyBlk; rw [if_neg h25]]
    rw [PhiS_pos m c t.val hz, PhiS_pos m c (t.val + 1) (Nat.succ_ne_zero _)]
    have h4 : (owns (c : Thread nD τ) (ms4 t) fullShare (layer1 m c t24) : sProp 𝕄) ⊢ (dats m 0 c).leavesExact 4 t := by
      by_cases h49 : t.val = 49
      · rw [show (dats m 0 c).leavesExact 4 t = owns (c : Thread nD τ) (ms4 t) fullShare (layer1 m c t24) from by
          unfold Dat.leavesExact; rw [idle4 t, decide_eq_true h25', flush4 t, decide_eq_true (Or.inr h49), after4, clamp_late t (by omega)]]
      · rw [(dats m 0 c).leavesExact_idle 4 t (by rw [idle4, decide_eq_true h25']) (by rw [flush4, decide_eq_false (by omega)])]
        simp only [before4_late m c t h25']
        iintro H; iexists (layer1 m c t24); iexact H
    iintro ⟨⟨⟨HS0, ⟨%e1, %he1, HS1⟩⟩, Hg⟩, Ho, ⟨%d0, H0⟩, ⟨%d1, H1⟩, ⟨%d2, H2⟩, ⟨%d3, H3⟩, ⟨%d4, H4⟩, ⟨%d5, H5⟩, ⟨%d6, H6⟩⟩
    obtain rfl : e1 = layer2in m c := funext fun y => he1 y (by have h : (y 0).val < 10000 := (y 0).isLt; omega)
    iapply ((runC c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) hc0 hc1 hc2 (iblk m c 0 t) (iblk m c 1 t) (iblk m c 2 t) (iblk m c 3 t) (layer1 m c t24) (prod m c) (layer2in m c)).2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    isplitl [HS1]; · iexact HS1
    iintro ⟨H0, H1, H2, H3, H4, ⟨%f5, H5⟩, ⟨%f6, H6⟩, HS0, HS1⟩
    isplitl [HS0 HS1 Hg]
    · isplitl [HS0 HS1]
      · isplitl [HS0]
        · iexact HS0
        · iexists _; isplitr
          swap; · iexact HS1
          ipureintro
          intro y _; rfl
      · iexact Hg
    isplitl [Ho]; · iexact Ho
    isplitl [H0]; · iexact H0
    isplitl [H1]; · iexact H1
    isplitl [H2]; · iexact H2
    isplitl [H3]; · iexact H3
    isplitl [H4]; · iapply h4; iexact H4
    isplitl [H5]
    · unfold owns; iexists _; isplitr
      swap; · iexact H5
      ipureintro
      exact C_result c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) hc0 hc1 hc2 (iblk m c 0 t) (iblk m c 1 t) (iblk m c 2 t) (iblk m c 3 t) (layer1 m c t24) (prod m c) (layer2in m c) f5
    unfold owns; iexists _; isplitr
    swap; · iexact H6
    ipureintro
    exact C_copy c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) hc0 hc1 hc2 (iblk m c 0 t) (iblk m c 1 t) (iblk m c 2 t) (iblk m c 3 t) (layer1 m c t24) (prod m c) (layer2in m c) f6

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

/-- What the launch hands the region is the invariant before the first point. -/
theorem hin (c : Dev nD) : Pipeline.ΦA spec0 c ⊢ (dats m 0 c).Φ 0 := by
  rw [show (dats m 0 c).Φ 0 = Pipeline.ΦA spec0 c from rfl]

/-- After the last point the invariant gives the region's own back: what the scratch arrays hold is forgotten. -/
theorem hout (c : Dev nD) : (dats m 0 c).Φ (Fin.last cfg0.N) ⊢ Pipeline.ΦA spec0 c := by
  rw [show (dats m 0 c).Φ (Fin.last cfg0.N) = PhiS m c cfg0.N from rfl,
    PhiS_pos m c cfg0.N (by rw [show cfg0.N = 50 from N_0]; decide), PhiA_eq]
  iintro ⟨⟨HS0, ⟨%d, %hd, HS1⟩⟩, Hg⟩
  isplitl [HS0 HS1]
  · isplitl [HS0]
    · iexists _; iexact HS0
    · iexists _; iexact HS1
  iexact Hg

set_option backward.isDefEq.respectTransparency.types false in
/-- Every weakly fair execution of the program terminates, each windowed array ending at what the proof data's write-backs
    leave in it and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs and its four argument arrays end unchanged, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Obl

end
-- ==== Proof.BodyI.lean ====
/-
  The kernel body at a grid point, in each of the three cases its branches on the grid coordinates make.

  The grid is 2 × 25: a first pass (coordinate 0 is 0) over the 25 blocks of 400 rows of the adjacency, then a second
  pass over the same blocks. At the very first point the body also forms x · W1 and keeps it in its first scratch array.
  In the first pass it copies the upper half of the adjacency block out, stores the block of the first layer, and writes
  that block times W2 into rows 400·i … 400·i + 399 of its second scratch array; in the second pass it copies the lower
  half out and stores the block of the result. So there are three cases: the first point (A), the rest of the first
  pass (B), the second pass (C). In each, the body runs on any whole staging buffers holding the input blocks, and
  each buffer it stores into ends with the listed stores written over what it held; a buffer the case does not
  store into is handed back as found.
-/
import proofs.«132780_g18872086298805_cont_8to1_696_32_alg».proof.Proof.Gen.KernelIdeal.Frame
import proofs.«132780_g18872086298805_cont_8to1_696_32_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions, from the grid coordinates -/

/-- The very first point: both coordinates zero. -/
abbrev condFirst (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- The first pass. -/
abbrev condPass0 (i : grid0.Coords) : Prop := k0_cond2 i = 1#1
/-- The second pass. -/
abbrev condPass1 (i : grid0.Coords) : Prop := k0_cond3 i = 1#1

theorem hcondFirst : ∀ t : Fin cfg0.N, condFirst (grid0.coords t) ↔ t.val = 0 :=
  (by decide +kernel : ∀ t : Fin grid0.N, condFirst (grid0.coords t) ↔ t.val = 0)
theorem hcondPass0 : ∀ t : Fin cfg0.N, condPass0 (grid0.coords t) ↔ t.val < 25 :=
  (by decide +kernel : ∀ t : Fin grid0.N, condPass0 (grid0.coords t) ↔ t.val < 25)
theorem hcondPass1 : ∀ t : Fin cfg0.N, condPass1 (grid0.coords t) ↔ 25 ≤ t.val :=
  (by decide +kernel : ∀ t : Fin grid0.N, condPass1 (grid0.coords t) ↔ 25 ≤ t.val)

/-! ## Case A: the first point -/

set_option maxHeartbeats 1000000 in
/-- The first point. Found by the run: the stores into the first-layer buffer, the copy buffer, and the two scratch arrays. -/
noncomputable def runA (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x32 .f32) (harg4 : arg4.IsWhole) (arg5 : Memref sig .tc .vmem S32x16 .f32) (harg5 : arg5.IsWhole) (arg6 : Memref sig .tc .vmem S400x32 .f32) (harg6 : arg6.IsWhole) (arg7 : Memref sig .tc .vmem S400x16 .f32) (harg7 : arg7.IsWhole) (arg8 : Memref sig .tc .vmem S200x10000 .f32) (harg8 : arg8.IsWhole) (arg9 : Memref sig .tc .vmem S10000x32 .bf16) (harg9 : arg9.IsWhole) (arg10 : Memref sig .tc .vmem S10000x16 .bf16) (harg10 : arg10.IsWhole) (hc0 : condFirst i) (hc1 : condPass0 i) (hc2 : ¬condPass1 i)
    (x0 : Vec F S10000x128 .f32) (x1 : Vec F S400x10000 .f32) (x2 : Vec F S128x32 .f32) (x3 : Vec F S32x16 .f32) (y7 : Vec F S400x16 .f32) (xs1 : Vec F S10000x16 .bf16) :
    { L : List (View.Piece (Elt F) S400x32 .f32) × List (View.Piece (Elt F) S200x10000 .f32) × List (View.Piece (Elt F) S10000x32 .bf16) × List (View.Piece (Elt F) S10000x16 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare y7 ∗ (∃ d, owns (c : Thread nD τ) arg8 fullShare d) ∗ (∃ d, owns (c : Thread nD τ) arg9 fullShare d) ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L.1) ∗ owns (c : Thread nD τ) arg7 fullShare y7 ∗ (∃ f, arg8.view.loc (c : Thread nD τ) ↦[arg8.view.set]{fullShare} arg8.view.writes (Elt F) f L.2.1) ∗ (∃ f, arg9.view.loc (c : Thread nD τ) ↦[arg9.view.set]{fullShare} arg9.view.writes (Elt F) f L.2.2.1) ∗ (arg10.view.loc (c : Thread nD τ) ↦[arg10.view.set]{fullShare} arg10.view.writes (Elt F) (harg10.unread xs1) L.2.2.2)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10) K } := by
  refine ⟨(?_, ?_, ?_, ?_), fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%d6, %f6, -, H6⟩, ⟨%ds0, %fs0, -, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg7.eq_unread hf5; obtain rfl := harg10.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    isplitl [H6]; · iexists _; iexact H6
    isplitl [HS0]; · iexists _; iexact HS0
    iexact HS1

/-! ## Case B: the rest of the first pass -/

set_option maxHeartbeats 1000000 in
/-- A later point of the first pass: the product kept in the first scratch array is read, not formed. Found by the run: the
    stores into the first-layer buffer, the copy buffer and the second scratch array. -/
noncomputable def runB (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x32 .f32) (harg4 : arg4.IsWhole) (arg5 : Memref sig .tc .vmem S32x16 .f32) (harg5 : arg5.IsWhole) (arg6 : Memref sig .tc .vmem S400x32 .f32) (harg6 : arg6.IsWhole) (arg7 : Memref sig .tc .vmem S400x16 .f32) (harg7 : arg7.IsWhole) (arg8 : Memref sig .tc .vmem S200x10000 .f32) (harg8 : arg8.IsWhole) (arg9 : Memref sig .tc .vmem S10000x32 .bf16) (harg9 : arg9.IsWhole) (arg10 : Memref sig .tc .vmem S10000x16 .bf16) (harg10 : arg10.IsWhole) (hc0 : ¬condFirst i) (hc1 : condPass0 i) (hc2 : ¬condPass1 i)
    (x0 : Vec F S10000x128 .f32) (x1 : Vec F S400x10000 .f32) (x2 : Vec F S128x32 .f32) (x3 : Vec F S32x16 .f32) (y7 : Vec F S400x16 .f32) (xs0 : Vec F S10000x32 .bf16) (xs1 : Vec F S10000x16 .bf16) :
    { L : List (View.Piece (Elt F) S400x32 .f32) × List (View.Piece (Elt F) S200x10000 .f32) × List (View.Piece (Elt F) S10000x16 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare y7 ∗ (∃ d, owns (c : Thread nD τ) arg8 fullShare d) ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L.1) ∗ owns (c : Thread nD τ) arg7 fullShare y7 ∗ (∃ f, arg8.view.loc (c : Thread nD τ) ↦[arg8.view.set]{fullShare} arg8.view.writes (Elt F) f L.2.1) ∗ owns (c : Thread nD τ) arg9 fullShare xs0 ∗ (arg10.view.loc (c : Thread nD τ) ↦[arg10.view.set]{fullShare} arg10.view.writes (Elt F) (harg10.unread xs1) L.2.2)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10) K } := by
  refine ⟨(?_, ?_, ?_), fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg7.eq_unread hf5; obtain rfl := harg9.eq_unread hfs0; obtain rfl := harg10.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    isplitl [H6]; · iexists _; iexact H6
    isplitl [HS0]
    · iexists _; isplitr; · ipureintro; exact harg9.read_unread _
      iexact HS0
    iexact HS1

/-! ## Case C: the second pass -/

set_option maxHeartbeats 1000000 in
/-- A point of the second pass: both scratch arrays are read, the first-layer buffer is not touched. Found by the run: the
    stores into the result buffer and the copy buffer. -/
noncomputable def runC (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x32 .f32) (harg4 : arg4.IsWhole) (arg5 : Memref sig .tc .vmem S32x16 .f32) (harg5 : arg5.IsWhole) (arg6 : Memref sig .tc .vmem S400x32 .f32) (harg6 : arg6.IsWhole) (arg7 : Memref sig .tc .vmem S400x16 .f32) (harg7 : arg7.IsWhole) (arg8 : Memref sig .tc .vmem S200x10000 .f32) (harg8 : arg8.IsWhole) (arg9 : Memref sig .tc .vmem S10000x32 .bf16) (harg9 : arg9.IsWhole) (arg10 : Memref sig .tc .vmem S10000x16 .bf16) (harg10 : arg10.IsWhole) (hc0 : ¬condFirst i) (hc1 : ¬condPass0 i) (hc2 : condPass1 i)
    (x0 : Vec F S10000x128 .f32) (x1 : Vec F S400x10000 .f32) (x2 : Vec F S128x32 .f32) (x3 : Vec F S32x16 .f32) (y6 : Vec F S400x32 .f32) (xs0 : Vec F S10000x32 .bf16) (xs1 : Vec F S10000x16 .bf16) :
    { L : List (View.Piece (Elt F) S400x16 .f32) × List (View.Piece (Elt F) S200x10000 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y6 ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y6 ∗ (∃ f, arg7.view.loc (c : Thread nD τ) ↦[arg7.view.set]{fullShare} arg7.view.writes (Elt F) f L.1) ∗ (∃ f, arg8.view.loc (c : Thread nD τ) ↦[arg8.view.set]{fullShare} arg8.view.writes (Elt F) f L.2) ∗ owns (c : Thread nD τ) arg9 fullShare xs0 ∗ owns (c : Thread nD τ) arg10 fullShare xs1) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10) K } := by
  refine ⟨(?_, ?_), fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg6.eq_unread hf4; obtain rfl := harg9.eq_unread hfs0; obtain rfl := harg10.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [HS0]
    · iexists _; isplitr; · ipureintro; exact harg9.read_unread _
      iexact HS0
    iexists _; isplitr; · ipureintro; exact harg10.read_unread _
    iexact HS1

end Cert.KernelIdeal.Body

end
-- ==== Proof.ValsI.lean ====
/-
  What each case of the kernel body leaves, buffer by buffer, as values.

  Every store of the body but one overwrites its whole buffer, so what the buffer then reads is the stored value, whatever
  it held: the block of the first layer, the block of the result, the kept product x · W1, and the copied half of the
  adjacency block (its upper 200 rows in the first pass, its lower 200 in the second). The one partial store writes
  rows 400·i … 400·i + 399 of the second scratch array, i the second grid coordinate: afterwards a row in that range
  reads the stored block at the row less 400·i, and every other row reads what it read before.
-/
import proofs.«132780_g18872086298805_cont_8to1_696_32_alg».proof.Proof.Gen.KernelIdeal.Frame
import proofs.«132780_g18872086298805_cont_8to1_696_32_alg».proof.Proof.Gen.KernelIdeal.Skeleton
import proofs.«132780_g18872086298805_cont_8to1_696_32_alg».proof.Proof.BodyI
import Idealize.ShloMosaic.Lib.WritesUnit
import Idealize.ShloMosaic.Lib.Pipeline.Value
import Idealize.ShloMosaic.Lib.Pipeline.FrameBody
import Idealize.ShloMosaic.Lib.Ring
import Idealize.ShloMosaic.Lib.Tactic

set_option maxRecDepth 16384

noncomputable section

namespace Cert.KernelIdeal.Vals

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Body

theorem hz : (![0, 0] : Fin 2 → Nat) = fun _ => 0 := funext fun a => by fin_cases a <;> rfl

/-- One store through the whole-shape rectangle leaves its payload, whatever the buffer held. -/
theorem read_writes_whole {sig' : RefSig} {κ' : Kind} {sp' : Space} {S : Shape} {e : EltTy} {Val : EltTy → Type} [∀ e, Nonempty (Val e)]
    (v : View sig' κ' sp' S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w :=
  (View.read_writes_eq_canon v f _ (fun y => ⟨_, List.mem_singleton_self _, View.mem_set_unit_zero h inb y⟩)).trans
    (View.canon_unit_zero h inb w)

/-- The upper 200 rows of a 400-row block. -/
abbrev topHalf (x1 : Vec F S400x10000 .f32) : Vec F S200x10000 .f32 :=
  View.ld x1 (Rect.unit (s := S400x10000) ![0, 0] S200x10000.size inb_S400x10000_S200x10000_0_0)
/-- Its lower 200 rows. -/
abbrev botHalf (x1 : Vec F S400x10000 .f32) : Vec F S200x10000 .f32 :=
  View.ld x1 (Rect.unit (s := S400x10000) ![200, 0] S200x10000.size inb_S400x10000_S200x10000_200_0)

/-- The row offset the partial store computes is 400 times the second grid coordinate. -/
theorem off1_eq (i : grid0.Coords) : k0_off1 i = ![400 * (i 1).val, 0] := by
  have h : ∀ j : Fin 25, (Scalar.indexCast (Scalar.muli (BitVec.ofNat 32 j.val) 400#32)).toNat = 400 * j.val := by decide
  unfold k0_off1
  exact congrArg (fun n => (![n, 0] : Fin 2 → Nat)) (h (i 1))

/-- The second scratch array after the partial store: rows 400·i … 400·i + 399 from the stored block, the rest kept. -/
def putRows (i : grid0.Coords) (d : Vec F S10000x16 .bf16) (blk : Vec F S400x16 .bf16) : Vec F S10000x16 .bf16 :=
  fun y => if h : 400 * (i 1).val ≤ (y 0).val ∧ (y 0).val < 400 * (i 1).val + 400 then
      blk (fun a => match a with
        | ⟨0, _⟩ => ⟨(y 0).val - 400 * (i 1).val, by show _ < 400; omega⟩
        | ⟨1, _⟩ => ⟨(y 1).val, (y 1).isLt⟩)
    else d y

/-! ## Reading each written buffer back -/

/-- The first point leaves the first-layer block formed from the product it has just stored. -/
theorem A_layer1 (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x32 .f32) (harg4 : arg4.IsWhole) (arg5 : Memref sig .tc .vmem S32x16 .f32) (harg5 : arg5.IsWhole) (arg6 : Memref sig .tc .vmem S400x32 .f32) (harg6 : arg6.IsWhole) (arg7 : Memref sig .tc .vmem S400x16 .f32) (harg7 : arg7.IsWhole) (arg8 : Memref sig .tc .vmem S200x10000 .f32) (harg8 : arg8.IsWhole) (arg9 : Memref sig .tc .vmem S10000x32 .bf16) (harg9 : arg9.IsWhole) (arg10 : Memref sig .tc .vmem S10000x16 .bf16) (harg10 : arg10.IsWhole) (hc0 : condFirst i) (hc1 : condPass0 i) (hc2 : ¬condPass1 i)
    (x0 : Vec F S10000x128 .f32) (x1 : Vec F S400x10000 .f32) (x2 : Vec F S128x32 .f32) (x3 : Vec F S32x16 .f32) (y7 : Vec F S400x16 .f32) (xs1 : Vec F S10000x16 .bf16) (f : arg6.view.ty.Contents (Elt F)) :
    arg6.view.read (Elt F) (arg6.view.writes (Elt F) f (runA c i arg2 harg2 arg3 harg3 arg4 harg4 arg5 harg5 arg6 harg6 arg7 harg7 arg8 harg8 arg9 harg9 arg10 harg10 hc0 hc1 hc2 x0 x1 x2 x3 y7 xs1).1.1) = k0_pay2 x1 (k0_pay1 x0 x2) := by
  unfold runA; dsimp only
  sl_unfold_words
  refine (read_writes_whole _ f hz _ _).trans ?_
  simp only [View.readAt_eq_ld, harg2.read_unread, harg3.read_unread, harg4.read_unread, harg5.read_unread, harg9.read_unread, harg10.read_unread,
    View.ld_unit_zero (S := S400x10000) hz, View.ld_unit_zero (S := S10000x32) hz, View.ld_unit_zero (S := S10000x128) hz, View.ld_unit_zero (S := S128x32) hz,
    View.ld_unit_zero (S := S32x16) hz, View.ld_unit_zero (S := S10000x16) hz, View.readCov_unit_zero (S := S10000x32) _ hz]

/-- The first point copies the upper half of the adjacency block. -/
theorem A_copy (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x32 .f32) (harg4 : arg4.IsWhole) (arg5 : Memref sig .tc .vmem S32x16 .f32) (harg5 : arg5.IsWhole) (arg6 : Memref sig .tc .vmem S400x32 .f32) (harg6 : arg6.IsWhole) (arg7 : Memref sig .tc .vmem S400x16 .f32) (harg7 : arg7.IsWhole) (arg8 : Memref sig .tc .vmem S200x10000 .f32) (harg8 : arg8.IsWhole) (arg9 : Memref sig .tc .vmem S10000x32 .bf16) (harg9 : arg9.IsWhole) (arg10 : Memref sig .tc .vmem S10000x16 .bf16) (harg10 : arg10.IsWhole) (hc0 : condFirst i) (hc1 : condPass0 i) (hc2 : ¬condPass1 i)
    (x0 : Vec F S10000x128 .f32) (x1 : Vec F S400x10000 .f32) (x2 : Vec F S128x32 .f32) (x3 : Vec F S32x16 .f32) (y7 : Vec F S400x16 .f32) (xs1 : Vec F S10000x16 .bf16) (f : arg8.view.ty.Contents (Elt F)) :
    arg8.view.read (Elt F) (arg8.view.writes (Elt F) f (runA c i arg2 harg2 arg3 harg3 arg4 harg4 arg5 harg5 arg6 harg6 arg7 harg7 arg8 harg8 arg9 harg9 arg10 harg10 hc0 hc1 hc2 x0 x1 x2 x3 y7 xs1).1.2.1) = topHalf x1 := by
  unfold runA; dsimp only
  sl_unfold_words
  refine (read_writes_whole _ f hz _ _).trans ?_
  simp only [View.readAt_eq_ld, harg2.read_unread, harg3.read_unread, harg4.read_unread, harg5.read_unread, harg9.read_unread, harg10.read_unread,
    View.ld_unit_zero (S := S400x10000) hz, View.ld_unit_zero (S := S10000x32) hz, View.ld_unit_zero (S := S10000x128) hz, View.ld_unit_zero (S := S128x32) hz,
    View.ld_unit_zero (S := S32x16) hz, View.ld_unit_zero (S := S10000x16) hz, View.readCov_unit_zero (S := S10000x32) _ hz]

/-- The first point leaves x · W1 in the first scratch array. -/
theorem A_prod (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x32 .f32) (harg4 : arg4.IsWhole) (arg5 : Memref sig .tc .vmem S32x16 .f32) (harg5 : arg5.IsWhole) (arg6 : Memref sig .tc .vmem S400x32 .f32) (harg6 : arg6.IsWhole) (arg7 : Memref sig .tc .vmem S400x16 .f32) (harg7 : arg7.IsWhole) (arg8 : Memref sig .tc .vmem S200x10000 .f32) (harg8 : arg8.IsWhole) (arg9 : Memref sig .tc .vmem S10000x32 .bf16) (harg9 : arg9.IsWhole) (arg10 : Memref sig .tc .vmem S10000x16 .bf16) (harg10 : arg10.IsWhole) (hc0 : condFirst i) (hc1 : condPass0 i) (hc2 : ¬condPass1 i)
    (x0 : Vec F S10000x128 .f32) (x1 : Vec F S400x10000 .f32) (x2 : Vec F S128x32 .f32) (x3 : Vec F S32x16 .f32) (y7 : Vec F S400x16 .f32) (xs1 : Vec F S10000x16 .bf16) (f : arg9.view.ty.Contents (Elt F)) :
    arg9.view.read (Elt F) (arg9.view.writes (Elt F) f (runA c i arg2 harg2 arg3 harg3 arg4 harg4 arg5 harg5 arg6 harg6 arg7 harg7 arg8 harg8 arg9 harg9 arg10 harg10 hc0 hc1 hc2 x0 x1 x2 x3 y7 xs1).1.2.2.1) = k0_pay1 x0 x2 := by
  unfold runA; dsimp only
  sl_unfold_words
  refine (read_writes_whole _ f hz _ _).trans ?_
  simp only [View.readAt_eq_ld, harg2.read_unread, harg3.read_unread, harg4.read_unread, harg5.read_unread, harg9.read_unread, harg10.read_unread,
    View.ld_unit_zero (S := S400x10000) hz, View.ld_unit_zero (S := S10000x32) hz, View.ld_unit_zero (S := S10000x128) hz, View.ld_unit_zero (S := S128x32) hz,
    View.ld_unit_zero (S := S32x16) hz, View.ld_unit_zero (S := S10000x16) hz, View.readCov_unit_zero (S := S10000x32) _ hz]

/-- The first point writes its block of the second layer's input into the second scratch array. -/
theorem A_rows (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x32 .f32) (harg4 : arg4.IsWhole) (arg5 : Memref sig .tc .vmem S32x16 .f32) (harg5 : arg5.IsWhole) (arg6 : Memref sig .tc .vmem S400x32 .f32) (harg6 : arg6.IsWhole) (arg7 : Memref sig .tc .vmem S400x16 .f32) (harg7 : arg7.IsWhole) (arg8 : Memref sig .tc .vmem S200x10000 .f32) (harg8 : arg8.IsWhole) (arg9 : Memref sig .tc .vmem S10000x32 .bf16) (harg9 : arg9.IsWhole) (arg10 : Memref sig .tc .vmem S10000x16 .bf16) (harg10 : arg10.IsWhole) (hc0 : condFirst i) (hc1 : condPass0 i) (hc2 : ¬condPass1 i)
    (x0 : Vec F S10000x128 .f32) (x1 : Vec F S400x10000 .f32) (x2 : Vec F S128x32 .f32) (x3 : Vec F S32x16 .f32) (y7 : Vec F S400x16 .f32) (xs1 : Vec F S10000x16 .bf16) :
    arg10.view.read (Elt F) (arg10.view.writes (Elt F) (harg10.unread xs1) (runA c i arg2 harg2 arg3 harg3 arg4 harg4 arg5 harg5 arg6 harg6 arg7 harg7 arg8 harg8 arg9 harg9 arg10 harg10 hc0 hc1 hc2 x0 x1 x2 x3 y7 xs1).1.2.2.2) = putRows i xs1 (k0_pay3 x1 (k0_pay1 x0 x2) x3) := by
  unfold runA; dsimp only
  sl_unfold_words
  funext y
  refine (View.read_writes_cons_rows (size := ![400, 16]) (W := 400) (o := 400 * (i 1).val) arg10.view (harg10.unread xs1) _ _ [] y (off1_eq i) rfl rfl).trans ?_
  unfold putRows
  by_cases h : 400 * (i 1).val ≤ (y 0).val ∧ (y 0).val < 400 * (i 1).val + 400
  · rw [dif_pos h, dif_pos h]
    simp only [View.readAt_eq_ld, harg2.read_unread, harg3.read_unread, harg4.read_unread, harg5.read_unread, harg9.read_unread, harg10.read_unread,
    View.ld_unit_zero (S := S400x10000) hz, View.ld_unit_zero (S := S10000x32) hz, View.ld_unit_zero (S := S10000x128) hz, View.ld_unit_zero (S := S128x32) hz,
    View.ld_unit_zero (S := S32x16) hz, View.ld_unit_zero (S := S10000x16) hz, View.readCov_unit_zero (S := S10000x32) _ hz]
    exact congrArg _ (funext fun a => Fin.ext (by match a with | ⟨0, _⟩ => rfl | ⟨1, _⟩ => rfl))
  · rw [dif_neg h, dif_neg h, View.writes_nil, harg10.read_unread]

/-- A later point of the first pass leaves the first-layer block formed from the kept product. -/
theorem B_layer1 (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x32 .f32) (harg4 : arg4.IsWhole) (arg5 : Memref sig .tc .vmem S32x16 .f32) (harg5 : arg5.IsWhole) (arg6 : Memref sig .tc .vmem S400x32 .f32) (harg6 : arg6.IsWhole) (arg7 : Memref sig .tc .vmem S400x16 .f32) (harg7 : arg7.IsWhole) (arg8 : Memref sig .tc .vmem S200x10000 .f32) (harg8 : arg8.IsWhole) (arg9 : Memref sig .tc .vmem S10000x32 .bf16) (harg9 : arg9.IsWhole) (arg10 : Memref sig .tc .vmem S10000x16 .bf16) (harg10 : arg10.IsWhole) (hc0 : ¬condFirst i) (hc1 : condPass0 i) (hc2 : ¬condPass1 i)
    (x0 : Vec F S10000x128 .f32) (x1 : Vec F S400x10000 .f32) (x2 : Vec F S128x32 .f32) (x3 : Vec F S32x16 .f32) (y7 : Vec F S400x16 .f32) (xs0 : Vec F S10000x32 .bf16) (xs1 : Vec F S10000x16 .bf16) (f : arg6.view.ty.Contents (Elt F)) :
    arg6.view.read (Elt F) (arg6.view.writes (Elt F) f (runB c i arg2 harg2 arg3 harg3 arg4 harg4 arg5 harg5 arg6 harg6 arg7 harg7 arg8 harg8 arg9 harg9 arg10 harg10 hc0 hc1 hc2 x0 x1 x2 x3 y7 xs0 xs1).1.1) = k0_pay2 x1 xs0 := by
  unfold runB; dsimp only
  refine (read_writes_whole _ f hz _ _).trans ?_
  simp only [View.readAt_eq_ld, harg2.read_unread, harg3.read_unread, harg4.read_unread, harg5.read_unread, harg9.read_unread, harg10.read_unread,
    View.ld_unit_zero (S := S400x10000) hz, View.ld_unit_zero (S := S10000x32) hz, View.ld_unit_zero (S := S10000x128) hz, View.ld_unit_zero (S := S128x32) hz,
    View.ld_unit_zero (S := S32x16) hz, View.ld_unit_zero (S := S10000x16) hz]

/-- It copies the upper half of the adjacency block. -/
theorem B_copy (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x32 .f32) (harg4 : arg4.IsWhole) (arg5 : Memref sig .tc .vmem S32x16 .f32) (harg5 : arg5.IsWhole) (arg6 : Memref sig .tc .vmem S400x32 .f32) (harg6 : arg6.IsWhole) (arg7 : Memref sig .tc .vmem S400x16 .f32) (harg7 : arg7.IsWhole) (arg8 : Memref sig .tc .vmem S200x10000 .f32) (harg8 : arg8.IsWhole) (arg9 : Memref sig .tc .vmem S10000x32 .bf16) (harg9 : arg9.IsWhole) (arg10 : Memref sig .tc .vmem S10000x16 .bf16) (harg10 : arg10.IsWhole) (hc0 : ¬condFirst i) (hc1 : condPass0 i) (hc2 : ¬condPass1 i)
    (x0 : Vec F S10000x128 .f32) (x1 : Vec F S400x10000 .f32) (x2 : Vec F S128x32 .f32) (x3 : Vec F S32x16 .f32) (y7 : Vec F S400x16 .f32) (xs0 : Vec F S10000x32 .bf16) (xs1 : Vec F S10000x16 .bf16) (f : arg8.view.ty.Contents (Elt F)) :
    arg8.view.read (Elt F) (arg8.view.writes (Elt F) f (runB c i arg2 harg2 arg3 harg3 arg4 harg4 arg5 harg5 arg6 harg6 arg7 harg7 arg8 harg8 arg9 harg9 arg10 harg10 hc0 hc1 hc2 x0 x1 x2 x3 y7 xs0 xs1).1.2.1) = topHalf x1 := by
  unfold runB; dsimp only
  refine (read_writes_whole _ f hz _ _).trans ?_
  simp only [View.readAt_eq_ld, harg2.read_unread, harg3.read_unread, harg4.read_unread, harg5.read_unread, harg9.read_unread, harg10.read_unread,
    View.ld_unit_zero (S := S400x10000) hz, View.ld_unit_zero (S := S10000x32) hz, View.ld_unit_zero (S := S10000x128) hz, View.ld_unit_zero (S := S128x32) hz,
    View.ld_unit_zero (S := S32x16) hz, View.ld_unit_zero (S := S10000x16) hz]

/-- It writes its block of the second layer's input into the second scratch array. -/
theorem B_rows (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x32 .f32) (harg4 : arg4.IsWhole) (arg5 : Memref sig .tc .vmem S32x16 .f32) (harg5 : arg5.IsWhole) (arg6 : Memref sig .tc .vmem S400x32 .f32) (harg6 : arg6.IsWhole) (arg7 : Memref sig .tc .vmem S400x16 .f32) (harg7 : arg7.IsWhole) (arg8 : Memref sig .tc .vmem S200x10000 .f32) (harg8 : arg8.IsWhole) (arg9 : Memref sig .tc .vmem S10000x32 .bf16) (harg9 : arg9.IsWhole) (arg10 : Memref sig .tc .vmem S10000x16 .bf16) (harg10 : arg10.IsWhole) (hc0 : ¬condFirst i) (hc1 : condPass0 i) (hc2 : ¬condPass1 i)
    (x0 : Vec F S10000x128 .f32) (x1 : Vec F S400x10000 .f32) (x2 : Vec F S128x32 .f32) (x3 : Vec F S32x16 .f32) (y7 : Vec F S400x16 .f32) (xs0 : Vec F S10000x32 .bf16) (xs1 : Vec F S10000x16 .bf16) :
    arg10.view.read (Elt F) (arg10.view.writes (Elt F) (harg10.unread xs1) (runB c i arg2 harg2 arg3 harg3 arg4 harg4 arg5 harg5 arg6 harg6 arg7 harg7 arg8 harg8 arg9 harg9 arg10 harg10 hc0 hc1 hc2 x0 x1 x2 x3 y7 xs0 xs1).1.2.2) = putRows i xs1 (k0_pay3 x1 xs0 x3) := by
  unfold runB; dsimp only
  funext y
  refine (View.read_writes_cons_rows (size := ![400, 16]) (W := 400) (o := 400 * (i 1).val) arg10.view (harg10.unread xs1) _ _ [] y (off1_eq i) rfl rfl).trans ?_
  unfold putRows
  by_cases h : 400 * (i 1).val ≤ (y 0).val ∧ (y 0).val < 400 * (i 1).val + 400
  · rw [dif_pos h, dif_pos h]
    simp only [View.readAt_eq_ld, harg2.read_unread, harg3.read_unread, harg4.read_unread, harg5.read_unread, harg9.read_unread, harg10.read_unread,
    View.ld_unit_zero (S := S400x10000) hz, View.ld_unit_zero (S := S10000x32) hz, View.ld_unit_zero (S := S10000x128) hz, View.ld_unit_zero (S := S128x32) hz,
    View.ld_unit_zero (S := S32x16) hz, View.ld_unit_zero (S := S10000x16) hz]
    exact congrArg _ (funext fun a => Fin.ext (by match a with | ⟨0, _⟩ => rfl | ⟨1, _⟩ => rfl))
  · rw [dif_neg h, dif_neg h, View.writes_nil, harg10.read_unread]

/-- A point of the second pass leaves the block of the result formed from the kept second-layer input. -/
theorem C_result (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x32 .f32) (harg4 : arg4.IsWhole) (arg5 : Memref sig .tc .vmem S32x16 .f32) (harg5 : arg5.IsWhole) (arg6 : Memref sig .tc .vmem S400x32 .f32) (harg6 : arg6.IsWhole) (arg7 : Memref sig .tc .vmem S400x16 .f32) (harg7 : arg7.IsWhole) (arg8 : Memref sig .tc .vmem S200x10000 .f32) (harg8 : arg8.IsWhole) (arg9 : Memref sig .tc .vmem S10000x32 .bf16) (harg9 : arg9.IsWhole) (arg10 : Memref sig .tc .vmem S10000x16 .bf16) (harg10 : arg10.IsWhole) (hc0 : ¬condFirst i) (hc1 : ¬condPass0 i) (hc2 : condPass1 i)
    (x0 : Vec F S10000x128 .f32) (x1 : Vec F S400x10000 .f32) (x2 : Vec F S128x32 .f32) (x3 : Vec F S32x16 .f32) (y6 : Vec F S400x32 .f32) (xs0 : Vec F S10000x32 .bf16) (xs1 : Vec F S10000x16 .bf16) (f : arg7.view.ty.Contents (Elt F)) :
    arg7.view.read (Elt F) (arg7.view.writes (Elt F) f (runC c i arg2 harg2 arg3 harg3 arg4 harg4 arg5 harg5 arg6 harg6 arg7 harg7 arg8 harg8 arg9 harg9 arg10 harg10 hc0 hc1 hc2 x0 x1 x2 x3 y6 xs0 xs1).1.1) = k0_pay4 x1 xs1 := by
  unfold runC; dsimp only
  refine (read_writes_whole _ f hz _ _).trans ?_
  simp only [View.readAt_eq_ld, harg2.read_unread, harg3.read_unread, harg4.read_unread, harg5.read_unread, harg9.read_unread, harg10.read_unread,
    View.ld_unit_zero (S := S400x10000) hz, View.ld_unit_zero (S := S10000x32) hz, View.ld_unit_zero (S := S10000x128) hz, View.ld_unit_zero (S := S128x32) hz,
    View.ld_unit_zero (S := S32x16) hz, View.ld_unit_zero (S := S10000x16) hz]

/-- It copies the lower half of the adjacency block. -/
theorem C_copy (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x32 .f32) (harg4 : arg4.IsWhole) (arg5 : Memref sig .tc .vmem S32x16 .f32) (harg5 : arg5.IsWhole) (arg6 : Memref sig .tc .vmem S400x32 .f32) (harg6 : arg6.IsWhole) (arg7 : Memref sig .tc .vmem S400x16 .f32) (harg7 : arg7.IsWhole) (arg8 : Memref sig .tc .vmem S200x10000 .f32) (harg8 : arg8.IsWhole) (arg9 : Memref sig .tc .vmem S10000x32 .bf16) (harg9 : arg9.IsWhole) (arg10 : Memref sig .tc .vmem S10000x16 .bf16) (harg10 : arg10.IsWhole) (hc0 : ¬condFirst i) (hc1 : ¬condPass0 i) (hc2 : condPass1 i)
    (x0 : Vec F S10000x128 .f32) (x1 : Vec F S400x10000 .f32) (x2 : Vec F S128x32 .f32) (x3 : Vec F S32x16 .f32) (y6 : Vec F S400x32 .f32) (xs0 : Vec F S10000x32 .bf16) (xs1 : Vec F S10000x16 .bf16) (f : arg8.view.ty.Contents (Elt F)) :
    arg8.view.read (Elt F) (arg8.view.writes (Elt F) f (runC c i arg2 harg2 arg3 harg3 arg4 harg4 arg5 harg5 arg6 harg6 arg7 harg7 arg8 harg8 arg9 harg9 arg10 harg10 hc0 hc1 hc2 x0 x1 x2 x3 y6 xs0 xs1).1.2) = botHalf x1 := by
  unfold runC; dsimp only
  refine (read_writes_whole _ f hz _ _).trans ?_
  simp only [View.readAt_eq_ld, harg2.read_unread, harg3.read_unread, harg4.read_unread, harg5.read_unread, harg9.read_unread, harg10.read_unread,
    View.ld_unit_zero (S := S400x10000) hz, View.ld_unit_zero (S := S10000x32) hz, View.ld_unit_zero (S := S10000x128) hz, View.ld_unit_zero (S := S128x32) hz,
    View.ld_unit_zero (S := S32x16) hz, View.ld_unit_zero (S := S10000x16) hz]

end Cert.KernelIdeal.Vals

end
-- ==== Proof.DataI.lean ====
/-
  The proof data of the pipelined kernel and its body obligation.

  What every staging buffer holds after the body at each of the 50 grid points, as functions of the argument arrays'
  blocks:
    · the inputs' buffers hold their blocks;
    · the first-layer buffer holds, through the first pass, the block of that point, max (A_t · P) 0 with P = x · W1
      the kept product; the second pass stores nothing into it, so it still holds the block of the 25th point, which is
      what the last point writes back (to the same 25th block of the array);
    · the result buffer holds, at a point of the second pass, that point's block of the result; the first pass leaves it as found;
    · the copy buffer holds the upper (first pass) or lower (second pass) half of the adjacency block.
  Between points the body keeps P in its first scratch array, and in its second the rows of (the first layer · W2)
  written so far: after point n of the first pass, rows below 400·(n + 1); from then on every row.
-/
import proofs.«132780_g18872086298805_cont_8to1_696_32_alg».proof.Proof.Gen.KernelIdeal.Frame
import proofs.«132780_g18872086298805_cont_8to1_696_32_alg».proof.Proof.Gen.KernelIdeal.Skeleton
import proofs.«132780_g18872086298805_cont_8to1_696_32_alg».proof.Proof.ValsI
import Idealize.ShloMosaic.Lib.Pipeline.TableIdle
import Idealize.ShloMosaic.Lib.Pipeline.FrameBody
import Idealize.ShloMosaic.Lib.Ring
import Idealize.ShloMosaic.Lib.Tactic

set_option maxRecDepth 16384

noncomputable section

namespace Cert.KernelIdeal.Data

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Body Cert.KernelIdeal.Vals

variable (m : (ℓ : Loc nD τ sig) → Buf (Elt F) ℓ) (ρ : Dev nD → PrngReg)

/-! ## The staging memrefs at a point, as the pipeline passes them, and the scratch arrays -/

abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S400x10000 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x32 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S32x16 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S400x32 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S400x16 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S200x10000 .f32 := win0_6.stage (cfg0.slots t 6)
abbrev hs6 (t : Fin cfg0.N) : (ms6 t).IsWhole := hstage0_6 ((cfg0.slots t 6).cast nbuf0_6)
abbrev scM0 : Memref sig .tc .vmem S10000x32 .bf16 := Memref.whole cc0_scratch0
abbrev scM1 : Memref sig .tc .vmem S10000x16 .bf16 := Memref.whole cc0_scratch1

/-- The region's own invariant: the two scratch arrays at some contents, the generator register at some state. -/
theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-! ## The grid: 50 points, the first pass the points below 25 -/

theorem hN : cfg0.N = 50 := N_0
abbrev t0 : Fin cfg0.N := ⟨0, lt_of_lt_of_eq (by decide) N_0.symm⟩
abbrev t24 : Fin cfg0.N := ⟨24, lt_of_lt_of_eq (by decide) N_0.symm⟩

theorem idle4 : ∀ t : Fin cfg0.N, cfg0.idle 4 (grid0.coords t) = decide (25 ≤ t.val) :=
  (by decide +kernel : ∀ t : Fin grid0.N, cfg0.idle 4 (grid0.coords t) = decide (25 ≤ t.val))
theorem idle5 : ∀ t : Fin cfg0.N, cfg0.idle 5 (grid0.coords t) = decide (t.val < 25) :=
  (by decide +kernel : ∀ t : Fin grid0.N, cfg0.idle 5 (grid0.coords t) = decide (t.val < 25))
theorem idle6 : ∀ t : Fin cfg0.N, cfg0.idle 6 (grid0.coords t) = false :=
  (by decide +kernel : ∀ t : Fin grid0.N, cfg0.idle 6 (grid0.coords t) = false)
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- The first-layer window is written back after each point of the first pass but the last of them, and after the last point of all. -/
theorem flush4 : ∀ t : Fin cfg0.N, (cfg0.win 4).flush t = decide (t.val < 24 ∨ t.val = 49) :=
  (by decide +kernel : ∀ t : Fin grid0.N, win0_4.flush t = decide (t.val < 24 ∨ t.val = 49))
/-- The result window is written back after each point of the second pass. -/
theorem flush5 : ∀ t : Fin cfg0.N, (cfg0.win 5).flush t = decide (25 ≤ t.val) :=
  (by decide +kernel : ∀ t : Fin grid0.N, win0_5.flush t = decide (25 ≤ t.val))
/-- The second grid coordinate counts the blocks within a pass. -/
theorem coord1 : ∀ t : Fin cfg0.N, ((grid0.coords t) 1).val = t.val % 25 :=
  (by decide +kernel : ∀ t : Fin grid0.N, ((grid0.coords t) 1).val = t.val % 25)

/-! ## What the buffers hold -/

/-- The kept product x · W1, formed at the first point. -/
def prod (c : Dev nD) : Vec F S10000x32 .bf16 := k0_pay1 (iblk m c 0 t0) (iblk m c 2 t0)
/-- The first layer's block of point t. -/
def layer1 (c : Dev nD) (t : Fin cfg0.N) : Vec F S400x32 .f32 := k0_pay2 (iblk m c 1 t) (prod m c)
/-- That block times W2. -/
def rowsBlk (c : Dev nD) (t : Fin cfg0.N) : Vec F S400x16 .bf16 := k0_pay3 (iblk m c 1 t) (prod m c) (iblk m c 3 t)
/-- The point of the first pass whose block holds row y 0. -/
def rowPt (y : S10000x16.Idx) : Fin cfg0.N :=
  ⟨(y 0).val / 400, by have h : (y 0).val < 10000 := (y 0).isLt; have : cfg0.N = 50 := N_0; omega⟩
/-- The index of row y 0 within that block. -/
def rowIn (y : S10000x16.Idx) : S400x16.Idx := fun a => match a with
  | ⟨0, _⟩ => ⟨(y 0).val % 400, Nat.mod_lt _ (by decide)⟩
  | ⟨1, _⟩ => ⟨(y 1).val, (y 1).isLt⟩
/-- The second layer's input, every row: row r is row r mod 400 of the block of point r / 400. -/
def layer2in (c : Dev nD) : Vec F S10000x16 .bf16 := fun y => rowsBlk m c (rowPt y) (rowIn y)
/-- The result's block of point t. -/
def resultBlk (c : Dev nD) (t : Fin cfg0.N) : Vec F S400x16 .f32 := k0_pay4 (iblk m c 1 t) (layer2in m c)
/-- The copied half of the adjacency block at point t. -/
def copyBlk (c : Dev nD) (t : Fin cfg0.N) : Vec F S200x10000 .f32 :=
  if t.val < 25 then topHalf (iblk m c 1 t) else botHalf (iblk m c 1 t)
/-- The last point whose first-layer block the buffer can hold: t itself in the first pass, the 25th point afterwards. -/
def clamp (t : Fin cfg0.N) : Fin cfg0.N := if t.val < 25 then t else t24

/-- The invariant between points: before the first, the region's own; after point n, the kept product in the first
    scratch array and, in the second, contents agreeing with the second layer's input on the rows below 400·(n + 1). -/
def PhiS (c : Dev nD) : ℕ → sProp 𝕄
  | 0 => Pipeline.ΦA spec0 c
  | n + 1 => iprop(iprop(owns (c : Thread nD τ) scM0 fullShare (prod m c)
      ∗ (∃ d, ⌜∀ y : S10000x16.Idx, (y 0).val < 400 * (n + 1) → d y = layer2in m c y⌝ ∗ owns (c : Thread nD τ) scM1 fullShare d)) ∗ (∃ r, prngReg c r))

/-- The proof data of the one pipeline on core c. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => layer1 m c (clamp t)
    | ⟨5, _⟩ => resultBlk m c t
    | ⟨6, _⟩ => copyBlk m c t
  Φ t := PhiS m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = layer1 m c (clamp t) := by dsimp only [dats]
theorem after5 (c : Dev nD) (t : Fin cfg0.N) : (dats m 0 c).after 5 t = resultBlk m c t := by dsimp only [dats]
theorem after6 (c : Dev nD) (t : Fin cfg0.N) : (dats m 0 c).after 6 t = copyBlk m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

end Cert.KernelIdeal.Data

end
-- ==== Proof.OblI.lean ====
/-
  The body obligation of the pipelined kernel, its run, and the frame.

  At each grid point the body is in one of its three cases, and the case's run, read back buffer by buffer, is what the
  proof data says the point leaves. Two things carry across points. The second scratch array fills by 400 rows per
  point of the first pass: if its rows below 400·t hold the second layer's input, then after the store of point t
  its rows below 400·(t + 1) do, the new rows being row r mod 400 of the block of point r / 400 = t. And the first-layer
  buffer, which no point of the second pass stores into and none but the last writes back, holds throughout the
  second pass the block the 25th point left; that block is what the last point writes back.
-/
import proofs.«132780_g18872086298805_cont_8to1_696_32_alg».proof.Proof.Gen.KernelIdeal.Frame
import proofs.«132780_g18872086298805_cont_8to1_696_32_alg».proof.Proof.Gen.KernelIdeal.Skeleton
import proofs.«132780_g18872086298805_cont_8to1_696_32_alg».proof.Proof.DataI
import Idealize.ShloMosaic.Lib.Pipeline.FrameBody
import Idealize.ShloMosaic.Lib.Ring
import Idealize.ShloMosaic.Lib.Tactic

set_option maxRecDepth 16384

noncomputable section

namespace Cert.KernelIdeal.Obl

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Body Cert.KernelIdeal.Vals Cert.KernelIdeal.Data

variable (m : (ℓ : Loc nD τ sig) → Buf (Elt F) ℓ) (ρ : Dev nD → PrngReg)

/-! ## The first-layer buffer through the second pass -/

theorem clamp_early (t : Fin cfg0.N) (h : t.val < 25) : clamp t = t := by unfold clamp; rw [if_pos h]

theorem clamp_late (t : Fin cfg0.N) (h : 24 ≤ t.val) : clamp t = t24 := by
  unfold clamp; split
  · exact Fin.ext (by dsimp only; omega)
  · rfl

/-- Where the first-layer buffer is fresh (nothing to keep): through the first pass and after the last point. -/
theorem fresh4 : ∀ n, n ≤ cfg0.N → cfg0.fresh 4 n = decide (n < 25 ∨ n = 50) :=
  Pipeline.Cfg.fresh_tab cfg0 4 (fun n => decide (n < 25 ∨ n = 50)) (by decide)
    (by decide +kernel : ∀ t : Fin grid0.N, decide (t.val + 1 < 25 ∨ t.val + 1 = 50) = (win0_4.flush t || (cfg0.idle 4 (grid0.coords t) && decide (t.val < 25 ∨ t.val = 50))))

/-- Through the second pass the first-layer buffer holds the block of the 25th point. -/
theorem before4_late (c : Dev nD) (t : Fin cfg0.N) (h : 25 ≤ t.val) (d) : (dats m 0 c).before 4 t d = layer1 m c t24 := by
  have hN : cfg0.N = 50 := N_0
  have hlt : t.val < 50 := lt_of_lt_of_eq t.isLt hN
  rw [(dats m 0 c).before_out_traj 4 rfl (fun _ a => by fin_cases a <;> rfl) (fun u hu hi _ => by
      rw [idle4] at hi
      have h25 : 25 ≤ u.val := of_decide_eq_true hi
      rw [after4, after4, clamp_late u (by omega), clamp_late _ (by dsimp only; omega)]) t.val t rfl d,
    fresh4 t.val (le_of_lt t.isLt), if_neg (by rw [decide_eq_true_eq]; omega), after4, clamp_late _ (by dsimp only; omega)]

/-! ## The second scratch array fills by 400 rows a point -/

theorem rows_step (c : Dev nD) (t : Fin cfg0.N) (h25 : t.val < 25) (d : Vec F S10000x16 .bf16)
    (hd : ∀ y : S10000x16.Idx, (y 0).val < 400 * t.val → d y = layer2in m c y) :
    ∀ y : S10000x16.Idx, (y 0).val < 400 * (t.val + 1) →
      putRows (grid0.coords t) d (k0_pay3 (iblk m c 1 t) (prod m c) (iblk m c 3 t)) y = layer2in m c y := by
  intro y hy
  have hc : ((grid0.coords t) 1).val = t.val := by rw [coord1]; exact Nat.mod_eq_of_lt h25
  unfold putRows
  by_cases h : 400 * ((grid0.coords t) 1).val ≤ (y 0).val ∧ (y 0).val < 400 * ((grid0.coords t) 1).val + 400
  · rw [dif_pos h]
    rw [hc] at h
    have hp : rowPt y = t := Fin.ext (by show (y 0).val / 400 = t.val; omega)
    unfold layer2in
    rw [hp]
    unfold rowsBlk
    exact congrArg _ (funext fun a => Fin.ext (by
      match a with
      | ⟨0, _⟩ => show (y 0).val - 400 * ((grid0.coords t) 1).val = (y 0).val % 400; rw [hc]; omega
      | ⟨1, _⟩ => rfl))
  · rw [dif_neg h]
    rw [hc] at h
    exact hd y (by omega)

/-! ## The invariant, unfolded at a later point -/

theorem PhiS_pos (c : Dev nD) (n : ℕ) (hz : n ≠ 0) :
    PhiS m c n = iprop(iprop(owns (c : Thread nD τ) scM0 fullShare (prod m c)
      ∗ (∃ d, ⌜∀ y : S10000x16.Idx, (y 0).val < 400 * n → d y = layer2in m c y⌝ ∗ owns (c : Thread nD τ) scM1 fullShare d)) ∗ (∃ r, prngReg c r)) := by
  cases n with
  | zero => exact absurd rfl hz
  | succ n => rfl

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t)

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) from rfl]
  rw [show (dats m 0 c).Φ t.castSucc = PhiS m c t.val from by dsimp only [dats]; simp only [Fin.coe_castSucc]]
  rw [show (dats m 0 c).leavesExact 0 t = owns (c : Thread nD τ) (ms0 t) fullShare (iblk m c 0 t) from by
    unfold Dat.leavesExact; rw [live0 t, after0]]
  rw [show (dats m 0 c).leavesExact 1 t = owns (c : Thread nD τ) (ms1 t) fullShare (iblk m c 1 t) from by
    unfold Dat.leavesExact; rw [live1 t, after1]]
  rw [show (dats m 0 c).leavesExact 2 t = owns (c : Thread nD τ) (ms2 t) fullShare (iblk m c 2 t) from by
    unfold Dat.leavesExact; rw [live2 t, after2]]
  rw [show (dats m 0 c).leavesExact 3 t = owns (c : Thread nD τ) (ms3 t) fullShare (iblk m c 3 t) from by
    unfold Dat.leavesExact; rw [live3 t, after3]]
  rw [show (dats m 0 c).leavesExact 6 t = owns (c : Thread nD τ) (ms6 t) fullShare (copyBlk m c t) from by
    unfold Dat.leavesExact; rw [idle6 t, after6]]
  have hN : t.val < 50 := lt_of_lt_of_eq t.isLt (show cfg0.N = 50 from N_0)
  by_cases h25 : t.val < 25
  · -- the first pass
    have hc1 : condPass0 (grid0.coords t) := (hcondPass0 t).mpr h25
    have hc2 : ¬condPass1 (grid0.coords t) := fun h => absurd ((hcondPass1 t).mp h) (by omega)
    rw [show (dats m 0 c).leavesExact 4 t = owns (c : Thread nD τ) (ms4 t) fullShare (layer1 m c t) from by
      unfold Dat.leavesExact; rw [idle4 t, decide_eq_false (by omega), after4, clamp_early t h25]]
    rw [(dats m 0 c).leavesExact_idle 5 t (by rw [idle5, decide_eq_true h25]) (by rw [flush5, decide_eq_false (by omega)])]
    rw [show copyBlk m c t = topHalf (iblk m c 1 t) from by unfold copyBlk; rw [if_pos h25]]
    rw [PhiS_pos m c (t.val + 1) (Nat.succ_ne_zero _)]
    by_cases hz : t.val = 0
    · -- the first point
      have hc0 : condFirst (grid0.coords t) := (hcondFirst t).mpr hz
      have hpr : k0_pay1 (iblk m c 0 t) (iblk m c 2 t) = prod m c := by
        obtain rfl : t = t0 := Fin.ext hz
        rfl
      rw [show PhiS m c t.val = Pipeline.ΦA spec0 c from by rw [hz]; rfl, PhiA_eq]
      iintro ⟨⟨⟨⟨%e0, HS0⟩, ⟨%e1, HS1⟩⟩, Hg⟩, Ho, ⟨%d0, H0⟩, ⟨%d1, H1⟩, ⟨%d2, H2⟩, ⟨%d3, H3⟩, ⟨%d4, H4⟩, ⟨%d5, H5⟩, ⟨%d6, H6⟩⟩
      iapply ((runA c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) hc0 hc1 hc2 (iblk m c 0 t) (iblk m c 1 t) (iblk m c 2 t) (iblk m c 3 t) ((dats m 0 c).before 5 t d5) e1).2 Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexists _; iexact H6
      isplitl [HS0]; · iexists _; iexact HS0
      isplitl [HS1]; · iexact HS1
      iintro ⟨H0, H1, H2, H3, ⟨%f4, H4⟩, H5, ⟨%f6, H6⟩, ⟨%fs0, HS0⟩, HS1⟩
      isplitl [HS0 HS1 Hg]
      · isplitl [HS0 HS1]
        · isplitl [HS0]
          · unfold owns; iexists _; isplitr
            swap; · iexact HS0
            ipureintro
            exact (A_prod c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) hc0 hc1 hc2 (iblk m c 0 t) (iblk m c 1 t) (iblk m c 2 t) (iblk m c 3 t) ((dats m 0 c).before 5 t d5) e1 fs0).trans hpr
          · iexists _; isplitr
            swap
            · unfold owns; iexists _; isplitr
              swap; · iexact HS1
              ipureintro; rfl
            · ipureintro
              intro y hy
              refine (congrFun (A_rows c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) hc0 hc1 hc2 (iblk m c 0 t) (iblk m c 1 t) (iblk m c 2 t) (iblk m c 3 t) ((dats m 0 c).before 5 t d5) e1) y).trans ?_
              rw [hpr]
              exact rows_step m c t h25 e1 (fun y hy0 => absurd hy0 (by rw [hz]; omega)) y hy
        · iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro
        refine (A_layer1 c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) hc0 hc1 hc2 (iblk m c 0 t) (iblk m c 1 t) (iblk m c 2 t) (iblk m c 3 t) ((dats m 0 c).before 5 t d5) e1 f4).trans ?_
        rw [hpr]; rfl
      isplitl [H5]; · iexists _; iexact H5
      unfold owns; iexists _; isplitr
      swap; · iexact H6
      ipureintro
      exact A_copy c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) hc0 hc1 hc2 (iblk m c 0 t) (iblk m c 1 t) (iblk m c 2 t) (iblk m c 3 t) ((dats m 0 c).before 5 t d5) e1 f6
    · -- a later point of the first pass
      have hc0 : ¬condFirst (grid0.coords t) := fun h => hz ((hcondFirst t).mp h)
      rw [PhiS_pos m c t.val hz]
      iintro ⟨⟨⟨HS0, ⟨%e1, %he1, HS1⟩⟩, Hg⟩, Ho, ⟨%d0, H0⟩, ⟨%d1, H1⟩, ⟨%d2, H2⟩, ⟨%d3, H3⟩, ⟨%d4, H4⟩, ⟨%d5, H5⟩, ⟨%d6, H6⟩⟩
      iapply ((runB c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) hc0 hc1 hc2 (iblk m c 0 t) (iblk m c 1 t) (iblk m c 2 t) (iblk m c 3 t) ((dats m 0 c).before 5 t d5) (prod m c) e1).2 Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexists _; iexact H6
      isplitl [HS0]; · iexact HS0
      isplitl [HS1]; · iexact HS1
      iintro ⟨H0, H1, H2, H3, ⟨%f4, H4⟩, H5, ⟨%f6, H6⟩, HS0, HS1⟩
      isplitl [HS0 HS1 Hg]
      · isplitl [HS0 HS1]
        · isplitl [HS0]
          · iexact HS0
          · iexists _; isplitr
            swap
            · unfold owns; iexists _; isplitr
              swap; · iexact HS1
              ipureintro; rfl
            · ipureintro
              intro y hy
              refine (congrFun (B_rows c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) hc0 hc1 hc2 (iblk m c 0 t) (iblk m c 1 t) (iblk m c 2 t) (iblk m c 3 t) ((dats m 0 c).before 5 t d5) (prod m c) e1) y).trans ?_
              exact rows_step m c t h25 e1 he1 y hy
        · iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro
        exact B_layer1 c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) hc0 hc1 hc2 (iblk m c 0 t) (iblk m c 1 t) (iblk m c 2 t) (iblk m c 3 t) ((dats m 0 c).before 5 t d5) (prod m c) e1 f4
      isplitl [H5]; · iexists _; iexact H5
      unfold owns; iexists _; isplitr
      swap; · iexact H6
      ipureintro
      exact B_copy c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) hc0 hc1 hc2 (iblk m c 0 t) (iblk m c 1 t) (iblk m c 2 t) (iblk m c 3 t) ((dats m 0 c).before 5 t d5) (prod m c) e1 f6
  · -- the second pass
    have h25' : 25 ≤ t.val := by omega
    have hz : t.val ≠ 0 := by omega
    have hc0 : ¬condFirst (grid0.coords t) := fun h => hz ((hcondFirst t).mp h)
    have hc1 : ¬condPass0 (grid0.coords t) := fun h => h25 ((hcondPass0 t).mp h)
    have hc2 : condPass1 (grid0.coords t) := (hcondPass1 t).mpr h25'
    simp only [before4_late m c t h25']
    rw [show (dats m 0 c).leavesExact 5 t = owns (c : Thread nD τ) (ms5 t) fullShare (resultBlk m c t) from by
      unfold Dat.leavesExact; rw [idle5 t, decide_eq_false (by omega), after5]]
    rw [show copyBlk m c t = botHalf (iblk m c 1 t) from by unfold copyBlk; rw [if_neg h25]]
    rw [PhiS_pos m c t.val hz, PhiS_pos m c (t.val + 1) (Nat.succ_ne_zero _)]
    have h4 : (owns (c : Thread nD τ) (ms4 t) fullShare (layer1 m c t24) : sProp 𝕄) ⊢ (dats m 0 c).leavesExact 4 t := by
      by_cases h49 : t.val = 49
      · rw [show (dats m 0 c).leavesExact 4 t = owns (c : Thread nD τ) (ms4 t) fullShare (layer1 m c t24) from by
          unfold Dat.leavesExact; rw [idle4 t, decide_eq_true h25', flush4 t, decide_eq_true (Or.inr h49), after4, clamp_late t (by omega)]]
      · rw [(dats m 0 c).leavesExact_idle 4 t (by rw [idle4, decide_eq_true h25']) (by rw [flush4, decide_eq_false (by omega)])]
        simp only [before4_late m c t h25']
        iintro H; iexists (layer1 m c t24); iexact H
    iintro ⟨⟨⟨HS0, ⟨%e1, %he1, HS1⟩⟩, Hg⟩, Ho, ⟨%d0, H0⟩, ⟨%d1, H1⟩, ⟨%d2, H2⟩, ⟨%d3, H3⟩, ⟨%d4, H4⟩, ⟨%d5, H5⟩, ⟨%d6, H6⟩⟩
    obtain rfl : e1 = layer2in m c := funext fun y => he1 y (by have h : (y 0).val < 10000 := (y 0).isLt; omega)
    iapply ((runC c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) hc0 hc1 hc2 (iblk m c 0 t) (iblk m c 1 t) (iblk m c 2 t) (iblk m c 3 t) (layer1 m c t24) (prod m c) (layer2in m c)).2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    isplitl [HS1]; · iexact HS1
    iintro ⟨H0, H1, H2, H3, H4, ⟨%f5, H5⟩, ⟨%f6, H6⟩, HS0, HS1⟩
    isplitl [HS0 HS1 Hg]
    · isplitl [HS0 HS1]
      · isplitl [HS0]
        · iexact HS0
        · iexists _; isplitr
          swap; · iexact HS1
          ipureintro
          intro y _; rfl
      · iexact Hg
    isplitl [Ho]; · iexact Ho
    isplitl [H0]; · iexact H0
    isplitl [H1]; · iexact H1
    isplitl [H2]; · iexact H2
    isplitl [H3]; · iexact H3
    isplitl [H4]; · iapply h4; iexact H4
    isplitl [H5]
    · unfold owns; iexists _; isplitr
      swap; · iexact H5
      ipureintro
      exact C_result c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) hc0 hc1 hc2 (iblk m c 0 t) (iblk m c 1 t) (iblk m c 2 t) (iblk m c 3 t) (layer1 m c t24) (prod m c) (layer2in m c) f5
    unfold owns; iexists _; isplitr
    swap; · iexact H6
    ipureintro
    exact C_copy c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) hc0 hc1 hc2 (iblk m c 0 t) (iblk m c 1 t) (iblk m c 2 t) (iblk m c 3 t) (layer1 m c t24) (prod m c) (layer2in m c) f6

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

/-- What the launch hands the region is the invariant before the first point. -/
theorem hin (c : Dev nD) : Pipeline.ΦA spec0 c ⊢ (dats m 0 c).Φ 0 := by
  rw [show (dats m 0 c).Φ 0 = Pipeline.ΦA spec0 c from rfl]

/-- After the last point the invariant gives the region's own back: what the scratch arrays hold is forgotten. -/
theorem hout (c : Dev nD) : (dats m 0 c).Φ (Fin.last cfg0.N) ⊢ Pipeline.ΦA spec0 c := by
  rw [show (dats m 0 c).Φ (Fin.last cfg0.N) = PhiS m c cfg0.N from rfl,
    PhiS_pos m c cfg0.N (by rw [show cfg0.N = 50 from N_0]; decide), PhiA_eq]
  iintro ⟨⟨HS0, ⟨%d, %hd, HS1⟩⟩, Hg⟩
  isplitl [HS0 HS1]
  · isplitl [HS0]
    · iexists _; iexact HS0
    · iexists _; iexact HS1
  iexact Hg

set_option backward.isDefEq.respectTransparency.types false in
/-- Every weakly fair execution of the program terminates, each windowed array ending at what the proof data's write-backs
    leave in it and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs and its four argument arrays end unchanged, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Obl

end
-- ==== Proof.BlocksI.lean ====
/-
  Each input window's block at a grid point, read off its array at explicit coordinates.

  The windows of x, W1 and W2 are the whole arrays at every point. The window of the adjacency is a block of 400 rows, and
  at point t its block index is t mod 25 (the second grid coordinate): row p of the block is row 400·(t mod 25) + p
  of the array.
-/
import proofs.«132780_g18872086298805_cont_8to1_696_32_alg».proof.Proof.Gen.KernelIdeal.Frame
import proofs.«132780_g18872086298805_cont_8to1_696_32_alg».proof.Proof.Gen.KernelIdeal.Skeleton
import proofs.«132780_g18872086298805_cont_8to1_696_32_alg».proof.Proof.DataI
import Idealize.ShloMosaic.Lib.Pipeline.Value
import Idealize.ShloMosaic.Lib.ValueIdx
import Idealize.ShloMosaic.Lib.Pipeline.FrameBody
import Idealize.ShloMosaic.Lib.Ring
import Idealize.ShloMosaic.Lib.Tactic

set_option maxRecDepth 16384

noncomputable section

namespace Cert.KernelIdeal.Blocks

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Data Idealize.ShloMosaic.ValueIdx

variable (m : (ℓ : Loc nD τ sig) → Buf (Elt F) ℓ)

theorem idx0 : ∀ t : Fin cfg0.N, ∀ a : Fin 2, win0_0.index t a = 0 := by decide +kernel
theorem idx2 : ∀ t : Fin cfg0.N, ∀ a : Fin 2, win0_2.index t a = 0 := by decide +kernel
theorem idx3 : ∀ t : Fin cfg0.N, ∀ a : Fin 2, win0_3.index t a = 0 := by decide +kernel
theorem idx1_0 : ∀ t : Fin cfg0.N, win0_1.index t (0 : Fin 2) = t.val % 25 :=
  (by decide +kernel : ∀ t : Fin grid0.N, win0_1.index t (0 : Fin 2) = t.val % 25)
theorem idx1_1 : ∀ t : Fin cfg0.N, win0_1.index t (1 : Fin 2) = 0 := by decide +kernel

/-- The window of x is x. -/
theorem iblk0_apply (c : Dev nD) (t : Fin cfg0.N) (y : S10000x128.Idx) : iblk m c 0 t y = V m c main_arg0 y := by
  show V m c main_arg0 (((cfg0.win 0).blk t).view.emb y) = _
  refine congrArg (V m c main_arg0) (funext fun a => Fin.ext ?_)
  match a with
  | ⟨0, _⟩ => show win0_0.index t 0 * 10000 + 1 * (y 0).val = (y 0).val; rw [idx0 t 0]; omega
  | ⟨1, _⟩ => show win0_0.index t 1 * 128 + 1 * (y 1).val = (y 1).val; rw [idx0 t 1]; omega

/-- The window of W1 is W1. -/
theorem iblk2_apply (c : Dev nD) (t : Fin cfg0.N) (y : S128x32.Idx) : iblk m c 2 t y = V m c main_arg2 y := by
  show V m c main_arg2 (((cfg0.win 2).blk t).view.emb y) = _
  refine congrArg (V m c main_arg2) (funext fun a => Fin.ext ?_)
  match a with
  | ⟨0, _⟩ => show win0_2.index t 0 * 128 + 1 * (y 0).val = (y 0).val; rw [idx2 t 0]; omega
  | ⟨1, _⟩ => show win0_2.index t 1 * 32 + 1 * (y 1).val = (y 1).val; rw [idx2 t 1]; omega

/-- The window of W2 is W2. -/
theorem iblk3_apply (c : Dev nD) (t : Fin cfg0.N) (y : S32x16.Idx) : iblk m c 3 t y = V m c main_arg3 y := by
  show V m c main_arg3 (((cfg0.win 3).blk t).view.emb y) = _
  refine congrArg (V m c main_arg3) (funext fun a => Fin.ext ?_)
  match a with
  | ⟨0, _⟩ => show win0_3.index t 0 * 32 + 1 * (y 0).val = (y 0).val; rw [idx3 t 0]; omega
  | ⟨1, _⟩ => show win0_3.index t 1 * 16 + 1 * (y 1).val = (y 1).val; rw [idx3 t 1]; omega

/-- Row p of the adjacency's block at point t is row 400·(t mod 25) + p of the adjacency. -/
theorem iblk1_apply (c : Dev nD) (t : Fin cfg0.N) (p : Fin 400) (k : Fin 10000) :
    iblk m c 1 t (ix2 p k) = V m c main_arg1 (ix2 (⟨400 * (t.val % 25) + p.val, by have := p.isLt; omega⟩ : Fin 10000) k) := by
  show V m c main_arg1 (((cfg0.win 1).blk t).view.emb (ix2 p k)) = _
  refine congrArg (V m c main_arg1) (funext fun a => Fin.ext ?_)
  match a with
  | ⟨0, _⟩ => show win0_1.index t 0 * 400 + 1 * p.val = 400 * (t.val % 25) + p.val; rw [idx1_0 t]; omega
  | ⟨1, _⟩ => show win0_1.index t 1 * 10000 + 1 * k.val = k.val; rw [idx1_1 t]; omega

end Cert.KernelIdeal.Blocks

end
-- ==== Proof.FinalI.lean ====
/-
  What the three result arrays hold after the run, from what each grid point writes back.

  The first-layer array [10000, 32] is written back in blocks of 400 rows, block t after point t of the first pass (the
  25th block by the last point of all, from the buffer that has kept it): row r ends at row r mod 400 of the block of
  point r / 400. The result array [10000, 16] is written back in blocks of 400 rows by the points of the second pass,
  block t − 25 after point t. The copy [10000, 10000] is written back in blocks of 200 rows, block 2·i + s after the
  point of pass s and block i: the upper half of the adjacency's block i in the first pass, its lower half in the second —
  so it ends as the adjacency itself.
-/
import proofs.«132780_g18872086298805_cont_8to1_696_32_alg».proof.Proof.Gen.KernelIdeal.Frame
import proofs.«132780_g18872086298805_cont_8to1_696_32_alg».proof.Proof.Gen.KernelIdeal.Skeleton
import proofs.«132780_g18872086298805_cont_8to1_696_32_alg».proof.Proof.DataI
import Idealize.ShloMosaic.Lib.Pipeline.Value
import Idealize.ShloMosaic.Lib.Pipeline.FrameBody
import Idealize.ShloMosaic.Lib.Ring
import Idealize.ShloMosaic.Lib.Tactic

set_option maxRecDepth 16384

noncomputable section

namespace Cert.KernelIdeal.Final

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Body Cert.KernelIdeal.Vals Cert.KernelIdeal.Data

variable (m : (ℓ : Loc nD τ sig) → Buf (Elt F) ℓ) (ρ : Dev nD → PrngReg)

/-- The first-layer array, every row. -/
def G4 (c : Dev nD) : Buf (Elt F) ((c : Thread nD τ).loc main_v0_0) := fun y =>
  layer1 m c ⟨(y 0).val / 400, by have h : (y 0).val < 10000 := (y 0).isLt; have : cfg0.N = 50 := N_0; omega⟩
    (fun a => match a with
      | ⟨0, _⟩ => ⟨(y 0).val % 400, Nat.mod_lt _ (by decide)⟩
      | ⟨1, _⟩ => ⟨(y 1).val, (y 1).isLt⟩)

/-- The result array, every row: row r is row r mod 400 of the block of point 25 + r / 400. -/
def G5 (c : Dev nD) : Buf (Elt F) ((c : Thread nD τ).loc main_v0_1) := fun y =>
  resultBlk m c ⟨25 + (y 0).val / 400, by have h : (y 0).val < 10000 := (y 0).isLt; have : cfg0.N = 50 := N_0; omega⟩
    (fun a => match a with
      | ⟨0, _⟩ => ⟨(y 0).val % 400, Nat.mod_lt _ (by decide)⟩
      | ⟨1, _⟩ => ⟨(y 1).val, (y 1).isLt⟩)

/-! ## The first-layer array

The block index of the first-layer window at point t is t through the first pass and 24 afterwards — the point whose
block the buffer holds — and its column index is 0; so what any point writes back is that block of `G4`. -/

/-- The first-layer window's block index at each point. -/
theorem idx4 : ∀ t : Fin cfg0.N, win0_4.index t (0 : Fin 2) = min t.val 24 ∧ win0_4.index t (1 : Fin 2) = 0 :=
  (by decide +kernel : ∀ t : Fin grid0.N, win0_4.index t (0 : Fin 2) = min t.val 24 ∧ win0_4.index t (1 : Fin 2) = 0)

theorem clamp_val (t : Fin cfg0.N) : (clamp t).val = min t.val 24 := by
  unfold clamp
  split
  · omega
  · show 24 = min t.val 24; omega

/-- The first layer's block read at equal points and equal indices. -/
theorem layer1_congr (c : Dev nD) {p p' : Fin cfg0.N} (hp : p.val = p'.val) {x x' : S400x32.Idx}
    (hx : ∀ a, (x a).val = (x' a).val) : layer1 m c p x = layer1 m c p' x' := by
  obtain rfl : p = p' := Fin.ext hp
  obtain rfl : x = x' := funext fun a => Fin.ext (hx a)
  rfl

/-- What point t writes back is block t of `G4`. -/
theorem flushed4_eq (c : Dev nD) (t : Fin cfg0.N) :
    (dats m 0 c).flushed 4 t = ((cfg0.win 4).blk t).view.read (Elt F) (G4 m c) := by
  show (cfg0.win 4).cut (grid0.coords t) ((dats m 0 c).after 4 t) = _
  rw [after4]
  obtain ⟨e0, e1⟩ := idx4 t
  have hc := clamp_val t
  funext j
  show layer1 m c (clamp t) j = G4 m c (((cfg0.win 4).blk t).view.emb j)
  unfold G4
  have hj0 : (j 0).val < 400 := (j 0).isLt
  refine layer1_congr m c ?_ fun a => ?_
  · show (clamp t).val = (win0_4.index t (0 : Fin 2) * 400 + 1 * (j 0).val) / 400
    omega
  · match a with
    | ⟨0, _⟩ => show (j 0).val = (win0_4.index t (0 : Fin 2) * 400 + 1 * (j 0).val) % 400; omega
    | ⟨1, _⟩ => show (j 1).val = win0_4.index t (1 : Fin 2) * 32 + 1 * (j 1).val; omega

/-- An index of the first-layer array is in point t's block iff each coordinate is in the block's range on its axis. -/
theorem mem_blk4 (t : Fin cfg0.N) (i : S10000x32.Idx) :
    i ∈ ((cfg0.win 4).blk t).view.set ↔ ∀ a : Fin 2, win0_4.index t a * S400x32.size a ≤ (i a).val ∧ (i a).val < win0_4.index t a * S400x32.size a + S400x32.size a := by
  show i ∈ ((View.whole main_v0_0).slice (win0_4.rect t)).set ↔ _
  rw [View.set_slice_whole, Rect.mem_set_unit]
  exact Iff.rfl

/-- Row r lies in the block of point r / 400 when that point is below 24, and otherwise (rows 9600 and up) in the 25th
    block, which the last point writes back. -/
theorem cover4 (i : S10000x32.Idx) :
    ∃ t : Fin cfg0.N, (cfg0.win 4).flush t = true ∧ i ∈ ((cfg0.win 4).blk t).view.set := by
  have hN : cfg0.N = 50 := N_0
  have hi0 : (i 0).val < 10000 := (i 0).isLt
  have hi1 : (i 1).val < 32 := (i 1).isLt
  have key : ∀ t : Fin cfg0.N, (t.val < 24 ∨ t.val = 49) → min t.val 24 = (i 0).val / 400 →
      (cfg0.win 4).flush t = true ∧ i ∈ ((cfg0.win 4).blk t).view.set := by
    intro t hf ht
    obtain ⟨e0, e1⟩ := idx4 t
    refine ⟨by rw [flush4]; exact decide_eq_true hf, ?_⟩
    rw [mem_blk4]
    intro a
    match a with
    | ⟨0, _⟩ => show win0_4.index t (0 : Fin 2) * 400 ≤ (i 0).val ∧ (i 0).val < win0_4.index t (0 : Fin 2) * 400 + 400; omega
    | ⟨1, _⟩ => show win0_4.index t (1 : Fin 2) * 32 ≤ (i 1).val ∧ (i 1).val < win0_4.index t (1 : Fin 2) * 32 + 32; omega
  by_cases h : (i 0).val / 400 < 24
  · exact ⟨⟨(i 0).val / 400, by omega⟩, key _ (Or.inl h) (by show min ((i 0).val / 400) 24 = _; omega)⟩
  · exact ⟨⟨49, by omega⟩, key _ (Or.inr rfl) (by show min 49 24 = _; omega)⟩

theorem final4 (c : Dev nD) : (dats m 0 c).arrAt 4 cfg0.N = G4 m c := by
  exact (dats m 0 c).arrAt_eq_of_cover 4 (G4 m c) (fun t _ => flushed4_eq m c t) cover4

/-! ## The result array

The result window's block index at a point t of the second pass is t − 25, its column index 0. -/

/-- The result window's block index at each point. -/
theorem idx5 : ∀ t : Fin cfg0.N, win0_5.index t (0 : Fin 2) = t.val - 25 ∧ win0_5.index t (1 : Fin 2) = 0 :=
  (by decide +kernel : ∀ t : Fin grid0.N, win0_5.index t (0 : Fin 2) = t.val - 25 ∧ win0_5.index t (1 : Fin 2) = 0)

/-- The result's block read at equal points and equal indices. -/
theorem resultBlk_congr (c : Dev nD) {p p' : Fin cfg0.N} (hp : p.val = p'.val) {x x' : S400x16.Idx}
    (hx : ∀ a, (x a).val = (x' a).val) : resultBlk m c p x = resultBlk m c p' x' := by
  obtain rfl : p = p' := Fin.ext hp
  obtain rfl : x = x' := funext fun a => Fin.ext (hx a)
  rfl

/-- What a point t of the second pass writes back is block t − 25 of `G5`. -/
theorem flushed5_eq (c : Dev nD) (t : Fin cfg0.N) (hf : (cfg0.win 5).flush t = true) :
    (dats m 0 c).flushed 5 t = ((cfg0.win 5).blk t).view.read (Elt F) (G5 m c) := by
  have ht : 25 ≤ t.val := by rw [flush5] at hf; exact of_decide_eq_true hf
  show (cfg0.win 5).cut (grid0.coords t) ((dats m 0 c).after 5 t) = _
  rw [after5]
  obtain ⟨e0, e1⟩ := idx5 t
  funext j
  show resultBlk m c t j = G5 m c (((cfg0.win 5).blk t).view.emb j)
  unfold G5
  have hj0 : (j 0).val < 400 := (j 0).isLt
  refine resultBlk_congr m c ?_ fun a => ?_
  · show t.val = 25 + (win0_5.index t (0 : Fin 2) * 400 + 1 * (j 0).val) / 400
    omega
  · match a with
    | ⟨0, _⟩ => show (j 0).val = (win0_5.index t (0 : Fin 2) * 400 + 1 * (j 0).val) % 400; omega
    | ⟨1, _⟩ => show (j 1).val = win0_5.index t (1 : Fin 2) * 16 + 1 * (j 1).val; omega

/-- An index of the result array is in point t's block iff each coordinate is in the block's range on its axis. -/
theorem mem_blk5 (t : Fin cfg0.N) (i : S10000x16.Idx) :
    i ∈ ((cfg0.win 5).blk t).view.set ↔ ∀ a : Fin 2, win0_5.index t a * S400x16.size a ≤ (i a).val ∧ (i a).val < win0_5.index t a * S400x16.size a + S400x16.size a := by
  show i ∈ ((View.whole main_v0_1).slice (win0_5.rect t)).set ↔ _
  rw [View.set_slice_whole, Rect.mem_set_unit]
  exact Iff.rfl

/-- Row r lies in the block of point 25 + r / 400. -/
theorem cover5 (i : S10000x16.Idx) :
    ∃ t : Fin cfg0.N, (cfg0.win 5).flush t = true ∧ i ∈ ((cfg0.win 5).blk t).view.set := by
  have hN : cfg0.N = 50 := N_0
  have hi0 : (i 0).val < 10000 := (i 0).isLt
  have hi1 : (i 1).val < 16 := (i 1).isLt
  have key : ∀ t : Fin cfg0.N, t.val = 25 + (i 0).val / 400 →
      (cfg0.win 5).flush t = true ∧ i ∈ ((cfg0.win 5).blk t).view.set := by
    intro t ht
    obtain ⟨e0, e1⟩ := idx5 t
    refine ⟨by rw [flush5]; exact decide_eq_true (by omega), ?_⟩
    rw [mem_blk5]
    intro a
    match a with
    | ⟨0, _⟩ => show win0_5.index t (0 : Fin 2) * 400 ≤ (i 0).val ∧ (i 0).val < win0_5.index t (0 : Fin 2) * 400 + 400; omega
    | ⟨1, _⟩ => show win0_5.index t (1 : Fin 2) * 16 ≤ (i 1).val ∧ (i 1).val < win0_5.index t (1 : Fin 2) * 16 + 16; omega
  exact ⟨⟨25 + (i 0).val / 400, by omega⟩, key _ rfl⟩

theorem final5 (c : Dev nD) : (dats m 0 c).arrAt 5 cfg0.N = G5 m c := by
  exact (dats m 0 c).arrAt_eq_of_cover 5 (G5 m c) (flushed5_eq m c) cover5

/-! ## The copy of the adjacency

The copy window's block index at point t is 2·(t mod 25) + t / 25 (blocks of 200 rows) and the adjacency window's is
t mod 25 (blocks of 400 rows): the upper half of the adjacency's block in the first pass and the lower half in the second
are the rows of the adjacency that the copy's block covers. -/

/-- The copy window's and the adjacency window's block indices at each point. -/
theorem idx6 : ∀ t : Fin cfg0.N, win0_6.index t (0 : Fin 2) = 2 * (t.val % 25) + t.val / 25 ∧ win0_6.index t (1 : Fin 2) = 0
    ∧ win0_1.index t (0 : Fin 2) = t.val % 25 ∧ win0_1.index t (1 : Fin 2) = 0 :=
  (by decide +kernel : ∀ t : Fin grid0.N, win0_6.index t (0 : Fin 2) = 2 * (t.val % 25) + t.val / 25 ∧ win0_6.index t (1 : Fin 2) = 0
    ∧ win0_1.index t (0 : Fin 2) = t.val % 25 ∧ win0_1.index t (1 : Fin 2) = 0)

/-- What point t writes back is its block of the adjacency. -/
theorem flushed6_eq (c : Dev nD) (t : Fin cfg0.N) :
    (dats m 0 c).flushed 6 t = ((cfg0.win 6).blk t).view.read (Elt F) (V m c main_arg1) := by
  show (cfg0.win 6).cut (grid0.coords t) ((dats m 0 c).after 6 t) = _
  rw [after6]
  obtain ⟨e0, e1, e2, e3⟩ := idx6 t
  have hN : cfg0.N = 50 := N_0
  have ht : t.val < 50 := by have := t.isLt; omega
  funext j
  have hj0 : (j 0).val < 200 := (j 0).isLt
  by_cases h : t.val < 25
  · have hc : copyBlk m c t = topHalf (iblk m c 1 t) := by unfold copyBlk; rw [if_pos h]
    rw [hc]
    show V m c main_arg1 (((cfg0.win 1).blk t).view.emb ((Rect.unit (s := S400x10000) ![0, 0] S200x10000.size inb_S400x10000_S200x10000_0_0).idx j))
      = V m c main_arg1 (((cfg0.win 6).blk t).view.emb j)
    refine congrArg (V m c main_arg1) (funext fun a => Fin.ext ?_)
    match a with
    | ⟨0, _⟩ => show win0_1.index t (0 : Fin 2) * 400 + 1 * (0 + 1 * (j 0).val) = win0_6.index t (0 : Fin 2) * 200 + 1 * (j 0).val; omega
    | ⟨1, _⟩ => show win0_1.index t (1 : Fin 2) * 10000 + 1 * (0 + 1 * (j 1).val) = win0_6.index t (1 : Fin 2) * 10000 + 1 * (j 1).val; omega
  · have hc : copyBlk m c t = botHalf (iblk m c 1 t) := by unfold copyBlk; rw [if_neg h]
    rw [hc]
    show V m c main_arg1 (((cfg0.win 1).blk t).view.emb ((Rect.unit (s := S400x10000) ![200, 0] S200x10000.size inb_S400x10000_S200x10000_200_0).idx j))
      = V m c main_arg1 (((cfg0.win 6).blk t).view.emb j)
    refine congrArg (V m c main_arg1) (funext fun a => Fin.ext ?_)
    match a with
    | ⟨0, _⟩ => show win0_1.index t (0 : Fin 2) * 400 + 1 * (200 + 1 * (j 0).val) = win0_6.index t (0 : Fin 2) * 200 + 1 * (j 0).val; omega
    | ⟨1, _⟩ => show win0_1.index t (1 : Fin 2) * 10000 + 1 * (0 + 1 * (j 1).val) = win0_6.index t (1 : Fin 2) * 10000 + 1 * (j 1).val; omega

/-- An index of the copy is in point t's block iff each coordinate is in the block's range on its axis. -/
theorem mem_blk6 (t : Fin cfg0.N) (i : S10000x10000.Idx) :
    i ∈ ((cfg0.win 6).blk t).view.set ↔ ∀ a : Fin 2, win0_6.index t a * S200x10000.size a ≤ (i a).val ∧ (i a).val < win0_6.index t a * S200x10000.size a + S200x10000.size a := by
  show i ∈ ((View.whole main_v0_2).slice (win0_6.rect t)).set ↔ _
  rw [View.set_slice_whole, Rect.mem_set_unit]
  exact Iff.rfl

/-- Row r lies in the block of the point of pass (r / 200) mod 2 and block r / 400. -/
theorem cover6 (i : S10000x10000.Idx) :
    ∃ t : Fin cfg0.N, (cfg0.win 6).flush t = true ∧ i ∈ ((cfg0.win 6).blk t).view.set := by
  have hN : cfg0.N = 50 := N_0
  have hi0 : (i 0).val < 10000 := (i 0).isLt
  have hi1 : (i 1).val < 10000 := (i 1).isLt
  have key : ∀ t : Fin cfg0.N, t.val = 25 * (((i 0).val / 200) % 2) + (i 0).val / 400 →
      i ∈ ((cfg0.win 6).blk t).view.set := by
    intro t ht
    obtain ⟨e0, e1, -, -⟩ := idx6 t
    have hq : (i 0).val / 200 / 2 = (i 0).val / 400 := Nat.div_div_eq_div_mul _ 200 2
    have h24 : (i 0).val / 400 ≤ 24 := by omega
    have hb : ((i 0).val / 200) % 2 < 2 := Nat.mod_lt _ (by decide)
    have hd : t.val / 25 = ((i 0).val / 200) % 2 := by omega
    have hm : t.val % 25 = (i 0).val / 400 := by omega
    have hidx : win0_6.index t (0 : Fin 2) = (i 0).val / 200 := by omega
    rw [mem_blk6]
    intro a
    match a with
    | ⟨0, _⟩ => show win0_6.index t (0 : Fin 2) * 200 ≤ (i 0).val ∧ (i 0).val < win0_6.index t (0 : Fin 2) * 200 + 200; omega
    | ⟨1, _⟩ => show win0_6.index t (1 : Fin 2) * 10000 ≤ (i 1).val ∧ (i 1).val < win0_6.index t (1 : Fin 2) * 10000 + 10000; omega
  exact ⟨⟨25 * (((i 0).val / 200) % 2) + (i 0).val / 400, by omega⟩, flush0_6 _, key _ rfl⟩

/-- The copy ends as the adjacency. -/
theorem final6 (c : Dev nD) : (dats m 0 c).arrAt 6 cfg0.N = V m c main_arg1 := by
  exact (dats m 0 c).arrAt_eq_of_cover 6 (V m c main_arg1) (fun t _ => flushed6_eq m c t) cover6

end Cert.KernelIdeal.Final

end
-- ==== Proof.Spec.lean ====
/-
  The two-layer graph convolution as functions of the argument arrays, index by index, on the extended reals.

  With x : [10000,128], adj : [10000,10000], W1 : [128,32], W2 : [32,16]:
    S1     = x · W1                          (row r, column c: the sum over k of x r k · W1 k c)
    H1     = max (adj · S1) 0                 the first layer's activations, the second result
    HW2    = H1 · W2
    X2     = max (adj · HW2) 0
    Logits = (X2 − M) − log (Σ_c exp (X2 − M)) with M the row maximum of X2 — the first result.
  Every product of matrices is the plain sum over the contracted coordinate; the two float literals of the
  programs (the zero of the rectifier and of the sums, and the −∞ the row maximum starts from) are kept as the
  words the programs print, so that neither side ever evaluates them.
-/
import Idealize.ShloMosaic.PureOps.Ideal
import Idealize.ShloMosaic.Lib.ValueIdx

noncomputable section

namespace Cert.Spec

open Idealize.ShloMosaic Idealize.ShloMosaic.ValueIdx

/-- Indices of an [a, b] array. -/
abbrev I2 (a b : Nat) : Type := (⟨2, ![a, b]⟩ : Shape).Idx

/-- The programs' zero. -/
abbrev z0 : EReal := Ideal.ofBits .f32 0x00000000#32
/-- The programs' −∞, from which a row's maximum is folded. -/
abbrev ninf : EReal := Ideal.ofBits .f32 0xFF800000#32

/-- x · W1. -/
def S1 (x : I2 10000 128 → EReal) (W1 : I2 128 32 → EReal) : I2 10000 32 → EReal :=
  fun j => ∑ k : Fin 128, x (ix2 (j 0) k) * W1 (ix2 k (j 1))

/-- The first layer: the rectified product of the adjacency with x · W1. -/
def H1 (x : I2 10000 128 → EReal) (adj : I2 10000 10000 → EReal) (W1 : I2 128 32 → EReal) : I2 10000 32 → EReal :=
  fun j => max (∑ k : Fin 10000, adj (ix2 (j 0) k) * S1 x W1 (ix2 k (j 1))) z0

/-- The first layer's activations times W2. -/
def HW2 (x : I2 10000 128 → EReal) (adj : I2 10000 10000 → EReal) (W1 : I2 128 32 → EReal) (W2 : I2 32 16 → EReal) :
    I2 10000 16 → EReal :=
  fun j => ∑ k : Fin 32, H1 x adj W1 (ix2 (j 0) k) * W2 (ix2 k (j 1))

/-- The second layer before the softmax. -/
def X2 (x : I2 10000 128 → EReal) (adj : I2 10000 10000 → EReal) (W1 : I2 128 32 → EReal) (W2 : I2 32 16 → EReal) :
    I2 10000 16 → EReal :=
  fun j => max (∑ k : Fin 10000, adj (ix2 (j 0) k) * HW2 x adj W1 W2 (ix2 k (j 1))) z0

/-- The maximum of row r of a [n, 16] array, folded from −∞. -/
def rowMax {n : Nat} (X : I2 n 16 → EReal) (r : Fin n) : EReal :=
  (Finset.univ : Finset (Fin 16)).fold max ninf (fun k => X (ix2 r k))

/-- The log-softmax of one row of a [n, 16] array, at column c: the entry less the row's maximum, less the logarithm of
    the row's sum of exponentials of such differences. -/
def logSoftmax {n : Nat} (X : I2 n 16 → EReal) : I2 n 16 → EReal :=
  fun j => (X j - rowMax X (j 0)) - Ideal.log (∑ k : Fin 16, Ideal.exp (X (ix2 (j 0) k) - rowMax X (j 0)))

/-- The first result. -/
def Logits (x : I2 10000 128 → EReal) (adj : I2 10000 10000 → EReal) (W1 : I2 128 32 → EReal) (W2 : I2 32 16 → EReal) :
    I2 10000 16 → EReal :=
  logSoftmax (X2 x adj W1 W2)

end Cert.Spec

end
-- ==== Proof.Payload.lean ====
/-
  What the kernel's body computes at each grid point, read at an index on the extended reals.

  Three of the body's stored values, as functions of the blocks it loads:
    the product x · W1 (kept for the whole run);
    a block of 400 rows of the first layer, max (A · S) 0, for A the block of 400 rows of the adjacency and S the kept product;
    that block times W2 (400 rows of the second layer's input);
  Changes of float format are the identity on the extended reals, a matrix product into a zero accumulator is the plain
  sum over the contracted coordinate.
-/
import proofs.«132780_g18872086298805_cont_8to1_696_32_alg».proof.Proof.Gen.KernelIdeal.Skeleton
import proofs.«132780_g18872086298805_cont_8to1_696_32_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Idealize.ShloMosaic Idealize.ShloMosaic.ValueIdx Cert.KernelIdeal Cert.KernelIdeal.Gen Cert.Spec

/-- Row coordinate of the left operand of the [10000,128]·[128,32] product. -/
theorem lhs1_0 (i : S10000x32.Idx) (q : dot_S10000x128_S128x32_S10000x32_1_0_0_1_n_n.contr.Idx) :
    (dot_S10000x128_S128x32_S10000x32_1_0_0_1_n_n.lhsIdx i q 0).val = (i 0).val := by
  unfold DotDims.lhsIdx
  rw [dif_neg (show ¬(0 : Fin S10000x128.rank) ∈ dot_S10000x128_S128x32_S10000x32_1_0_0_1_n_n.lhsBatch by decide), dif_pos (show (0 : Fin S10000x128.rank) ∈ dot_S10000x128_S128x32_S10000x32_1_0_0_1_n_n.lhsNonContracting by decide)]
  rfl
theorem lhs1_1 (i : S10000x32.Idx) (q : dot_S10000x128_S128x32_S10000x32_1_0_0_1_n_n.contr.Idx) :
    (dot_S10000x128_S128x32_S10000x32_1_0_0_1_n_n.lhsIdx i q 1).val = (q ⟨0, by decide⟩).val :=
  dot_S10000x128_S128x32_S10000x32_1_0_0_1_n_n.lhsIdx_val_of_single rfl i q
theorem rhs1_0 (i : S10000x32.Idx) (q : dot_S10000x128_S128x32_S10000x32_1_0_0_1_n_n.contr.Idx) :
    (dot_S10000x128_S128x32_S10000x32_1_0_0_1_n_n.rhsIdx i q 0).val = (q ⟨0, by decide⟩).val :=
  dot_S10000x128_S128x32_S10000x32_1_0_0_1_n_n.rhsIdx_val_of_single rfl i q
theorem rhs1_1 (i : S10000x32.Idx) (q : dot_S10000x128_S128x32_S10000x32_1_0_0_1_n_n.contr.Idx) :
    (dot_S10000x128_S128x32_S10000x32_1_0_0_1_n_n.rhsIdx i q 1).val = (i 1).val := by
  unfold DotDims.rhsIdx
  rw [dif_neg (show ¬(1 : Fin S128x32.rank) ∈ dot_S10000x128_S128x32_S10000x32_1_0_0_1_n_n.rhsBatch by decide), dif_pos (show (1 : Fin S128x32.rank) ∈ dot_S10000x128_S128x32_S10000x32_1_0_0_1_n_n.rhsNonContracting by decide)]
  rfl

/-- The [10000,128]·[128,32] product into a zero accumulator, at (p, q): the sum over the contracted coordinate. -/
theorem mm1_apply (l : FVec Ideal S10000x128 .f32) (r : FVec Ideal S128x32 .f32) (p : Fin 10000) (q : Fin 32) :
    FloatOps.matmul dot_S10000x128_S128x32_S10000x32_1_0_0_1_n_n none l r (constant (F := Ideal) S10000x32 .f32 0x00000000#32) (ix2 p q)
      = ∑ k : Fin 128, l (ix2 p k) * r (ix2 k q) := by
  refine (Ideal.matmul_constant_zero_apply dot_S10000x128_S128x32_S10000x32_1_0_0_1_n_n none l r (ix2 p q)).trans ?_
  rw [← Equiv.sum_comp (ValueIdx.contrEquiv1 dot_S10000x128_S128x32_S10000x32_1_0_0_1_n_n 128 rfl rfl).symm]
  refine Finset.sum_congr rfl fun k _ => ?_
  have hk := ValueIdx.contrEquiv1_symm_val dot_S10000x128_S128x32_S10000x32_1_0_0_1_n_n 128 rfl rfl k
  have el : dot_S10000x128_S128x32_S10000x32_1_0_0_1_n_n.lhsIdx (ix2 p q) ((ValueIdx.contrEquiv1 dot_S10000x128_S128x32_S10000x32_1_0_0_1_n_n 128 rfl rfl).symm k) = ix2 p k := funext fun a => Fin.ext (by
    match a with
    | ⟨0, _⟩ => exact lhs1_0 _ _
    | ⟨1, _⟩ => exact (lhs1_1 _ _).trans hk)
  have er : dot_S10000x128_S128x32_S10000x32_1_0_0_1_n_n.rhsIdx (ix2 p q) ((ValueIdx.contrEquiv1 dot_S10000x128_S128x32_S10000x32_1_0_0_1_n_n 128 rfl rfl).symm k) = ix2 k q := funext fun a => Fin.ext (by
    match a with
    | ⟨0, _⟩ => exact (rhs1_0 _ _).trans hk
    | ⟨1, _⟩ => exact rhs1_1 _ _)
  rw [el, er]

/-- x · W1 at (r, c). -/
theorem pay1_apply (x : Vec Ideal S10000x128 .f32) (w1 : Vec Ideal S128x32 .f32) (r : Fin 10000) (c : Fin 32) :
    (k0_pay1 (F := Ideal) x w1 (ix2 r c) : EReal) = ∑ k : Fin 128, x (ix2 r k) * w1 (ix2 k c) := by
  unfold k0_pay1
  rw [shapeCast_self]
  exact mm1_apply x w1 r c

/-- Row coordinate of the left operand of the [400,10000]·[10000,32] product. -/
theorem lhs2_0 (i : S400x32.Idx) (q : dot_S400x10000_S10000x32_S400x32_1_0_0_1_n_n.contr.Idx) :
    (dot_S400x10000_S10000x32_S400x32_1_0_0_1_n_n.lhsIdx i q 0).val = (i 0).val := by
  unfold DotDims.lhsIdx
  rw [dif_neg (show ¬(0 : Fin S400x10000.rank) ∈ dot_S400x10000_S10000x32_S400x32_1_0_0_1_n_n.lhsBatch by decide), dif_pos (show (0 : Fin S400x10000.rank) ∈ dot_S400x10000_S10000x32_S400x32_1_0_0_1_n_n.lhsNonContracting by decide)]
  rfl
theorem lhs2_1 (i : S400x32.Idx) (q : dot_S400x10000_S10000x32_S400x32_1_0_0_1_n_n.contr.Idx) :
    (dot_S400x10000_S10000x32_S400x32_1_0_0_1_n_n.lhsIdx i q 1).val = (q ⟨0, by decide⟩).val :=
  dot_S400x10000_S10000x32_S400x32_1_0_0_1_n_n.lhsIdx_val_of_single rfl i q
theorem rhs2_0 (i : S400x32.Idx) (q : dot_S400x10000_S10000x32_S400x32_1_0_0_1_n_n.contr.Idx) :
    (dot_S400x10000_S10000x32_S400x32_1_0_0_1_n_n.rhsIdx i q 0).val = (q ⟨0, by decide⟩).val :=
  dot_S400x10000_S10000x32_S400x32_1_0_0_1_n_n.rhsIdx_val_of_single rfl i q
theorem rhs2_1 (i : S400x32.Idx) (q : dot_S400x10000_S10000x32_S400x32_1_0_0_1_n_n.contr.Idx) :
    (dot_S400x10000_S10000x32_S400x32_1_0_0_1_n_n.rhsIdx i q 1).val = (i 1).val := by
  unfold DotDims.rhsIdx
  rw [dif_neg (show ¬(1 : Fin S10000x32.rank) ∈ dot_S400x10000_S10000x32_S400x32_1_0_0_1_n_n.rhsBatch by decide), dif_pos (show (1 : Fin S10000x32.rank) ∈ dot_S400x10000_S10000x32_S400x32_1_0_0_1_n_n.rhsNonContracting by decide)]
  rfl

/-- The [400,10000]·[10000,32] product into a zero accumulator, at (p, q): the sum over the contracted coordinate. -/
theorem mm2_apply (l : FVec Ideal S400x10000 .bf16) (s1 : FVec Ideal S10000x32 .bf16) (p : Fin 400) (q : Fin 32) :
    FloatOps.matmul dot_S400x10000_S10000x32_S400x32_1_0_0_1_n_n none l s1 (constant (F := Ideal) S400x32 .f32 0x00000000#32) (ix2 p q)
      = ∑ k : Fin 10000, l (ix2 p k) * s1 (ix2 k q) := by
  refine (Ideal.matmul_constant_zero_apply dot_S400x10000_S10000x32_S400x32_1_0_0_1_n_n none l s1 (ix2 p q)).trans ?_
  rw [← Equiv.sum_comp (ValueIdx.contrEquiv1 dot_S400x10000_S10000x32_S400x32_1_0_0_1_n_n 10000 rfl rfl).symm]
  refine Finset.sum_congr rfl fun k _ => ?_
  have hk := ValueIdx.contrEquiv1_symm_val dot_S400x10000_S10000x32_S400x32_1_0_0_1_n_n 10000 rfl rfl k
  have el : dot_S400x10000_S10000x32_S400x32_1_0_0_1_n_n.lhsIdx (ix2 p q) ((ValueIdx.contrEquiv1 dot_S400x10000_S10000x32_S400x32_1_0_0_1_n_n 10000 rfl rfl).symm k) = ix2 p k := funext fun a => Fin.ext (by
    match a with
    | ⟨0, _⟩ => exact lhs2_0 _ _
    | ⟨1, _⟩ => exact (lhs2_1 _ _).trans hk)
  have er : dot_S400x10000_S10000x32_S400x32_1_0_0_1_n_n.rhsIdx (ix2 p q) ((ValueIdx.contrEquiv1 dot_S400x10000_S10000x32_S400x32_1_0_0_1_n_n 10000 rfl rfl).symm k) = ix2 k q := funext fun a => Fin.ext (by
    match a with
    | ⟨0, _⟩ => exact (rhs2_0 _ _).trans hk
    | ⟨1, _⟩ => exact rhs2_1 _ _)
  rw [el, er]

/-- The rectified product of a 400-row block with the kept [10000, 32] array, at (p, q). -/
theorem pay2_apply (a : Vec Ideal S400x10000 .f32) (s1 : Vec Ideal S10000x32 .bf16) (p : Fin 400) (q : Fin 32) :
    (k0_pay2 (F := Ideal) a s1 (ix2 p q) : EReal) = max (∑ k : Fin 10000, a (ix2 p k) * s1 (ix2 k q)) z0 := by
  unfold k0_pay2
  refine congrArg (fun t : EReal => max t z0) ?_
  exact mm2_apply (truncf .bf16 a bitsLt_bf16_f32) s1 p q

/-- Row coordinate of the left operand of the [400,32]·[32,16] product. -/
theorem lhs3_0 (i : S400x16.Idx) (q : dot_S400x32_S32x16_S400x16_1_0_0_1_n_n.contr.Idx) :
    (dot_S400x32_S32x16_S400x16_1_0_0_1_n_n.lhsIdx i q 0).val = (i 0).val := by
  unfold DotDims.lhsIdx
  rw [dif_neg (show ¬(0 : Fin S400x32.rank) ∈ dot_S400x32_S32x16_S400x16_1_0_0_1_n_n.lhsBatch by decide), dif_pos (show (0 : Fin S400x32.rank) ∈ dot_S400x32_S32x16_S400x16_1_0_0_1_n_n.lhsNonContracting by decide)]
  rfl
theorem lhs3_1 (i : S400x16.Idx) (q : dot_S400x32_S32x16_S400x16_1_0_0_1_n_n.contr.Idx) :
    (dot_S400x32_S32x16_S400x16_1_0_0_1_n_n.lhsIdx i q 1).val = (q ⟨0, by decide⟩).val :=
  dot_S400x32_S32x16_S400x16_1_0_0_1_n_n.lhsIdx_val_of_single rfl i q
theorem rhs3_0 (i : S400x16.Idx) (q : dot_S400x32_S32x16_S400x16_1_0_0_1_n_n.contr.Idx) :
    (dot_S400x32_S32x16_S400x16_1_0_0_1_n_n.rhsIdx i q 0).val = (q ⟨0, by decide⟩).val :=
  dot_S400x32_S32x16_S400x16_1_0_0_1_n_n.rhsIdx_val_of_single rfl i q
theorem rhs3_1 (i : S400x16.Idx) (q : dot_S400x32_S32x16_S400x16_1_0_0_1_n_n.contr.Idx) :
    (dot_S400x32_S32x16_S400x16_1_0_0_1_n_n.rhsIdx i q 1).val = (i 1).val := by
  unfold DotDims.rhsIdx
  rw [dif_neg (show ¬(1 : Fin S32x16.rank) ∈ dot_S400x32_S32x16_S400x16_1_0_0_1_n_n.rhsBatch by decide), dif_pos (show (1 : Fin S32x16.rank) ∈ dot_S400x32_S32x16_S400x16_1_0_0_1_n_n.rhsNonContracting by decide)]
  rfl

/-- The [400,32]·[32,16] product into a zero accumulator, at (p, q): the sum over the contracted coordinate. -/
theorem mm3_apply (l : FVec Ideal S400x32 .f32) (r : FVec Ideal S32x16 .f32) (p : Fin 400) (q : Fin 16) :
    FloatOps.matmul dot_S400x32_S32x16_S400x16_1_0_0_1_n_n none l r (constant (F := Ideal) S400x16 .f32 0x00000000#32) (ix2 p q)
      = ∑ k : Fin 32, l (ix2 p k) * r (ix2 k q) := by
  refine (Ideal.matmul_constant_zero_apply dot_S400x32_S32x16_S400x16_1_0_0_1_n_n none l r (ix2 p q)).trans ?_
  rw [← Equiv.sum_comp (ValueIdx.contrEquiv1 dot_S400x32_S32x16_S400x16_1_0_0_1_n_n 32 rfl rfl).symm]
  refine Finset.sum_congr rfl fun k _ => ?_
  have hk := ValueIdx.contrEquiv1_symm_val dot_S400x32_S32x16_S400x16_1_0_0_1_n_n 32 rfl rfl k
  have el : dot_S400x32_S32x16_S400x16_1_0_0_1_n_n.lhsIdx (ix2 p q) ((ValueIdx.contrEquiv1 dot_S400x32_S32x16_S400x16_1_0_0_1_n_n 32 rfl rfl).symm k) = ix2 p k := funext fun a => Fin.ext (by
    match a with
    | ⟨0, _⟩ => exact lhs3_0 _ _
    | ⟨1, _⟩ => exact (lhs3_1 _ _).trans hk)
  have er : dot_S400x32_S32x16_S400x16_1_0_0_1_n_n.rhsIdx (ix2 p q) ((ValueIdx.contrEquiv1 dot_S400x32_S32x16_S400x16_1_0_0_1_n_n 32 rfl rfl).symm k) = ix2 k q := funext fun a => Fin.ext (by
    match a with
    | ⟨0, _⟩ => exact (rhs3_0 _ _).trans hk
    | ⟨1, _⟩ => exact rhs3_1 _ _)
  rw [el, er]

/-- That block times W2, at (p, q). -/
theorem pay3_apply (a : Vec Ideal S400x10000 .f32) (s1 : Vec Ideal S10000x32 .bf16) (w2 : Vec Ideal S32x16 .f32) (p : Fin 400) (q : Fin 16) :
    (k0_pay3 (F := Ideal) a s1 w2 (ix2 p q) : EReal) = ∑ k : Fin 32, (k0_pay2 (F := Ideal) a s1 (ix2 p k) : EReal) * w2 (ix2 k q) := by
  unfold k0_pay3
  rw [shapeCast_self]
  exact mm3_apply (k0_pay2 (F := Ideal) a s1) w2 p q

end Cert.KernelIdeal.Payload

end
-- ==== Proof.LibColumn.lean ====
/-
  Two layout operations read at an index given by coordinates, for a column kept after a sum along the rows'
  entries (`keepdims`): a vector `[a]` cast to the column `[a, 1]`, and a column `[a, 1]` broadcast along a new
  second axis to `[a, b]`. Both are instances of the general "layout operation read at an index" lemmas with the
  coordinates' arithmetic discharged, in the same form as the row versions the index library already has.
-/
import Idealize.ShloMosaic.Lib.Pipeline.Value
import Idealize.ShloMosaic.Lib.ValueIdx

namespace Cert.GraphConv.Column

open Idealize.ShloMosaic Idealize.ShloMosaic.ValueIdx

variable {α : Type}

/-- A vector `[a]` cast to the column `[a, 1]` reads, at `(i, u)`, the operand at `i`, whatever the unit
    coordinate `u`: both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.GraphConv.Column
-- ==== Proof.LibLaneSum.lean ====
/-
  A float sum along ONE axis of a vector, read over the extended reals at an index given by coordinates: it is the
  finite sum over that axis's coordinate of the source at the index with the coordinate put back. Three forms:
  along the last axis of a matrix `[a, b]` (each row's sum), along the last axis of a rank-3 array `[a, c, b]`
  (each row's sum, slab by slab), and along the first axis of a matrix `[a, b]` (each column's sum). Each is the
  general one-axis law with the re-inserted index written by coordinates.
-/
import Idealize.ShloMosaic.PureOps.Ideal.Laws
import Idealize.ShloMosaic.Lib.ValueIdx

namespace Cert.LaneSum

open Idealize.ShloMosaic Idealize.ShloMosaic.ValueIdx

variable {φ : FTy}

/-- The sum of row `i` of a matrix: over the column coordinate. -/
theorem sum_last2 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ d : Fin b, src (ix2 i d) := by
  refine (Ideal.multiReduction_add_single src acc h hφ hacc (ix1 i)).trans ?_
  refine Finset.sum_congr rfl fun d _ => ?_
  exact congrArg src (funext fun ax => Fin.ext (by match ax with | ⟨0, _⟩ => rfl | ⟨1, _⟩ => rfl))

/-- The sum of row `(i, j)` of a rank-3 array: over the last coordinate. -/
theorem sum_last3 {a c b : ℕ} (src : FVec Ideal ⟨3, ![a, c, b]⟩ φ) (acc : BitVec φ.bits)
    (h : (⟨3, ![a, c, b]⟩ : Shape).Reduces [2] ⟨2, ![a, c]⟩) (hφ : FKind.Formats φ) (hacc : acc = FKind.add.neutral φ hφ)
    (i : Fin a) (j : Fin c) :
    multiReduction .add [2] ⟨2, ![a, c]⟩ src acc h hφ hacc (ix2 i j) = ∑ d : Fin b, src (ix3 i j d) := by
  refine (Ideal.multiReduction_add_single src acc h hφ hacc (ix2 i j)).trans ?_
  refine Finset.sum_congr rfl fun d _ => ?_
  exact congrArg src (funext fun ax => Fin.ext (by match ax with | ⟨0, _⟩ => rfl | ⟨1, _⟩ => rfl | ⟨2, _⟩ => rfl))

/-- The sum of column `j` of a matrix: over the row coordinate. -/
theorem sum_first2 {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (j : Fin b) :
    multiReduction .add [0] ⟨1, ![b]⟩ src acc h hφ hacc (ix1 j) = ∑ i : Fin a, src (ix2 i j) := by
  refine (Ideal.multiReduction_add_single src acc h hφ hacc (ix1 j)).trans ?_
  refine Finset.sum_congr rfl fun i _ => ?_
  exact congrArg src (funext fun ax => Fin.ext (by match ax with | ⟨0, _⟩ => rfl | ⟨1, _⟩ => rfl))

end Cert.LaneSum
-- ==== Proof.PayloadSm.lean ====
/-
  The block of the result the kernel's body stores at a point of its second pass, read on the extended reals.

  With A the block of 400 rows of the adjacency and T the kept second-layer input, the body forms Z = max (A · T) 0
  ([400, 16]), takes each row's maximum M (a fold of max over the sixteen columns from −∞), and stores
  (Z − M) − log (Σ_c exp (Z − M)), the sum over the sixteen columns: the row-wise log-softmax of Z. Changes of float
  format are the identity, the matrix product into a zero accumulator is the plain sum over the contracted coordinate.
-/
import proofs.«132780_g18872086298805_cont_8to1_696_32_alg».proof.Proof.Gen.KernelIdeal.Skeleton
import proofs.«132780_g18872086298805_cont_8to1_696_32_alg».proof.Proof.Spec
import Idealize.ShloMosaic.Lib.ValueIdx
import Idealize.ShloMosaic.Lib.ValueLayout
import Idealize.ShloMosaic.Lib.Pipeline.Value
import Idealize.ShloMosaic.PureOps.Ideal.Laws
import proofs.«132780_g18872086298805_cont_8to1_696_32_alg».proof.Proof.LibColumn
import proofs.«132780_g18872086298805_cont_8to1_696_32_alg».proof.Proof.LibLaneSum

noncomputable section

namespace Cert.KernelIdeal.Payload

open Idealize.ShloMosaic Idealize.ShloMosaic.ValueIdx Cert.KernelIdeal Cert.KernelIdeal.Gen Cert.Spec

/-! ## The product's contraction, by coordinates

The block's product contracts the left operand's column with the right operand's row: at result index `i` and
contracted coordinate `k` the left operand is read at `(i 0, k)` and the right at `(k, i 1)`. -/

theorem lhs_0 (i : S400x16.Idx) (q : dot_S400x10000_S10000x16_S400x16_1_0_0_1_n_n.contr.Idx) :
    (dot_S400x10000_S10000x16_S400x16_1_0_0_1_n_n.lhsIdx i q 0).val = (i 0).val := by
  unfold DotDims.lhsIdx
  rw [dif_neg (show ¬(0 : Fin S400x10000.rank) ∈ dot_S400x10000_S10000x16_S400x16_1_0_0_1_n_n.lhsBatch by decide), dif_pos (show (0 : Fin S400x10000.rank) ∈ dot_S400x10000_S10000x16_S400x16_1_0_0_1_n_n.lhsNonContracting by decide)]
  rfl
theorem lhs_1 (i : S400x16.Idx) (q : dot_S400x10000_S10000x16_S400x16_1_0_0_1_n_n.contr.Idx) :
    (dot_S400x10000_S10000x16_S400x16_1_0_0_1_n_n.lhsIdx i q 1).val = (q ⟨0, by decide⟩).val :=
  dot_S400x10000_S10000x16_S400x16_1_0_0_1_n_n.lhsIdx_val_of_single rfl i q
theorem rhs_0 (i : S400x16.Idx) (q : dot_S400x10000_S10000x16_S400x16_1_0_0_1_n_n.contr.Idx) :
    (dot_S400x10000_S10000x16_S400x16_1_0_0_1_n_n.rhsIdx i q 0).val = (q ⟨0, by decide⟩).val :=
  dot_S400x10000_S10000x16_S400x16_1_0_0_1_n_n.rhsIdx_val_of_single rfl i q
theorem rhs_1 (i : S400x16.Idx) (q : dot_S400x10000_S10000x16_S400x16_1_0_0_1_n_n.contr.Idx) :
    (dot_S400x10000_S10000x16_S400x16_1_0_0_1_n_n.rhsIdx i q 1).val = (i 1).val := by
  unfold DotDims.rhsIdx
  rw [dif_neg (show ¬(1 : Fin S10000x16.rank) ∈ dot_S400x10000_S10000x16_S400x16_1_0_0_1_n_n.rhsBatch by decide), dif_pos (show (1 : Fin S10000x16.rank) ∈ dot_S400x10000_S10000x16_S400x16_1_0_0_1_n_n.rhsNonContracting by decide)]
  rfl

/-- The rectified product of the block with the kept array, before the softmax. -/
def zStage (a : Vec Ideal S400x10000 .f32) (hw : Vec Ideal S10000x16 .bf16) : FVec Ideal S400x16 .f32 :=
  maximumf (matmul (φ₁ := .bf16) (φ₂ := .bf16) dot_S400x10000_S10000x16_S400x16_1_0_0_1_n_n none (truncf .bf16 a bitsLt_bf16_f32 : FVec Ideal S400x10000 .bf16) hw
      (constant (F := Ideal) S400x16 .f32 0x00000000#32))
    (broadcast S400x16 (Scalar.ofBits (F := Ideal) .f32 0x00000000#32))

/-- At `(p, q)` it is the sum over the contracted coordinate, rectified against the zero word. -/
theorem zStage_apply (a : Vec Ideal S400x10000 .f32) (hw : Vec Ideal S10000x16 .bf16) (p : Fin 400) (q : Fin 16) :
    zStage a hw (ix2 p q) = max (∑ k : Fin 10000, a (ix2 p k) * hw (ix2 k q)) z0 := by
  unfold zStage
  rw [maximumf_apply, broadcast_apply]
  refine congrArg₂ max ?_ rfl
  show FloatOps.matmul (φ₁ := .bf16) (φ₂ := .bf16) dot_S400x10000_S10000x16_S400x16_1_0_0_1_n_n none _ hw (constant (F := Ideal) S400x16 .f32 0x00000000#32) (ix2 p q) = _
  rw [Ideal.matmul_constant_zero_apply, ← Equiv.sum_comp (contrEquiv1 dot_S400x10000_S10000x16_S400x16_1_0_0_1_n_n 10000 rfl rfl).symm]
  refine Finset.sum_congr rfl fun k _ => ?_
  have hk := contrEquiv1_symm_val dot_S400x10000_S10000x16_S400x16_1_0_0_1_n_n 10000 rfl rfl k
  have el : dot_S400x10000_S10000x16_S400x16_1_0_0_1_n_n.lhsIdx (ix2 p q) ((contrEquiv1 dot_S400x10000_S10000x16_S400x16_1_0_0_1_n_n 10000 rfl rfl).symm k) = ix2 p k := funext fun ax => Fin.ext (by
    match ax with
    | ⟨0, _⟩ => exact lhs_0 _ _
    | ⟨1, _⟩ => exact (lhs_1 _ _).trans hk)
  have er : dot_S400x10000_S10000x16_S400x16_1_0_0_1_n_n.rhsIdx (ix2 p q) ((contrEquiv1 dot_S400x10000_S10000x16_S400x16_1_0_0_1_n_n 10000 rfl rfl).symm k) = ix2 k q := funext fun ax => Fin.ext (by
    match ax with
    | ⟨0, _⟩ => exact (rhs_0 _ _).trans hk
    | ⟨1, _⟩ => exact rhs_1 _ _)
  rw [el, er, truncf_apply]

/-! ## The row maximum -/

/-- The maximum along the columns from the −∞ word is, at row `p`, the fold of `max` from that word over the row's
    sixteen entries. -/
theorem rowmax_apply (Zv : FVec Ideal S400x16 .f32) (h : S400x16.Reduces [1] S400) (hφ : FKind.Formats .f32)
    (hacc : (0xFF800000#32 : BitVec 32) = FKind.maximumf.neutral .f32 hφ) (p : Fin 400) :
    multiReduction .maximumf [1] S400 Zv 0xFF800000#32 h hφ hacc (ix1 p) = rowMax (n := 400) Zv p := by
  refine (Ideal.multiReduction_maximumf_single Zv _ h hφ hacc (ix1 p)).trans ?_
  rw [Ideal.ofBits_def]
  exact congrArg (fun f : Fin 16 → EReal => Finset.fold max ninf f Finset.univ)
    (funext fun k => congrArg Zv (funext fun ax => Fin.ext (by match ax with | ⟨0, _⟩ => rfl | ⟨1, _⟩ => rfl)))

/-! ## The stages after the product

Each as a function of the rectified product `Zv`, in the order the body computes them. -/

/-- Each row's maximum, folded from the −∞ word. -/
def rowMaxVec (Zv : FVec Ideal S400x16 .f32) : FVec Ideal S400 .f32 :=
  multiReduction .maximumf [1] S400 Zv 0xFF800000#32 reduces_S400x16_S400 (.inl rfl) rfl
/-- … kept as a column and copied along each row. -/
def rowMaxCol (Zv : FVec Ideal S400x16 .f32) : FVec Ideal S400x16 .f32 :=
  broadcastTo S400x16 (shapeCast S400x1 (rowMaxVec Zv) shapeCasts_S400_S400x1) broadcasts_S400x1_S400x16
/-- Each entry less its row's maximum. -/
def shifted (Zv : FVec Ideal S400x16 .f32) : FVec Ideal S400x16 .f32 := subf Zv (rowMaxCol Zv)
/-- Each row's sum of the exponentials of those differences, from the zero word. -/
def expSum (Zv : FVec Ideal S400x16 .f32) : FVec Ideal S400 .f32 :=
  multiReduction .add [1] S400 (Idealize.ShloMosaic.exp (shifted Zv)) 0x00000000#32 reduces_S400x16_S400 (.inl rfl) rfl
/-- … its logarithm, kept as a column and copied along each row. -/
def logSumCol (Zv : FVec Ideal S400x16 .f32) : FVec Ideal S400x16 .f32 :=
  broadcastTo S400x16 (Idealize.ShloMosaic.log (shapeCast S400x1 (expSum Zv) shapeCasts_S400_S400x1)) broadcasts_S400x1_S400x16
/-- The stored value: the difference of the last two. -/
def softmaxStages (Zv : FVec Ideal S400x16 .f32) : FVec Ideal S400x16 .f32 := subf (shifted Zv) (logSumCol Zv)

/-- The body's stored value is those stages of the rectified product. -/
theorem pay4_split (a : Vec Ideal S400x10000 .f32) (hw : Vec Ideal S10000x16 .bf16) :
    k0_pay4 (F := Ideal) a hw = softmaxStages (zStage a hw) := rfl

theorem rowMaxCol_apply (Zv : FVec Ideal S400x16 .f32) (r : Fin 400) (s : Fin 16) :
    rowMaxCol Zv (ix2 r s) = rowMax (n := 400) Zv r :=
  (Cert.GraphConv.Column.broadcastTo_a1_ab_apply _ broadcasts_S400x1_S400x16 r s).trans
    ((Cert.GraphConv.Column.shapeCast_a_a1_apply (rowMaxVec Zv) shapeCasts_S400_S400x1 r 0).trans
      (rowmax_apply Zv reduces_S400x16_S400 (.inl rfl) rfl r))

theorem shifted_apply (Zv : FVec Ideal S400x16 .f32) (r : Fin 400) (s : Fin 16) :
    shifted Zv (ix2 r s) = Zv (ix2 r s) - rowMax (n := 400) Zv r :=
  (subf_apply Zv (rowMaxCol Zv) (ix2 r s)).trans (congrArg (Zv (ix2 r s) - ·) (rowMaxCol_apply Zv r s))

theorem expSum_apply (Zv : FVec Ideal S400x16 .f32) (r : Fin 400) :
    expSum Zv (ix1 r) = ∑ k : Fin 16, Ideal.exp (Zv (ix2 r k) - rowMax (n := 400) Zv r) :=
  (Cert.LaneSum.sum_last2 (Idealize.ShloMosaic.exp (shifted Zv)) 0x00000000#32 reduces_S400x16_S400 (.inl rfl) rfl r).trans
    (Finset.sum_congr rfl fun k _ => congrArg Ideal.exp (shifted_apply Zv r k))

theorem logSumCol_apply (Zv : FVec Ideal S400x16 .f32) (r : Fin 400) (s : Fin 16) :
    logSumCol Zv (ix2 r s) = Ideal.log (∑ k : Fin 16, Ideal.exp (Zv (ix2 r k) - rowMax (n := 400) Zv r)) :=
  (Cert.GraphConv.Column.broadcastTo_a1_ab_apply _ broadcasts_S400x1_S400x16 r s).trans
    (congrArg Ideal.log ((Cert.GraphConv.Column.shapeCast_a_a1_apply (expSum Zv) shapeCasts_S400_S400x1 r 0).trans (expSum_apply Zv r)))

/-- The stages are the row-wise log-softmax. -/
theorem softmaxStages_apply (Zv : FVec Ideal S400x16 .f32) (p : Fin 400) (q : Fin 16) :
    softmaxStages Zv (ix2 p q) = logSoftmax (n := 400) Zv (ix2 p q) := by
  refine (subf_apply (shifted Zv) (logSumCol Zv) (ix2 p q)).trans ?_
  rw [shifted_apply, logSumCol_apply]
  rfl

/-- The result block: the row-wise log-softmax of the rectified product of a 400-row block with the kept [10000, 16] array. -/
theorem pay4_eq (a : Vec Ideal S400x10000 .f32) (hw : Vec Ideal S10000x16 .bf16) :
    (k0_pay4 (F := Ideal) a hw : I2 400 16 → EReal)
      = logSoftmax (n := 400) (fun j => max (∑ k : Fin 10000, a (ix2 (j 0) k) * hw (ix2 k (j 1))) z0) := by
  funext j
  obtain ⟨p, q, rfl⟩ : ∃ (p : Fin 400) (q : Fin 16), j = ix2 p q := ⟨j 0, j 1, eq_ix2 j⟩
  rw [pay4_split]
  refine (softmaxStages_apply _ p q).trans ?_
  refine congrArg (fun Z : I2 400 16 → EReal => logSoftmax (n := 400) Z (ix2 p q)) (funext fun i => ?_)
  obtain ⟨r, s, rfl⟩ : ∃ (r : Fin 400) (s : Fin 16), i = ix2 r s := ⟨i 0, i 1, eq_ix2 i⟩
  exact zStage_apply a hw r s

end Cert.KernelIdeal.Payload

end
-- ==== Proof.BridgeI.lean ====
/-
  At the extended reals, what the kernel leaves in its result arrays is the specification.

  The kept product is x · W1. The first layer's block of point t, at (p, q), is the first layer at row
  400·(t mod 25) + p: its sum runs over the same adjacency row and the same kept product. Row r of the second layer's
  input comes from the block of point r / 400 at row r mod 400, and 400·(r / 400) + r mod 400 = r. A row of the
  log-softmax depends on that row only, so the result's block of point t is the result at rows 400·(t mod 25) + p.
  Read through the write-backs, the three arrays end as the first layer, the result, and the adjacency.
-/
import proofs.«132780_g18872086298805_cont_8to1_696_32_alg».proof.Proof.OblI
import proofs.«132780_g18872086298805_cont_8to1_696_32_alg».proof.Proof.BlocksI
import proofs.«132780_g18872086298805_cont_8to1_696_32_alg».proof.Proof.FinalI
import proofs.«132780_g18872086298805_cont_8to1_696_32_alg».proof.Proof.Payload
import proofs.«132780_g18872086298805_cont_8to1_696_32_alg».proof.Proof.PayloadSm
import proofs.«132780_g18872086298805_cont_8to1_696_32_alg».proof.Proof.Spec
import Idealize.ShloMosaic.Lib.ValueIdx
import Idealize.ShloMosaic.PureOps.Ideal.Laws

set_option maxRecDepth 16384

noncomputable section

namespace Cert.KernelIdeal.Bridge

open Cert.KernelIdeal Cert.KernelIdeal.Gen Cert.KernelIdeal.Data Cert.KernelIdeal.Blocks Cert.KernelIdeal.Final
open Cert.KernelIdeal.Payload Cert.Spec
open Idealize.ShloMosaic Idealize.ShloMosaic.TcCoe Idealize.ShloMosaic.ValueIdx Idealize.SL.Sem

variable (m : (ℓ : Loc nD τ sig) → Buf (Elt Ideal) ℓ) (ρ : Dev nD → PrngReg)

/-- The argument arrays of core c, as arrays of extended reals. -/
abbrev aX (c : Dev nD) : I2 10000 128 → EReal := V m c main_arg0
abbrev aA (c : Dev nD) : I2 10000 10000 → EReal := V m c main_arg1
abbrev aW1 (c : Dev nD) : I2 128 32 → EReal := V m c main_arg2
abbrev aW2 (c : Dev nD) : I2 32 16 → EReal := V m c main_arg3

/-- A row of the log-softmax depends on that row alone. -/
theorem logSoftmax_row {n n' : Nat} (X' : I2 n 16 → EReal) (Y : I2 n' 16 → EReal) (p : Fin n) (r : Fin n')
    (h : ∀ k : Fin 16, X' (ix2 p k) = Y (ix2 r k)) (q : Fin 16) :
    logSoftmax X' (ix2 p q) = logSoftmax Y (ix2 r q) := by
  have hm : rowMax X' p = rowMax Y r := by
    unfold rowMax; exact congrArg (fun f => (Finset.univ : Finset (Fin 16)).fold max ninf f) (funext h)
  show (X' (ix2 p q) - rowMax X' p) - Ideal.log (∑ k : Fin 16, Ideal.exp (X' (ix2 p k) - rowMax X' p))
     = (Y (ix2 r q) - rowMax Y r) - Ideal.log (∑ k : Fin 16, Ideal.exp (Y (ix2 r k) - rowMax Y r))
  rw [hm, h q]
  exact congrArg (fun s => (Y (ix2 r q) - rowMax Y r) - Ideal.log s) (Finset.sum_congr rfl fun k _ => by rw [h k])

/-- The kept product is x · W1. -/
theorem prod_eq (c : Dev nD) : (prod m c : I2 10000 32 → EReal) = S1 (aX m c) (aW1 m c) := by
  funext j
  obtain ⟨r, q, rfl⟩ : ∃ (r : Fin 10000) (q : Fin 32), j = ix2 r q := ⟨j 0, j 1, eq_ix2 j⟩
  unfold prod
  refine (pay1_apply (iblk m c 0 t0) (iblk m c 2 t0) r q).trans ?_
  unfold S1
  refine Finset.sum_congr rfl fun k _ => ?_
  rw [iblk0_apply, iblk2_apply]

/-- The first layer's block of point t at (p, q) is the first layer at row 400·(t mod 25) + p. -/
theorem layer1_apply (c : Dev nD) (t : Fin cfg0.N) (p : Fin 400) (q : Fin 32) :
    (layer1 m c t (ix2 p q) : EReal)
      = H1 (aX m c) (aA m c) (aW1 m c) (ix2 (⟨400 * (t.val % 25) + p.val, by have := p.isLt; omega⟩ : Fin 10000) q) := by
  unfold layer1
  refine (pay2_apply (iblk m c 1 t) (prod m c) p q).trans ?_
  unfold H1
  refine congrArg (fun s => max s z0) (Finset.sum_congr rfl fun k _ => ?_)
  rw [iblk1_apply, prod_eq]

/-- The second layer's input is the first layer times W2. -/
theorem layer2in_eq (c : Dev nD) : (layer2in m c : I2 10000 16 → EReal) = HW2 (aX m c) (aA m c) (aW1 m c) (aW2 m c) := by
  funext y
  have hy0 : (y 0).val < 10000 := (y 0).isLt
  have hin : rowIn y = ix2 (⟨(y 0).val % 400, Nat.mod_lt _ (by decide)⟩ : Fin 400) (⟨(y 1).val, (y 1).isLt⟩ : Fin 16) :=
    funext fun a => by match a with | ⟨0, _⟩ => rfl | ⟨1, _⟩ => rfl
  unfold layer2in rowsBlk
  rw [hin]
  refine (pay3_apply (iblk m c 1 (rowPt y)) (prod m c) (iblk m c 3 (rowPt y)) _ _).trans ?_
  unfold HW2
  refine Finset.sum_congr rfl fun k _ => ?_
  rw [show (k0_pay2 (F := Ideal) (iblk m c 1 (rowPt y)) (prod m c) : I2 400 32 → EReal) = layer1 m c (rowPt y) from rfl,
    layer1_apply, iblk3_apply]
  have hr : (⟨400 * ((rowPt y).val % 25) + (y 0).val % 400, by omega⟩ : Fin 10000) = y 0 :=
    Fin.ext (by show 400 * ((y 0).val / 400 % 25) + (y 0).val % 400 = (y 0).val; omega)
  rw [hr]
  rfl

/-- The result's block of point t at (p, q) is the result at row 400·(t mod 25) + p. -/
theorem resultBlk_apply (c : Dev nD) (t : Fin cfg0.N) (p : Fin 400) (q : Fin 16) :
    (resultBlk m c t (ix2 p q) : EReal)
      = Logits (aX m c) (aA m c) (aW1 m c) (aW2 m c) (ix2 (⟨400 * (t.val % 25) + p.val, by have := p.isLt; omega⟩ : Fin 10000) q) := by
  unfold resultBlk
  refine (congrFun (pay4_eq (iblk m c 1 t) (layer2in m c)) (ix2 p q)).trans ?_
  unfold Logits
  refine logSoftmax_row _ _ p _ (fun k' => ?_) q
  unfold X2
  refine congrArg (fun s => max s z0) (Finset.sum_congr rfl fun k _ => ?_)
  rw [iblk1_apply, layer2in_eq]

/-- The same at any index of the block. -/
theorem layer1_at (c : Dev nD) (t : Fin cfg0.N) (z : S400x32.Idx) :
    (layer1 m c t z : EReal)
      = H1 (aX m c) (aA m c) (aW1 m c) (ix2 (⟨400 * (t.val % 25) + (z 0).val, by have h : (z 0).val < 400 := (z 0).isLt; omega⟩ : Fin 10000)
          (⟨(z 1).val, (z 1).isLt⟩ : Fin 32)) := by
  obtain ⟨p, q, rfl⟩ : ∃ (p : Fin 400) (q : Fin 32), z = ix2 p q := ⟨z 0, z 1, eq_ix2 z⟩
  exact layer1_apply m c t p q

theorem resultBlk_at (c : Dev nD) (t : Fin cfg0.N) (z : S400x16.Idx) :
    (resultBlk m c t z : EReal)
      = Logits (aX m c) (aA m c) (aW1 m c) (aW2 m c) (ix2 (⟨400 * (t.val % 25) + (z 0).val, by have h : (z 0).val < 400 := (z 0).isLt; omega⟩ : Fin 10000)
          (⟨(z 1).val, (z 1).isLt⟩ : Fin 16)) := by
  obtain ⟨p, q, rfl⟩ : ∃ (p : Fin 400) (q : Fin 16), z = ix2 p q := ⟨z 0, z 1, eq_ix2 z⟩
  exact resultBlk_apply m c t p q

/-- The first-layer array ends as the first layer. -/
theorem G4_eq (c : Dev nD) : (G4 m c : I2 10000 32 → EReal) = H1 (aX m c) (aA m c) (aW1 m c) := by
  funext y
  have hy0 : (y 0).val < 10000 := (y 0).isLt
  unfold G4
  refine (layer1_at m c _ _).trans ?_
  exact congrArg (H1 (aX m c) (aA m c) (aW1 m c)) (funext fun a => by
    match a with
    | ⟨0, _⟩ => exact Fin.ext (by show 400 * ((y 0).val / 400 % 25) + (y 0).val % 400 = (y 0).val; omega)
    | ⟨1, _⟩ => rfl)

/-- The result array ends as the result. -/
theorem G5_eq (c : Dev nD) : (G5 m c : I2 10000 16 → EReal) = Logits (aX m c) (aA m c) (aW1 m c) (aW2 m c) := by
  funext y
  have hy0 : (y 0).val < 10000 := (y 0).isLt
  unfold G5
  refine (resultBlk_at m c _ _).trans ?_
  exact congrArg (Logits (aX m c) (aA m c) (aW1 m c) (aW2 m c)) (funext fun a => by
    match a with
    | ⟨0, _⟩ => exact Fin.ext (by show 400 * ((25 + (y 0).val / 400) % 25) + (y 0).val % 400 = (y 0).val; omega)
    | ⟨1, _⟩ => rfl)

/-- The kernel's run, read: the three result arrays at the specification's terms of the argument arrays, the arguments unchanged. -/
theorem run : θ_run defs (onTc (τ := τ) (main (F := Ideal))) ⟨m, fun _ => 0, ρ⟩ (fun r => ∀ c : Dev nD,
      r.2.mem ((c.tc : Thread nD τ).loc main_v0_1) = Logits (aX m c) (aA m c) (aW1 m c) (aW2 m c)
      ∧ r.2.mem ((c.tc : Thread nD τ).loc main_v0_0) = H1 (aX m c) (aA m c) (aW1 m c)
      ∧ r.2.mem ((c.tc : Thread nD τ).loc main_v0_2) = aA m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
      ⟨((h c).1 5).trans ((final5 m c).trans (G5_eq m c)),
       ((h c).1 4).trans ((final4 m c).trans (G4_eq m c)),
       ((h c).1 6).trans (final6 m c),
       ((h c).1 0).trans (((dats m 0 c).arrAt_in 0 rfl _).trans ((A_eq m c 0).trans (V_main_arg0 m c))),
       ((h c).1 1).trans (((dats m 0 c).arrAt_in 1 rfl _).trans ((A_eq m c 1).trans (V_main_arg1 m c))),
       ((h c).1 2).trans (((dats m 0 c).arrAt_in 2 rfl _).trans ((A_eq m c 2).trans (V_main_arg2 m c))),
       ((h c).1 3).trans (((dats m 0 c).arrAt_in 3 rfl _).trans ((A_eq m c 3).trans (V_main_arg3 m c)))⟩)
    (Cert.KernelIdeal.Obl.run_main m ρ)

end Cert.KernelIdeal.Bridge

end
-- ==== Proof.RefValue.lean ====
/-
  The reference program's results, read index by index, are the specification's functions of the argument arrays.
-/
import proofs.«132780_g18872086298805_cont_8to1_696_32_alg».proof.Proof.RefReadP
import proofs.«132780_g18872086298805_cont_8to1_696_32_alg».proof.Proof.Spec
import Idealize.ShloMosaic.Lib.ValueIdx
import Idealize.ShloMosaic.PureOps.Ideal.Laws

noncomputable section

namespace Cert.RefValue

open Idealize.ShloMosaic Idealize.ShloMosaic.ValueIdx
open Cert.ReferenceIdeal Cert.ReferenceIdeal.Gen Cert.ReferenceIdeal.ReadP Cert.Spec

/-! ## The contraction indices of the four matrix products, by coordinates

Each product contracts the left operand's column with the right operand's row: at result index `i` and contracted
coordinate `k` the left operand is read at `(i 0, k)` and the right at `(k, i 1)`. -/

theorem lidx_v0 (i : I2 10000 32) (k : Fin 128) : lidx_main_v0 i k = ix2 (i 0) k :=
  funext fun a => Fin.ext (by match a with | ⟨0, _⟩ => rfl | ⟨1, _⟩ => rfl)
theorem ridx_v0 (i : I2 10000 32) (k : Fin 128) : ridx_main_v0 i k = ix2 k (i 1) :=
  funext fun a => Fin.ext (by match a with | ⟨0, _⟩ => rfl | ⟨1, _⟩ => rfl)
theorem lidx_v1 (i : I2 10000 32) (k : Fin 10000) : lidx_main_v1 i k = ix2 (i 0) k :=
  funext fun a => Fin.ext (by match a with | ⟨0, _⟩ => rfl | ⟨1, _⟩ => rfl)
theorem ridx_v1 (i : I2 10000 32) (k : Fin 10000) : ridx_main_v1 i k = ix2 k (i 1) :=
  funext fun a => Fin.ext (by match a with | ⟨0, _⟩ => rfl | ⟨1, _⟩ => rfl)
theorem lidx_v4 (i : I2 10000 16) (k : Fin 32) : lidx_main_v4 i k = ix2 (i 0) k :=
  funext fun a => Fin.ext (by match a with | ⟨0, _⟩ => rfl | ⟨1, _⟩ => rfl)
theorem ridx_v4 (i : I2 10000 16) (k : Fin 32) : ridx_main_v4 i k = ix2 k (i 1) :=
  funext fun a => Fin.ext (by match a with | ⟨0, _⟩ => rfl | ⟨1, _⟩ => rfl)
theorem lidx_v5 (i : I2 10000 16) (k : Fin 10000) : lidx_main_v5 i k = ix2 (i 0) k :=
  funext fun a => Fin.ext (by match a with | ⟨0, _⟩ => rfl | ⟨1, _⟩ => rfl)
theorem ridx_v5 (i : I2 10000 16) (k : Fin 10000) : ridx_main_v5 i k = ix2 k (i 1) :=
  funext fun a => Fin.ext (by match a with | ⟨0, _⟩ => rfl | ⟨1, _⟩ => rfl)

/-! ## The first layer -/

/-- The first product is x · W1. -/
theorem ref_s1 (x0 : I2 10000 128 → EReal) (x2 : I2 128 32 → EReal) :
    val_main_v0 (F := Ideal) x0 x2 = S1 x0 x2 := by
  funext i
  rw [val_main_v0_apply]
  simp only [lidx_v0, ridx_v0]
  rfl

/-- The second result: the adjacency times x · W1, rectified against the zero word. -/
theorem ref_h1 (x0 : I2 10000 128 → EReal) (x1 : I2 10000 10000 → EReal) (x2 : I2 128 32 → EReal) :
    val_main_v3 (F := Ideal) x0 x1 x2 = H1 x0 x1 x2 := by
  funext i
  rw [val_main_v3_apply, val_main_v1_apply, val_main_v2_apply, val_main_cst_apply, ref_s1]
  simp only [lidx_v1, ridx_v1, Ideal.maximumf_def, Ideal.ofBits_def]
  rfl

/-! ## The second layer before the softmax -/

/-- The first layer's activations times W2. -/
theorem ref_hw2 (x0 : I2 10000 128 → EReal) (x1 : I2 10000 10000 → EReal) (x2 : I2 128 32 → EReal)
    (x3 : I2 32 16 → EReal) :
    val_main_v4 (F := Ideal) x0 x1 x2 x3 = HW2 x0 x1 x2 x3 := by
  funext i
  rw [val_main_v4_apply, ref_h1]
  simp only [lidx_v4, ridx_v4]
  rfl

/-- The adjacency times that product, rectified against the zero word. -/
theorem ref_x2 (x0 : I2 10000 128 → EReal) (x1 : I2 10000 10000 → EReal) (x2 : I2 128 32 → EReal)
    (x3 : I2 32 16 → EReal) :
    val_main_v7 (F := Ideal) x0 x1 x2 x3 = X2 x0 x1 x2 x3 := by
  funext i
  rw [val_main_v7_apply, val_main_v5_apply, val_main_v6_apply, val_main_cst_0_apply, ref_hw2]
  simp only [lidx_v5, ridx_v5, Ideal.maximumf_def, Ideal.ofBits_def]
  rfl

/-! ## The row maximum

The reduction over axis 1 from the −∞ word is, at row `r`, the fold of `max` from that word over the row's sixteen
entries; taking the maximum of the same word with that fold changes nothing, since the fold is at least its initial value. -/

/-- The reduction's result at row `r`. -/
theorem ref_rowmax0 (x0 : I2 10000 128 → EReal) (x1 : I2 10000 10000 → EReal) (x2 : I2 128 32 → EReal)
    (x3 : I2 32 16 → EReal) (r : S10000.Idx) :
    val_main_call0_v0 (F := Ideal) x0 x1 x2 x3 r = rowMax (X2 x0 x1 x2 x3) (r 0) := by
  unfold val_main_call0_v0
  rw [Host.reduce_eq_fold_single (a := 1) FloatOps.maximumf _ _ reducesTo_S10000x16_S10000_d1 (by decide) h_S_ r, ref_x2]
  rw [val_main_call0_cst_apply, Ideal.ofBits_def]
  exact congrArg (fun f : Fin 16 → EReal => Finset.fold max ninf f Finset.univ)
    (funext fun k => congrArg (X2 x0 x1 x2 x3) (funext fun a => Fin.ext (by match a with | ⟨0, _⟩ => rfl | ⟨1, _⟩ => rfl)))

/-- The maximum of the −∞ word with the reduction is the reduction: a fold of `max` is at least its initial value. -/
theorem ref_rowmax (x0 : I2 10000 128 → EReal) (x1 : I2 10000 10000 → EReal) (x2 : I2 128 32 → EReal)
    (x3 : I2 32 16 → EReal) (r : S10000.Idx) :
    val_main_call0_v2 (F := Ideal) x0 x1 x2 x3 r = rowMax (X2 x0 x1 x2 x3) (r 0) := by
  rw [val_main_call0_v2_apply, val_main_call0_v1_apply, val_main_call0_cst_0_apply, ref_rowmax0]
  simp only [Ideal.maximumf_def, Ideal.ofBits_def]
  unfold rowMax
  exact max_eq_right ((Finset.le_fold_max _).2 (Or.inl le_rfl))

/-! ## The log-softmax -/

/-- The entry less its row's maximum (the maximum reaches the entry through two broadcasts, [10000] to [10000,1] to
    [10000,16], which read it at the entry's row). -/
theorem ref_sub (x0 : I2 10000 128 → EReal) (x1 : I2 10000 10000 → EReal) (x2 : I2 128 32 → EReal)
    (x3 : I2 32 16 → EReal) (i : I2 10000 16) :
    val_main_call0_v5 (F := Ideal) x0 x1 x2 x3 i = X2 x0 x1 x2 x3 i - rowMax (X2 x0 x1 x2 x3) (i 0) := by
  rw [val_main_call0_v5_apply, val_main_call0_v4_apply, val_main_call0_v3_apply, ref_rowmax, ref_x2]
  simp only [Ideal.subf_def]
  rfl

/-- The summed axis's index at row `r` and coordinate `k` is `(r, k)`. -/
theorem idx_v7 (r : S10000.Idx) (k : Fin 16) : idx_main_call0_v7 r k = ix2 (r 0) k :=
  funext fun a => Fin.ext (by match a with | ⟨0, _⟩ => rfl | ⟨1, _⟩ => rfl)

/-- The row's sum of exponentials: the host sum starts from the zero word, which is the extended real 0. -/
theorem ref_sum (x0 : I2 10000 128 → EReal) (x1 : I2 10000 10000 → EReal) (x2 : I2 128 32 → EReal)
    (x3 : I2 32 16 → EReal) (r : S10000.Idx) :
    val_main_call0_v7 (F := Ideal) x0 x1 x2 x3 r
      = ∑ k : Fin 16, Ideal.exp (X2 x0 x1 x2 x3 (ix2 (r 0) k) - rowMax (X2 x0 x1 x2 x3) (r 0)) := by
  rw [val_main_call0_v7_apply, val_main_call0_cst_1_apply, Ideal.ofBits_def, Ideal.ofBits_zero_f32, zero_add]
  refine Finset.sum_congr rfl fun k _ => ?_
  rw [val_main_call0_v6_apply, ref_sub, Ideal.hostUnary_exp_def, idx_v7]
  rfl

/-- The first result is the log-softmax of the second layer. -/
theorem ref_logits (x0 : I2 10000 128 → EReal) (x1 : I2 10000 10000 → EReal) (x2 : I2 128 32 → EReal)
    (x3 : I2 32 16 → EReal) :
    val_main_v8 (F := Ideal) x0 x1 x2 x3 = Logits x0 x1 x2 x3 := by
  funext i
  rw [val_main_v8_apply, val_main_call0_v10_apply, val_main_call0_v9_apply, val_main_call0_v8_apply, ref_sum, ref_sub]
  simp only [Ideal.subf_def, Ideal.hostUnary_log_def]
  rfl

end Cert.RefValue

end
-- ==== Proof.lean ====
/-
  The proof of the certificate's claim: a pipelined two-layer graph convolution against its plain reference.

  Both programs compute, from x [10000,128], the adjacency A [10000,10000], W1 [128,32] and W2 [32,16]:
    H1 = max (A · (x · W1)) 0,   X2 = max (A · (H1 · W2)) 0,   the row-wise log-softmax of X2,
  and return the log-softmax, H1 and A. The kernel walks the 25 blocks of 400 rows of A twice: the first pass forms H1
  block by block and keeps H1 · W2 in a scratch array, the second forms the result block by block from it; each pass
  also copies half of every block of A out. On the extended reals a change of float format is the identity and a
  matrix product is the plain sum over the contracted coordinate, with the same grouping on both sides, so the two
  programs' results are the same functions of the arguments (Proof/Spec.lean), index by index; no law that needs
  finite entries is used.

  The frames of the two kernel programs are one argument at any float instance (Proof/Body*, Vals*, Data*, Obl*: the
  body's three cases, what each leaves, the proof data over the 50 points, the obligation and the run); the reference's
  frame is its run with the results dropped. The ideal pass rewrote nothing, so the kernel's idealization is its own
  text read on the extended reals.
-/
import proofs.«132780_g18872086298805_cont_8to1_696_32_alg».proof.Defs
import proofs.«132780_g18872086298805_cont_8to1_696_32_alg».proof.Proof.OblK
import proofs.«132780_g18872086298805_cont_8to1_696_32_alg».proof.Proof.OblI
import proofs.«132780_g18872086298805_cont_8to1_696_32_alg».proof.Proof.BridgeI
import proofs.«132780_g18872086298805_cont_8to1_696_32_alg».proof.Proof.RefValue
import proofs.«132780_g18872086298805_cont_8to1_696_32_alg».proof.Proof.Gen.Kernel
import proofs.«132780_g18872086298805_cont_8to1_696_32_alg».proof.Proof.Gen.KernelIdeal
import proofs.«132780_g18872086298805_cont_8to1_696_32_alg».proof.Proof.Gen.ReferenceIdeal
import proofs.«132780_g18872086298805_cont_8to1_696_32_alg».proof.Proof.Gen.Pre_finite_inputs
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_k : Cert.frame_Kernel := fun m ρ _ => Cert.Kernel.Obl.frame m ρ
/-- So does its reading on the extended reals. -/
theorem frame_ki : Cert.frame_KernelIdeal := fun m ρ _ => Cert.KernelIdeal.Obl.frame m ρ
/-- The reference's frame is its run with the results dropped. -/
theorem frame_ri : Cert.frame_ReferenceIdeal := fun m ρ _ =>
  (θ_run Cert.ReferenceIdeal.defs _ _).mono (fun _ h c => (h c).2.2.2) (Cert.ReferenceIdeal.ValueP.run (F := Ideal) m ρ)

/-- The ideal pass rewrote nothing. -/
theorem preserves : Cert.preserves_Kernel_KernelIdeal := trivial

/-- On the extended reals, from memories agreeing on the arguments, the kernel's three result arrays and the reference's
    are the same: the log-softmax, the first layer, and the adjacency. -/
theorem algebraic : Cert.algebraic_KernelIdeal_ReferenceIdeal := by
  intro m ρ m' ρ' _ hagree
  refine ⟨_, _, _, Cert.KernelIdeal.Bridge.run m ρ, ?_⟩
  refine (θ_run Cert.ReferenceIdeal.defs _ _).mono (fun _ h c => ⟨(h c).1.trans ?_, (h c).2.1.trans ?_, (h c).2.2.1.trans ?_, (h c).2.2.2⟩)
    (Cert.ReferenceIdeal.ValueP.run (F := Ideal) m' ρ')
  · refine (Cert.ReferenceIdeal.ReadP.val_main_v8_eq _ _ _ _).trans ((Cert.RefValue.ref_logits _ _ _ _).trans ?_)
    rw [(hagree c).1, (hagree c).2.1, (hagree c).2.2.1, (hagree c).2.2.2]
  · refine (Cert.ReferenceIdeal.ReadP.val_main_v3_eq _ _ _).trans ((Cert.RefValue.ref_h1 _ _ _).trans ?_)
    rw [(hagree c).1, (hagree c).2.1, (hagree c).2.2.1]
  · exact (hagree c).2.1

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
